-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10_1)) (v1 : (c : Dev Cert.KernelIdeal.nD) → Buf (Elt Ideal) ((c.tc : Thread Cert.KernelIdeal.nD Cert.KernelIdeal.τ).loc Cert.KernelIdeal.main_v10_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_1) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S2048x1024 : Shape := ⟨2, ![2048, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S16x2048x64 : Shape := ⟨3, ![16, 2048, 64]⟩
abbrev S512x1024 : Shape := ⟨2, ![512, 1024]⟩
abbrev S16x512x64 : Shape := ⟨3, ![16, 512, 64]⟩
abbrev S512x3072 : Shape := ⟨2, ![512, 3072]⟩
abbrev S1x3072 : Shape := ⟨2, ![1, 3072]⟩
abbrev S512x16x64 : Shape := ⟨3, ![512, 16, 64]⟩
abbrev S16x2048x2048 : Shape := ⟨3, ![16, 2048, 2048]⟩
abbrev S1x512x64 : Shape := ⟨3, ![1, 512, 64]⟩
abbrev S1x2048x64 : Shape := ⟨3, ![1, 2048, 64]⟩
abbrev S64x1024 : Shape := ⟨2, ![64, 1024]⟩
abbrev S1x512x2048 : Shape := ⟨3, ![1, 512, 2048]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 23
  | .vmem => 24
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S2048x1024, .bf16⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x3072, .f32⟩
  | .hbm, ⟨14, _⟩ => ⟨S1024x3072, .bf16⟩
  | .hbm, ⟨15, _⟩ => ⟨S3072, .f32⟩
  | .hbm, ⟨16, _⟩ => ⟨S1024x1024, .f32⟩
  | .hbm, ⟨17, _⟩ => ⟨S1024x1024, .bf16⟩
  | .hbm, ⟨18, _⟩ => ⟨S16x2048x64, .bf16⟩
  | .hbm, ⟨19, _⟩ => ⟨S16x2048x64, .bf16⟩
  | .hbm, ⟨20, _⟩ => ⟨S16x2048x64, .bf16⟩
  | .hbm, ⟨21, _⟩ => ⟨S16x2048x2048, .f32⟩
  | .hbm, ⟨22, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S3072, .f32⟩
  | .local _ .vmem, ⟨4, _⟩ => ⟨S16x512x64, .bf16⟩
  | .local _ .vmem, ⟨5, _⟩ => ⟨S16x512x64, .bf16⟩
  | .local _ .vmem, ⟨6, _⟩ => ⟨S16x512x64, .bf16⟩
  | .local _ .vmem, ⟨7, _⟩ => ⟨S16x512x64, .bf16⟩
  | .local _ .vmem, ⟨8, _⟩ => ⟨S16x512x64, .bf16⟩
  | .local _ .vmem, ⟨9, _⟩ => ⟨S16x512x64, .bf16⟩
  | .local _ .vmem, ⟨10, _⟩ => ⟨S1x512x64, .bf16⟩
  | .local _ .vmem, ⟨11, _⟩ => ⟨S1x512x64, .bf16⟩
  | .local _ .vmem, ⟨12, _⟩ => ⟨S1x2048x64, .bf16⟩
  | .local _ .vmem, ⟨13, _⟩ => ⟨S1x2048x64, .bf16⟩
  | .local _ .vmem, ⟨14, _⟩ => ⟨S1x2048x64, .bf16⟩
  | .local _ .vmem, ⟨15, _⟩ => ⟨S1x2048x64, .bf16⟩
  | .local _ .vmem, ⟨16, _⟩ => ⟨S64x1024, .bf16⟩
  | .local _ .vmem, ⟨17, _⟩ => ⟨S64x1024, .bf16⟩
  | .local _ .vmem, ⟨18, _⟩ => ⟨S1024, .f32⟩
  | .local _ .vmem, ⟨19, _⟩ => ⟨S1x512x2048, .f32⟩
  | .local _ .vmem, ⟨20, _⟩ => ⟨S1x512x2048, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem6_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v36 : BitVec 1 := Scalar.cmpi .eq arg1 c15_i32
  let v37 : BitVec 32 := Scalar.extui v36
  let c0_i32_23 : BitVec 32 := 0#32
  let v38 : BitVec 1 := Scalar.cmpi .ne v37 c0_i32_23
  v38

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S64x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  bitsLt_bf16_f32 : FTy.bits .bf16 < FTy.bits .f32
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S512x3072 : S1x3072.Broadcasts S512x3072
  slices_S512x3072_o0_0_S512x1024 : S512x3072.Slices ![0, 0] S512x1024
  shapeCasts_S512x1024_S512x16x64 : S512x1024.ShapeCasts S512x16x64
  transposes_S512x16x64_p1_0_2_S16x512x64 : S512x16x64.Transposes [1, 0, 2] S16x512x64
  inb_S16x512x64_S16x512x64_0_0_0 : ∀ a, (![0, 0, 0] : Fin 3 → Nat) a + S16x512x64.size a ≤ S16x512x64.size a
  h_S16x512x64 : 0 < S16x512x64.numel
  packedbf16_S16x512x64_S16x512x64_0_0_0 : (Rect.unit (s := S16x512x64) ![0, 0, 0] S16x512x64.size inb_S16x512x64_S16x512x64_0_0_0).PackedRows (EltTy.packing .bf16)
  slices_S512x3072_o0_1024_S512x1024 : S512x3072.Slices ![0, 1024] S512x1024
  slices_S512x3072_o0_2048_S512x1024 : S512x3072.Slices ![0, 2048] S512x1024
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  dot_S512x1024_S1024x3072_S512x3072_1_0_0_1_n_n_wf : DotDims.WF S512x1024 S1024x3072 S512x3072 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .bf16 = 32 ∨ (Rect.block (s := S2048x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512x64.size a ≤ S16x2048x64.size a
  hwx0_3 : ∀ i : grid0.Coords, EltTy.bits .bf16 = 32 ∨ (Rect.block (s := S16x2048x64) S16x512x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x512x64.size a ≤ S16x2048x64.size a
  hwx0_4 : ∀ i : grid0.Coords, EltTy.bits .bf16 = 32 ∨ (Rect.block (s := S16x2048x64) S16x512x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x512x64.size a ≤ S16x2048x64.size a
  hwx0_5 : ∀ i : grid0.Coords, EltTy.bits .bf16 = 32 ∨ (Rect.block (s := S16x2048x64) S16x512x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S16x2048x64.size a
  hwx1_0 : ∀ i : grid1.Coords, EltTy.bits .bf16 = 32 ∨ (Rect.block (s := S16x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S16x2048x64.size a
  hwx1_1 : ∀ i : grid1.Coords, EltTy.bits .bf16 = 32 ∨ (Rect.block (s := S16x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S16x2048x64.size a
  hwx1_2 : ∀ i : grid1.Coords, EltTy.bits .bf16 = 32 ∨ (Rect.block (s := S16x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x1024.size a ≤ S1024x1024.size a
  hwx1_3 : ∀ i : grid1.Coords, EltTy.bits .bf16 = 32 ∨ (Rect.block (s := S1024x1024) S64x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x2048.size a ≤ S16x2048x2048.size a
  hwx1_5 : ∀ i : grid1.Coords, EltTy.bits .f32 = 32 ∨ (Rect.block (s := S16x2048x2048) S1x512x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1024.size a ≤ S2048x1024.size a
  hwx1_6 : ∀ i : grid1.Coords, EltTy.bits .f32 = 32 ∨ (Rect.block (s := S2048x1024) S512x1024.size (cc1_transform_6 i) (hinb1_6 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9_0) S16x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9_1) S16x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_2) S16x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v9_0) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9_1) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9_2) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S64x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10_0) S1x512x2048.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v10_1) S512x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S2048x16x64 : Shape := ⟨3, ![2048, 16, 64]⟩
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 56
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S2048x1024, .f32⟩
  | .hbm, ⟨11, _⟩ => ⟨S1x1024, .f32⟩
  | .hbm, ⟨12, _⟩ => ⟨S2048x1024, .f32⟩
  | .hbm, ⟨13, _⟩ => ⟨S2048x1024, .f32⟩
  | .hbm, ⟨14, _⟩ => ⟨S1024x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S1024x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x16x64, .f32⟩
  | .hbm, ⟨25, _⟩ => ⟨S16x2048x64, .f32⟩
  | .hbm, ⟨26, _⟩ => ⟨S2048x16x64, .f32⟩
  | .hbm, ⟨27, _⟩ => ⟨S16x2048x64, .f32⟩
  | .hbm, ⟨28, _⟩ => ⟨S2048x16x64, .f32⟩
  | .hbm, ⟨29, _⟩ => ⟨S16x2048x64, .f32⟩
  | .hbm, ⟨30, _⟩ => ⟨S16x2048x2048, .f32⟩
  | .hbm, ⟨31, _⟩ => ⟨S_, .f32⟩
  | .hbm, ⟨32, _⟩ => ⟨S16x2048x2048, .f32⟩
  | .hbm, ⟨33, _⟩ => ⟨S16x2048x2048, .f32⟩
  | .hbm, ⟨34, _⟩ => ⟨S_, .f32⟩
  | .hbm, ⟨35, _⟩ => ⟨S16x2048, .f32⟩
  | .hbm, ⟨36, _⟩ => ⟨S_, .f32⟩
  | .hbm, ⟨37, _⟩ => ⟨S16x2048, .f32⟩
  | .hbm, ⟨38, _⟩ => ⟨S16x2048, .f32⟩
  | .hbm, ⟨39, _⟩ => ⟨S16x2048x1, .f32⟩
  | .hbm, ⟨40, _⟩ => ⟨S16x2048x2048, .f32⟩
  | .hbm, ⟨41, _⟩ => ⟨S16x2048x2048, .f32⟩
  | .hbm, ⟨42, _⟩ => ⟨S16x2048x2048, .f32⟩
  | .hbm, ⟨43, _⟩ => ⟨S_, .f32⟩
  | .hbm, ⟨44, _⟩ => ⟨S16x2048, .f32⟩
  | .hbm, ⟨45, _⟩ => ⟨S16x2048x1, .f32⟩
  | .hbm, ⟨46, _⟩ => ⟨S16x2048x2048, .f32⟩
  | .hbm, ⟨47, _⟩ => ⟨S16x2048x2048, .f32⟩
  | .hbm, ⟨48, _⟩ => ⟨S16x2048x64, .f32⟩
  | .hbm, ⟨49, _⟩ => ⟨S2048x16x64, .f32⟩
  | .hbm, ⟨50, _⟩ => ⟨S2048x1024, .f32⟩
  | .hbm, ⟨51, _⟩ => ⟨S1024x1024, .f32⟩
  | .hbm, ⟨52, _⟩ => ⟨S2048x1024, .f32⟩
  | .hbm, ⟨53, _⟩ => ⟨S1x1024, .f32⟩
  | .hbm, ⟨54, _⟩ => ⟨S2048x1024, .f32⟩
  | .hbm, ⟨55, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  shapeCasts_S2048x1024_S2048x16x64 : S2048x1024.ShapeCasts S2048x16x64
  transposes_S2048x16x64_S16x2048x64_1_0_2 : S2048x16x64.Transposes [1, 0, 2] S16x2048x64
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  transposes_S16x2048x64_S2048x16x64_1_0_2 : S16x2048x64.Transposes [1, 0, 2] S2048x16x64
  shapeCasts_S2048x16x64_S2048x1024 : S2048x16x64.ShapeCasts S2048x1024
  dot_S2048x1024_S1024x1024_S2048x1024_1_0_0_1_n_n_wf : DotDims.WF S2048x1024 S1024x1024 S2048x1024 [1] [0] [0] [1] [] []
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.K.QkvBody.lean ====
/-
  The projection kernel (the first pallas_call) as proof data for the pipeline, at any float instance and at any
  contents `V` of the TensorCore's buffers when the region is entered.

  At grid point t (one of 4 row tiles) the body loads the tile's 512 rows of x, the whole [1024, 3072] weight
  matrix and the whole [3072] bias, and stores three head-major blocks [16, 512, 64] — the Q, K and V projections
  of those rows — each through one whole-block store. So after the body each input's staging buffer still holds its
  block, and each output's holds the one payload of its store, a function of the three loaded blocks.
-/
import proofs.«112914_j24472723653394_2_alg».proof.Proof.Gen.Kernel.Launch
import proofs.«112914_j24472723653394_2_alg».proof.Proof.Gen.Kernel.Skeleton
import proofs.«112914_j24472723653394_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for any proof data over `V`'s arrays whose body leaves the block in place:
    the row tile of x (window 0), and the weight matrix and the bias (windows 1 and 2, whose index never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is loaded and stored whole -/

abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rB : Rect S3072 := Rect.unit (s := S3072) ![0] S3072.size inb_S3072_S3072_0
abbrev rO : Rect S16x512x64 := Rect.unit (s := S16x512x64) ![0, 0, 0] S16x512x64.size inb_S16x512x64_S16x512x64_0_0_0

/-! ## What the body leaves in each output window's buffer -/

/-- The Q block: the one store's payload over the three loaded blocks. -/
def outQ (x : Vec F S512x1024 .bf16) (w : Vec F S1024x3072 .bf16) (b : Vec F S3072 .f32) : Vec F S16x512x64 .bf16 :=
  View.canon [⟨rO, k0_pay2 (View.ld x rX) (View.ld w rW) (View.ld b rB)⟩]
/-- The K block. -/
def outK (x : Vec F S512x1024 .bf16) (w : Vec F S1024x3072 .bf16) (b : Vec F S3072 .f32) : Vec F S16x512x64 .bf16 :=
  View.canon [⟨rO, k0_pay3 (View.ld x rX) (View.ld w rW) (View.ld b rB)⟩]
/-- The V block. -/
def outV (x : Vec F S512x1024 .bf16) (w : Vec F S1024x3072 .bf16) (b : Vec F S3072 .f32) : Vec F S16x512x64 .bf16 :=
  View.canon [⟨rO, k0_pay4 (View.ld x rX) (View.ld w rW) (View.ld b rB)⟩]

/-- One whole-block store covers the block. -/
theorem coverO (p : Vec F S16x512x64 .bf16) (y : S16x512x64.Idx) :
    ∃ pc ∈ ([⟨rO, p⟩] : List (View.Piece (Elt F) S16x512x64 .bf16)), y ∈ pc.1.set :=
  View.cover_of_tiled [⟨rO, p⟩] S16x512x64.size (by rfl) y

/-! ## The body's triple -/

set_option maxHeartbeats 1000000 in
/-- On whole staging memrefs — the three inputs' at read contents x, w, b, the three outputs' at anything — the body
    runs to the continuation holding the inputs' as they were and the outputs' at the Q, K and V blocks. -/
theorem sound_qkv (c : Dev nD) (E : Set ℕ) (i : grid0.Coords)
    (arg1 : Memref sig .tc .vmem S512x1024 .bf16) (harg1 : arg1.IsWhole) (arg2 : Memref sig .tc .vmem S1024x3072 .bf16) (harg2 : arg2.IsWhole)
    (arg3 : Memref sig .tc .vmem S3072 .f32) (harg3 : arg3.IsWhole) (arg4 : Memref sig .tc .vmem S16x512x64 .bf16) (harg4 : arg4.IsWhole)
    (arg5 : Memref sig .tc .vmem S16x512x64 .bf16) (harg5 : arg5.IsWhole) (arg6 : Memref sig .tc .vmem S16x512x64 .bf16) (harg6 : arg6.IsWhole)
    (x : Vec F S512x1024 .bf16) (w : Vec F S1024x3072 .bf16) (b : Vec F S3072 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare w ∗ owns (c : Thread nD τ) arg3 fullShare b
            ∗ owns (c : Thread nD τ) arg4 fullShare (outQ x w b) ∗ owns (c : Thread nD τ) arg5 fullShare (outK x w b)
            ∗ owns (c : Thread nD τ) arg6 fullShare (outV x w b)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverO _)
  isplitl [H5]
  · iexists _; isplitr
    swap; · iexact H5
    ipureintro
    exact View.read_writes_eq_canon _ _ _ (coverO _)
  iexists _; isplitr
  swap; · iexact H6
  ipureintro
  exact View.read_writes_eq_canon _ _ _ (coverO _)

/-! ## The pipeline's proof data -/

/-- The proof data of the projection pipeline on core `c`: the arrays as the region finds them; after the body at
    point `t` each input's buffer at its block and the three outputs' at the Q, K and V blocks of the input blocks;
    the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outQ (iblk0 V c 0 t) (iblk0 V c 1 t) (iblk0 V c 2 t)
    | ⟨4, _⟩ => outK (iblk0 V c 0 t) (iblk0 V c 1 t) (iblk0 V c 2 t)
    | ⟨5, _⟩ => outV (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outQ (iblk0 V c 0 t) (iblk0 V c 1 t) (iblk0 V c 2 t) := by dsimp only [dat0]
theorem after0_4 (c : Dev nD) (t : Fin cfg0.N) : (dat0 V c).after 4 t = outK (iblk0 V c 0 t) (iblk0 V c 1 t) (iblk0 V c 2 t) := by dsimp only [dat0]
theorem after0_5 (c : Dev nD) (t : Fin cfg0.N) : (dat0 V c).after 5 t = outV (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_qkv c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Conds.lean ====
/-
  The fused attention kernel's grid has 64 points, point t working on head t mod 16 of query tile t / 16.
  This module decides, over the grid, where the body's two conditionals fire (the accumulator is zeroed at the first
  head of a tile, the projected output is stored at the last), where the output window is idle, and states what each
  input window's staging buffer holds when the body is entered: the window's block of the array the region found.
-/
import proofs.«112914_j24472723653394_2_alg».proof.Proof.Gen.Kernel.Launch
import proofs.«112914_j24472723653394_2_alg».proof.Proof.Gen.Kernel.Skeleton
import proofs.«112914_j24472723653394_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditionals over the grid -/

/-- The body zeroes the accumulator: its first conditional's test, from the grid coordinates. -/
abbrev zeroing (i : grid1.Coords) : Prop :=
  (Scalar.cmpi .ne (Scalar.extui (Scalar.cmpi .eq (BitVec.ofNat 32 (i 1).val) 0#32)) 0#32) = 1#1

/-- It fires exactly at a tile's first head. -/
theorem zeroing_iff : ∀ t : Fin cfg1.N, zeroing (grid1.coords t) ↔ t.val % 16 = 0 :=
  (by decide +kernel : ∀ t : Fin grid1.N, zeroing (grid1.coords t) ↔ t.val % 16 = 0)

/-- The body stores the projected output: its second conditional's test. -/
abbrev closing (i : grid1.Coords) : Prop := k1_cond2 i = 1#1

/-- It fires exactly at a tile's last head. -/
theorem closing_iff : ∀ t : Fin cfg1.N, closing (grid1.coords t) ↔ t.val % 16 = 15 :=
  (by decide +kernel : ∀ t : Fin grid1.N, closing (grid1.coords t) ↔ t.val % 16 = 15)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel

/-- Away from a tile's last head the projected output's window is idle and is not written back. -/
theorem idle1_6 : ∀ t : Fin cfg1.N, ¬closing (grid1.coords t) → cfg1.idle 6 (grid1.coords t) = true := by decide +kernel
theorem noFlush1_6 : ∀ t : Fin cfg1.N, ¬closing (grid1.coords t) → (cfg1.win 6).flush t = false := by decide +kernel
/-- At a tile's last head it is live. -/
theorem live1_6 : ∀ t : Fin cfg1.N, closing (grid1.coords t) → cfg1.idle 6 (grid1.coords t) = false := by decide +kernel

/-! ## The staging memrefs the body is called with, and the accumulator -/

abbrev sm0 (t : Fin cfg1.N) : Memref sig .tc .vmem S1x512x64 .bf16 := win1_0.stage (cfg1.slots t 0)
abbrev sw0 (t : Fin cfg1.N) : (sm0 t).IsWhole := hstage1_0 ((cfg1.slots t 0).cast nbuf1_0)
abbrev sm1 (t : Fin cfg1.N) : Memref sig .tc .vmem S1x2048x64 .bf16 := win1_1.stage (cfg1.slots t 1)
abbrev sw1 (t : Fin cfg1.N) : (sm1 t).IsWhole := hstage1_1 ((cfg1.slots t 1).cast nbuf1_1)
abbrev sm2 (t : Fin cfg1.N) : Memref sig .tc .vmem S1x2048x64 .bf16 := win1_2.stage (cfg1.slots t 2)
abbrev sw2 (t : Fin cfg1.N) : (sm2 t).IsWhole := hstage1_2 ((cfg1.slots t 2).cast nbuf1_2)
abbrev sm3 (t : Fin cfg1.N) : Memref sig .tc .vmem S64x1024 .bf16 := win1_3.stage (cfg1.slots t 3)
abbrev sw3 (t : Fin cfg1.N) : (sm3 t).IsWhole := hstage1_3 ((cfg1.slots t 3).cast nbuf1_3)
abbrev sm4 (t : Fin cfg1.N) : Memref sig .tc .vmem S1024 .f32 := win1_4.stage (cfg1.slots t 4)
abbrev sw4 (t : Fin cfg1.N) : (sm4 t).IsWhole := hstage1_4 ((cfg1.slots t 4).cast nbuf1_4)
abbrev sm5 (t : Fin cfg1.N) : Memref sig .tc .vmem S1x512x2048 .f32 := win1_5.stage (cfg1.slots t 5)
abbrev sw5 (t : Fin cfg1.N) : (sm5 t).IsWhole := hstage1_5 ((cfg1.slots t 5).cast nbuf1_5)
abbrev sm6 (t : Fin cfg1.N) : Memref sig .tc .vmem S512x1024 .f32 := win1_6.stage (cfg1.slots t 6)
abbrev sw6 (t : Fin cfg1.N) : (sm6 t).IsWhole := hstage1_6 ((cfg1.slots t 6).cast nbuf1_6)

/-- The accumulator: a whole scoped buffer of the kernel's own, carried from head to head. -/
abbrev accM : Memref sig .tc .vmem S512x1024 .f32 := Memref.whole cc1_scratch0
/-- The views through which the accumulator's and the two outputs' contents are stated. -/
abbrev accV : View sig .tc .vmem S512x1024 .f32 := (accM).view
abbrev attnV : View sig .tc .vmem S1x512x2048 .f32 := (Memref.whole cc1_stg5_0 : Memref sig .tc .vmem S1x512x2048 .f32).view
abbrev projV : View sig .tc .vmem S512x1024 .f32 := (Memref.whole cc1_stg6_0 : Memref sig .tc .vmem S512x1024 .f32).view

/-! ## The region invariant of the class, with the accumulator singled out -/

/-- The core's scoped buffers other than this call's staging buffers and the accumulator (the first call's staging
    buffers), each at some contents, and the generator register at some state: what the body never touches. -/
def spare (c : Dev nD) : sProp 𝕄 :=
  iprop(iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))
    ∗ (∃ r, prngReg c r))

/-- The class's invariant is the accumulator at some contents beside the untouched rest. -/
theorem PhiA1_eq (c : Dev nD) :
    (Pipeline.ΦA spec1 c : sProp 𝕄) = iprop((∃ d, owns (c : Thread nD τ) accM fullShare d) ∗ spare (F := F) c) := by
  unfold Pipeline.ΦA; rw [scopedRest1_eq]; unfold spare; simp only [accM, owns_whole]
  refine BI.equiv_iff.mp ⟨?_, ?_⟩
  · show (_ : sProp 𝕄) ⊢ _
    iintro ⟨⟨R0, R1, R2, R3, R4, R5, R6, R7, R8, R9, HS⟩, Hg⟩
    isplitl [HS]; · iexact HS
    isplitr [Hg]; swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  · show (_ : sProp 𝕄) ⊢ _
    iintro ⟨HS, ⟨R0, R1, R2, R3, R4, R5, R6, R7, R8, R9⟩, Hg⟩
    isplitr [Hg]; swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact HS

/-! ## The windows' blocks, at the contents the region is entered with -/

section Blocks
variable (V : (c : Dev nD) → (b : Ref sig .tc) → Buf (Elt F) ((c : Thread nD τ).loc b))

/-- Window `w`'s block at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, fetched there or not, for any
    proof data over the entry arrays whose body leaves the block in place: where the block is not fetched its index has
    not moved since the point before. One statement per input window. -/
theorem held1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem held1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem held1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem held1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem held1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.Kernel.Hand

end
-- ==== Proof.K.RunMid.lean ====
/-
  The fused attention body at a head that is neither a tile's first nor its last: it loads the query, key, value and
  projection blocks, stores the attention weights into their window's buffer, and adds the head's share of the output
  projection to the accumulator. The projected output's buffer and the bias are left as found.
-/
import proofs.«112914_j24472723653394_2_alg».proof.Proof.K.Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple at a middle head, on whole memrefs: the inputs at their contents, the attention window's buffer
    at anything, the projected output's buffer at contents handed back untouched, the accumulator at what the head
    before left. It runs to a continuation holding the inputs as they were, the attention buffer and the accumulator
    with the stores' pieces written (the pieces, last first, are the witness the run finds). -/
noncomputable def runMid (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : ¬closing i)
    (x0 : Vec F S1x512x64 .bf16) (x1 : Vec F S1x2048x64 .bf16) (x2 : Vec F S1x2048x64 .bf16) (x3 : Vec F S64x1024 .bf16) (x4 : Vec F S1024 .f32) (xs : Vec F S512x1024 .f32) :
    Σ' (L5 : List (View.Piece (Elt F) S1x512x2048 .f32)), { LS : List (View.Piece (Elt F) S512x1024 .f32) //
      ∀ (xi6 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xi6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc1__fused_kernel i arg2 harg2 arg3 harg3 arg4 harg4 arg5 harg5 arg6 harg6 arg7 harg7 arg8 harg8 arg9 harg9) K } := by
  refine ⟨?_, ?_, fun xi6 E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hf6
    obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS

end Cert.Kernel.Hand

end
-- ==== Proof.K.RunFirst.lean ====
/-
  The fused attention body at a tile's first head: it first zeroes the accumulator, then proceeds as at any head —
  loads the query, key, value and projection blocks, stores the attention weights, and adds the head's share of the
  output projection to the (zeroed) accumulator. The projected output's buffer and the bias are left as found.
-/
import proofs.«112914_j24472723653394_2_alg».proof.Proof.K.RunMid

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple at a tile's first head, on whole memrefs: the inputs at their contents, the attention window's
    buffer and the accumulator at anything, the projected output's buffer at contents handed back untouched. It runs
    to a continuation holding the inputs as they were, the attention buffer and the accumulator with the stores'
    pieces written (the pieces, last first, are the witness the run finds). -/
noncomputable def runFirst (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : zeroing i) (hc1 : ¬closing i)
    (x0 : Vec F S1x512x64 .bf16) (x1 : Vec F S1x2048x64 .bf16) (x2 : Vec F S1x2048x64 .bf16) (x3 : Vec F S64x1024 .bf16) (x4 : Vec F S1024 .f32) :
    Σ' (L5 : List (View.Piece (Elt F) S1x512x2048 .f32)), { LS : List (View.Piece (Elt F) S512x1024 .f32) //
      ∀ (xi6 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc1__fused_kernel i arg2 harg2 arg3 harg3 arg4 harg4 arg5 harg5 arg6 harg6 arg7 harg7 arg8 harg8 arg9 harg9) K } := by
  refine ⟨?_, ?_, fun xi6 E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS

end Cert.Kernel.Hand

end
-- ==== Proof.K.RunLast.lean ====
/-
  The fused attention body at a tile's last head: it proceeds as at any head — loads the query, key, value and
  projection blocks, stores the attention weights, adds the head's share of the output projection to the
  accumulator — and then stores the accumulator plus the bias row into the projected output's buffer.
-/
import proofs.«112914_j24472723653394_2_alg».proof.Proof.K.RunFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple at a tile's last head, on whole memrefs: the inputs at their contents, the two outputs' buffers
    at anything, the accumulator at what the head before left. It runs to a continuation holding the inputs as they
    were, the two output buffers and the accumulator with the stores' pieces written (the pieces, last first, are the
    witness the run finds). -/
noncomputable def runLast (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : closing i)
    (x0 : Vec F S1x512x64 .bf16) (x1 : Vec F S1x2048x64 .bf16) (x2 : Vec F S1x2048x64 .bf16) (x3 : Vec F S64x1024 .bf16) (x4 : Vec F S1024 .f32) (xs : Vec F S512x1024 .f32) :
    Σ' (L5 : List (View.Piece (Elt F) S1x512x2048 .f32)) (L6 : List (View.Piece (Elt F) S512x1024 .f32)), { LS : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc1__fused_kernel i arg2 harg2 arg3 harg3 arg4 harg4 arg5 harg5 arg6 harg6 arg7 harg7 arg8 harg8 arg9 harg9) K } := by
  refine ⟨?_, ?_, ?_, fun E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS

end Cert.Kernel.Hand

end
-- ==== Proof.K.Data.lean ====
/-
  What the fused attention body leaves behind, head by head, and the pipeline's proof data built from it.

  At every point the attention window's buffer is overwritten whole; the accumulator is overwritten whole too (zeroed
  first at a tile's first head, otherwise read as the head before left it); the projected output's buffer is written
  only at a tile's last head and is idle elsewhere. The contents are stated through the pieces each case's run found,
  read back over arbitrary contents: the pieces cover the buffer, so what it held before does not matter.
-/
import proofs.«112914_j24472723653394_2_alg».proof.Proof.K.RunLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves, as the run's pieces read back -/

theorem coverFirst5 (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : zeroing i) (hc1 : ¬closing i) (x0 : Vec F S1x512x64 .bf16) (x1 : Vec F S1x2048x64 .bf16) (x2 : Vec F S1x2048x64 .bf16) (x3 : Vec F S64x1024 .bf16) (x4 : Vec F S1024 .f32) (y : S1x512x2048.Idx) :
    ∃ pc ∈ (runFirst c i arg2 harg2 arg3 harg3 arg4 harg4 arg5 harg5 arg6 harg6 arg7 harg7 arg8 harg8 arg9 harg9 hc0 hc1 x0 x1 x2 x3 x4).1, y ∈ pc.1.set :=
  View.cover_of_tiledL (runFirst c i arg2 harg2 arg3 harg3 arg4 harg4 arg5 harg5 arg6 harg6 arg7 harg7 arg8 harg8 arg9 harg9 hc0 hc1 x0 x1 x2 x3 x4).1 S1x512x2048.size (by sl_kernel_rfl) y
theorem coverFirstS (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : zeroing i) (hc1 : ¬closing i) (x0 : Vec F S1x512x64 .bf16) (x1 : Vec F S1x2048x64 .bf16) (x2 : Vec F S1x2048x64 .bf16) (x3 : Vec F S64x1024 .bf16) (x4 : Vec F S1024 .f32) (y : S512x1024.Idx) :
    ∃ pc ∈ (runFirst c i arg2 harg2 arg3 harg3 arg4 harg4 arg5 harg5 arg6 harg6 arg7 harg7 arg8 harg8 arg9 harg9 hc0 hc1 x0 x1 x2 x3 x4).2.1, y ∈ pc.1.set :=
  View.cover_of_tiledL (runFirst c i arg2 harg2 arg3 harg3 arg4 harg4 arg5 harg5 arg6 harg6 arg7 harg7 arg8 harg8 arg9 harg9 hc0 hc1 x0 x1 x2 x3 x4).2.1 S512x1024.size (by sl_kernel_rfl) y
/-- The attention weights' buffer and the accumulator after a tile's first head. -/
def attnFirst (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : zeroing i) (hc1 : ¬closing i) (x0 : Vec F S1x512x64 .bf16) (x1 : Vec F S1x2048x64 .bf16) (x2 : Vec F S1x2048x64 .bf16) (x3 : Vec F S64x1024 .bf16) (x4 : Vec F S1024 .f32) : Vec F S1x512x2048 .f32 :=
  attnV.read (Elt F) (attnV.writes (Elt F) attnV.junk (runFirst c i arg2 harg2 arg3 harg3 arg4 harg4 arg5 harg5 arg6 harg6 arg7 harg7 arg8 harg8 arg9 harg9 hc0 hc1 x0 x1 x2 x3 x4).1)
def accFirst (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : zeroing i) (hc1 : ¬closing i) (x0 : Vec F S1x512x64 .bf16) (x1 : Vec F S1x2048x64 .bf16) (x2 : Vec F S1x2048x64 .bf16) (x3 : Vec F S64x1024 .bf16) (x4 : Vec F S1024 .f32) : Vec F S512x1024 .f32 :=
  accV.read (Elt F) (accV.writes (Elt F) accV.junk (runFirst c i arg2 harg2 arg3 harg3 arg4 harg4 arg5 harg5 arg6 harg6 arg7 harg7 arg8 harg8 arg9 harg9 hc0 hc1 x0 x1 x2 x3 x4).2.1)

theorem coverMid5 (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : ¬closing i) (x0 : Vec F S1x512x64 .bf16) (x1 : Vec F S1x2048x64 .bf16) (x2 : Vec F S1x2048x64 .bf16) (x3 : Vec F S64x1024 .bf16) (x4 : Vec F S1024 .f32) (xs : Vec F S512x1024 .f32) (y : S1x512x2048.Idx) :
    ∃ pc ∈ (runMid c i arg2 harg2 arg3 harg3 arg4 harg4 arg5 harg5 arg6 harg6 arg7 harg7 arg8 harg8 arg9 harg9 hc0 hc1 x0 x1 x2 x3 x4 xs).1, y ∈ pc.1.set :=
  View.cover_of_tiledL (runMid c i arg2 harg2 arg3 harg3 arg4 harg4 arg5 harg5 arg6 harg6 arg7 harg7 arg8 harg8 arg9 harg9 hc0 hc1 x0 x1 x2 x3 x4 xs).1 S1x512x2048.size (by sl_kernel_rfl) y
theorem coverMidS (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : ¬closing i) (x0 : Vec F S1x512x64 .bf16) (x1 : Vec F S1x2048x64 .bf16) (x2 : Vec F S1x2048x64 .bf16) (x3 : Vec F S64x1024 .bf16) (x4 : Vec F S1024 .f32) (xs : Vec F S512x1024 .f32) (y : S512x1024.Idx) :
    ∃ pc ∈ (runMid c i arg2 harg2 arg3 harg3 arg4 harg4 arg5 harg5 arg6 harg6 arg7 harg7 arg8 harg8 arg9 harg9 hc0 hc1 x0 x1 x2 x3 x4 xs).2.1, y ∈ pc.1.set :=
  View.cover_of_tiledL (runMid c i arg2 harg2 arg3 harg3 arg4 harg4 arg5 harg5 arg6 harg6 arg7 harg7 arg8 harg8 arg9 harg9 hc0 hc1 x0 x1 x2 x3 x4 xs).2.1 S512x1024.size (by sl_kernel_rfl) y
/-- The same after a middle head, the accumulator entered at `xs`. -/
def attnMid (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : ¬closing i) (x0 : Vec F S1x512x64 .bf16) (x1 : Vec F S1x2048x64 .bf16) (x2 : Vec F S1x2048x64 .bf16) (x3 : Vec F S64x1024 .bf16) (x4 : Vec F S1024 .f32) (xs : Vec F S512x1024 .f32) : Vec F S1x512x2048 .f32 :=
  attnV.read (Elt F) (attnV.writes (Elt F) attnV.junk (runMid c i arg2 harg2 arg3 harg3 arg4 harg4 arg5 harg5 arg6 harg6 arg7 harg7 arg8 harg8 arg9 harg9 hc0 hc1 x0 x1 x2 x3 x4 xs).1)
def accMid (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : ¬closing i) (x0 : Vec F S1x512x64 .bf16) (x1 : Vec F S1x2048x64 .bf16) (x2 : Vec F S1x2048x64 .bf16) (x3 : Vec F S64x1024 .bf16) (x4 : Vec F S1024 .f32) (xs : Vec F S512x1024 .f32) : Vec F S512x1024 .f32 :=
  accV.read (Elt F) (accV.writes (Elt F) accV.junk (runMid c i arg2 harg2 arg3 harg3 arg4 harg4 arg5 harg5 arg6 harg6 arg7 harg7 arg8 harg8 arg9 harg9 hc0 hc1 x0 x1 x2 x3 x4 xs).2.1)

theorem coverLast5 (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : closing i) (x0 : Vec F S1x512x64 .bf16) (x1 : Vec F S1x2048x64 .bf16) (x2 : Vec F S1x2048x64 .bf16) (x3 : Vec F S64x1024 .bf16) (x4 : Vec F S1024 .f32) (xs : Vec F S512x1024 .f32) (y : S1x512x2048.Idx) :
    ∃ pc ∈ (runLast c i arg2 harg2 arg3 harg3 arg4 harg4 arg5 harg5 arg6 harg6 arg7 harg7 arg8 harg8 arg9 harg9 hc0 hc1 x0 x1 x2 x3 x4 xs).1, y ∈ pc.1.set :=
  View.cover_of_tiledL (runLast c i arg2 harg2 arg3 harg3 arg4 harg4 arg5 harg5 arg6 harg6 arg7 harg7 arg8 harg8 arg9 harg9 hc0 hc1 x0 x1 x2 x3 x4 xs).1 S1x512x2048.size (by sl_kernel_rfl) y
theorem coverLast6 (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : closing i) (x0 : Vec F S1x512x64 .bf16) (x1 : Vec F S1x2048x64 .bf16) (x2 : Vec F S1x2048x64 .bf16) (x3 : Vec F S64x1024 .bf16) (x4 : Vec F S1024 .f32) (xs : Vec F S512x1024 .f32) (y : S512x1024.Idx) :
    ∃ pc ∈ (runLast c i arg2 harg2 arg3 harg3 arg4 harg4 arg5 harg5 arg6 harg6 arg7 harg7 arg8 harg8 arg9 harg9 hc0 hc1 x0 x1 x2 x3 x4 xs).2.1, y ∈ pc.1.set :=
  View.cover_of_tiledL (runLast c i arg2 harg2 arg3 harg3 arg4 harg4 arg5 harg5 arg6 harg6 arg7 harg7 arg8 harg8 arg9 harg9 hc0 hc1 x0 x1 x2 x3 x4 xs).2.1 S512x1024.size (by sl_kernel_rfl) y
theorem coverLastS (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : closing i) (x0 : Vec F S1x512x64 .bf16) (x1 : Vec F S1x2048x64 .bf16) (x2 : Vec F S1x2048x64 .bf16) (x3 : Vec F S64x1024 .bf16) (x4 : Vec F S1024 .f32) (xs : Vec F S512x1024 .f32) (y : S512x1024.Idx) :
    ∃ pc ∈ (runLast c i arg2 harg2 arg3 harg3 arg4 harg4 arg5 harg5 arg6 harg6 arg7 harg7 arg8 harg8 arg9 harg9 hc0 hc1 x0 x1 x2 x3 x4 xs).2.2.1, y ∈ pc.1.set :=
  View.cover_of_tiledL (runLast c i arg2 harg2 arg3 harg3 arg4 harg4 arg5 harg5 arg6 harg6 arg7 harg7 arg8 harg8 arg9 harg9 hc0 hc1 x0 x1 x2 x3 x4 xs).2.2.1 S512x1024.size (by sl_kernel_rfl) y
/-- The same after a tile's last head, and the projected output's buffer there. -/
def attnLast (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : closing i) (x0 : Vec F S1x512x64 .bf16) (x1 : Vec F S1x2048x64 .bf16) (x2 : Vec F S1x2048x64 .bf16) (x3 : Vec F S64x1024 .bf16) (x4 : Vec F S1024 .f32) (xs : Vec F S512x1024 .f32) : Vec F S1x512x2048 .f32 :=
  attnV.read (Elt F) (attnV.writes (Elt F) attnV.junk (runLast c i arg2 harg2 arg3 harg3 arg4 harg4 arg5 harg5 arg6 harg6 arg7 harg7 arg8 harg8 arg9 harg9 hc0 hc1 x0 x1 x2 x3 x4 xs).1)
def projLast (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : closing i) (x0 : Vec F S1x512x64 .bf16) (x1 : Vec F S1x2048x64 .bf16) (x2 : Vec F S1x2048x64 .bf16) (x3 : Vec F S64x1024 .bf16) (x4 : Vec F S1024 .f32) (xs : Vec F S512x1024 .f32) : Vec F S512x1024 .f32 :=
  projV.read (Elt F) (projV.writes (Elt F) projV.junk (runLast c i arg2 harg2 arg3 harg3 arg4 harg4 arg5 harg5 arg6 harg6 arg7 harg7 arg8 harg8 arg9 harg9 hc0 hc1 x0 x1 x2 x3 x4 xs).2.1)
def accLast (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : closing i) (x0 : Vec F S1x512x64 .bf16) (x1 : Vec F S1x2048x64 .bf16) (x2 : Vec F S1x2048x64 .bf16) (x3 : Vec F S64x1024 .bf16) (x4 : Vec F S1024 .f32) (xs : Vec F S512x1024 .f32) : Vec F S512x1024 .f32 :=
  accV.read (Elt F) (accV.writes (Elt F) accV.junk (runLast c i arg2 harg2 arg3 harg3 arg4 harg4 arg5 harg5 arg6 harg6 arg7 harg7 arg8 harg8 arg9 harg9 hc0 hc1 x0 x1 x2 x3 x4 xs).2.2.1)

section Region
variable (V : (c : Dev nD) → (b : Ref sig .tc) → Buf (Elt F) ((c : Thread nD τ).loc b))

/-! ## The accumulator, head by head -/

/-- What the accumulator holds after the body at position `n`: at a tile's first head the first case's contents
    (whatever it held before), otherwise the middle or last case's, entered at what position `n - 1` left. -/
def accAt (c : Dev nD) : (n : ℕ) → n < cfg1.N → Vec F S512x1024 .f32
  | 0, hn =>
    accFirst c (grid1.coords (⟨0, hn⟩ : Fin cfg1.N)) (sm0 (⟨0, hn⟩ : Fin cfg1.N)) (sw0 (⟨0, hn⟩ : Fin cfg1.N)) (sm1 (⟨0, hn⟩ : Fin cfg1.N)) (sw1 (⟨0, hn⟩ : Fin cfg1.N)) (sm2 (⟨0, hn⟩ : Fin cfg1.N)) (sw2 (⟨0, hn⟩ : Fin cfg1.N)) (sm3 (⟨0, hn⟩ : Fin cfg1.N)) (sw3 (⟨0, hn⟩ : Fin cfg1.N)) (sm4 (⟨0, hn⟩ : Fin cfg1.N)) (sw4 (⟨0, hn⟩ : Fin cfg1.N)) (sm5 (⟨0, hn⟩ : Fin cfg1.N)) (sw5 (⟨0, hn⟩ : Fin cfg1.N)) (sm6 (⟨0, hn⟩ : Fin cfg1.N)) (sw6 (⟨0, hn⟩ : Fin cfg1.N)) accM (Memref.isWhole_whole _) ((zeroing_iff (⟨0, hn⟩ : Fin cfg1.N)).mpr (Nat.zero_mod _)) (fun h => absurd ((closing_iff (⟨0, hn⟩ : Fin cfg1.N)).mp h) (show ¬(0 % 16 = 15) by decide)) (iblk1 V c 0 (⟨0, hn⟩ : Fin cfg1.N)) (iblk1 V c 1 (⟨0, hn⟩ : Fin cfg1.N)) (iblk1 V c 2 (⟨0, hn⟩ : Fin cfg1.N)) (iblk1 V c 3 (⟨0, hn⟩ : Fin cfg1.N)) (iblk1 V c 4 (⟨0, hn⟩ : Fin cfg1.N))
  | n + 1, hn =>
    if h0 : (n + 1) % 16 = 0 then
      accFirst c (grid1.coords (⟨n + 1, hn⟩ : Fin cfg1.N)) (sm0 (⟨n + 1, hn⟩ : Fin cfg1.N)) (sw0 (⟨n + 1, hn⟩ : Fin cfg1.N)) (sm1 (⟨n + 1, hn⟩ : Fin cfg1.N)) (sw1 (⟨n + 1, hn⟩ : Fin cfg1.N)) (sm2 (⟨n + 1, hn⟩ : Fin cfg1.N)) (sw2 (⟨n + 1, hn⟩ : Fin cfg1.N)) (sm3 (⟨n + 1, hn⟩ : Fin cfg1.N)) (sw3 (⟨n + 1, hn⟩ : Fin cfg1.N)) (sm4 (⟨n + 1, hn⟩ : Fin cfg1.N)) (sw4 (⟨n + 1, hn⟩ : Fin cfg1.N)) (sm5 (⟨n + 1, hn⟩ : Fin cfg1.N)) (sw5 (⟨n + 1, hn⟩ : Fin cfg1.N)) (sm6 (⟨n + 1, hn⟩ : Fin cfg1.N)) (sw6 (⟨n + 1, hn⟩ : Fin cfg1.N)) accM (Memref.isWhole_whole _) ((zeroing_iff (⟨n + 1, hn⟩ : Fin cfg1.N)).mpr h0) (fun h => absurd ((closing_iff (⟨n + 1, hn⟩ : Fin cfg1.N)).mp h) (show ¬((n + 1) % 16 = 15) by omega)) (iblk1 V c 0 (⟨n + 1, hn⟩ : Fin cfg1.N)) (iblk1 V c 1 (⟨n + 1, hn⟩ : Fin cfg1.N)) (iblk1 V c 2 (⟨n + 1, hn⟩ : Fin cfg1.N)) (iblk1 V c 3 (⟨n + 1, hn⟩ : Fin cfg1.N)) (iblk1 V c 4 (⟨n + 1, hn⟩ : Fin cfg1.N))
    else if h1 : (n + 1) % 16 = 15 then
      accLast c (grid1.coords (⟨n + 1, hn⟩ : Fin cfg1.N)) (sm0 (⟨n + 1, hn⟩ : Fin cfg1.N)) (sw0 (⟨n + 1, hn⟩ : Fin cfg1.N)) (sm1 (⟨n + 1, hn⟩ : Fin cfg1.N)) (sw1 (⟨n + 1, hn⟩ : Fin cfg1.N)) (sm2 (⟨n + 1, hn⟩ : Fin cfg1.N)) (sw2 (⟨n + 1, hn⟩ : Fin cfg1.N)) (sm3 (⟨n + 1, hn⟩ : Fin cfg1.N)) (sw3 (⟨n + 1, hn⟩ : Fin cfg1.N)) (sm4 (⟨n + 1, hn⟩ : Fin cfg1.N)) (sw4 (⟨n + 1, hn⟩ : Fin cfg1.N)) (sm5 (⟨n + 1, hn⟩ : Fin cfg1.N)) (sw5 (⟨n + 1, hn⟩ : Fin cfg1.N)) (sm6 (⟨n + 1, hn⟩ : Fin cfg1.N)) (sw6 (⟨n + 1, hn⟩ : Fin cfg1.N)) accM (Memref.isWhole_whole _) (fun h => h0 ((zeroing_iff (⟨n + 1, hn⟩ : Fin cfg1.N)).mp h)) ((closing_iff (⟨n + 1, hn⟩ : Fin cfg1.N)).mpr h1) (iblk1 V c 0 (⟨n + 1, hn⟩ : Fin cfg1.N)) (iblk1 V c 1 (⟨n + 1, hn⟩ : Fin cfg1.N)) (iblk1 V c 2 (⟨n + 1, hn⟩ : Fin cfg1.N)) (iblk1 V c 3 (⟨n + 1, hn⟩ : Fin cfg1.N)) (iblk1 V c 4 (⟨n + 1, hn⟩ : Fin cfg1.N)) (accAt c n (Nat.lt_of_succ_lt hn))
    else
      accMid c (grid1.coords (⟨n + 1, hn⟩ : Fin cfg1.N)) (sm0 (⟨n + 1, hn⟩ : Fin cfg1.N)) (sw0 (⟨n + 1, hn⟩ : Fin cfg1.N)) (sm1 (⟨n + 1, hn⟩ : Fin cfg1.N)) (sw1 (⟨n + 1, hn⟩ : Fin cfg1.N)) (sm2 (⟨n + 1, hn⟩ : Fin cfg1.N)) (sw2 (⟨n + 1, hn⟩ : Fin cfg1.N)) (sm3 (⟨n + 1, hn⟩ : Fin cfg1.N)) (sw3 (⟨n + 1, hn⟩ : Fin cfg1.N)) (sm4 (⟨n + 1, hn⟩ : Fin cfg1.N)) (sw4 (⟨n + 1, hn⟩ : Fin cfg1.N)) (sm5 (⟨n + 1, hn⟩ : Fin cfg1.N)) (sw5 (⟨n + 1, hn⟩ : Fin cfg1.N)) (sm6 (⟨n + 1, hn⟩ : Fin cfg1.N)) (sw6 (⟨n + 1, hn⟩ : Fin cfg1.N)) accM (Memref.isWhole_whole _) (fun h => h0 ((zeroing_iff (⟨n + 1, hn⟩ : Fin cfg1.N)).mp h)) (fun h => h1 ((closing_iff (⟨n + 1, hn⟩ : Fin cfg1.N)).mp h)) (iblk1 V c 0 (⟨n + 1, hn⟩ : Fin cfg1.N)) (iblk1 V c 1 (⟨n + 1, hn⟩ : Fin cfg1.N)) (iblk1 V c 2 (⟨n + 1, hn⟩ : Fin cfg1.N)) (iblk1 V c 3 (⟨n + 1, hn⟩ : Fin cfg1.N)) (iblk1 V c 4 (⟨n + 1, hn⟩ : Fin cfg1.N)) (accAt c n (Nat.lt_of_succ_lt hn))

theorem accAt_eq_first (c : Dev nD) (t : Fin cfg1.N) (h0 : t.val % 16 = 0) :
    accAt V c t.val t.isLt = accFirst c (grid1.coords t) (sm0 t) (sw0 t) (sm1 t) (sw1 t) (sm2 t) (sw2 t) (sm3 t) (sw3 t) (sm4 t) (sw4 t) (sm5 t) (sw5 t) (sm6 t) (sw6 t) accM (Memref.isWhole_whole _) ((zeroing_iff t).mpr h0) (fun h => absurd ((closing_iff t).mp h) (by omega)) (iblk1 V c 0 t) (iblk1 V c 1 t) (iblk1 V c 2 t) (iblk1 V c 3 t) (iblk1 V c 4 t) := by
  obtain ⟨n, hn⟩ := t
  cases n with
  | zero => exact rfl
  | succ n => exact (dif_pos h0).trans rfl

theorem accAt_eq_mid (c : Dev nD) (t : Fin cfg1.N) (h0 : ¬t.val % 16 = 0) (h1 : ¬t.val % 16 = 15) :
    accAt V c t.val t.isLt = accMid c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => h0 ((zeroing_iff t).mp h)) (fun h => h1 ((closing_iff t).mp h)) (iblk1 V c 0 t) (iblk1 V c 1 t) (iblk1 V c 2 t) (iblk1 V c 3 t) (iblk1 V c 4 t) (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt_eq_last (c : Dev nD) (t : Fin cfg1.N) (h1 : t.val % 16 = 15) :
    accAt V c t.val t.isLt = accLast c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => absurd ((zeroing_iff t).mp h) (by omega)) ((closing_iff t).mpr h1) (iblk1 V c 0 t) (iblk1 V c 1 t) (iblk1 V c 2 t) (iblk1 V c 3 t) (iblk1 V c 4 t) (accAt V c (t.val - 1) (Nat.lt_of_le_of_lt (Nat.sub_le _ _) t.isLt)) := by
  obtain ⟨n, hn⟩ := t
  cases n with
  | zero => exact absurd h1 (show ¬(0 % 16 = 15) by decide)
  | succ n => exact (dif_neg (fun h => by have h1' : (n + 1) % 16 = 15 := h1; omega)).trans ((dif_pos h1).trans rfl)

/-! ## The two outputs' buffers after the body -/

/-- The attention weights' buffer after the body at point `t`. -/
def after5 (c : Dev nD) (t : Fin cfg1.N) : Vec F S1x512x2048 .f32 :=
  if h0 : t.val % 16 = 0 then
    attnFirst c (grid1.coords t) (sm0 t) (sw0 t) (sm1 t) (sw1 t) (sm2 t) (sw2 t) (sm3 t) (sw3 t) (sm4 t) (sw4 t) (sm5 t) (sw5 t) (sm6 t) (sw6 t) accM (Memref.isWhole_whole _) ((zeroing_iff t).mpr h0) (fun h => absurd ((closing_iff t).mp h) (by omega)) (iblk1 V c 0 t) (iblk1 V c 1 t) (iblk1 V c 2 t) (iblk1 V c 3 t) (iblk1 V c 4 t)
  else if h1 : t.val % 16 = 15 then
    attnLast c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => h0 ((zeroing_iff t).mp h)) ((closing_iff t).mpr h1) (iblk1 V c 0 t) (iblk1 V c 1 t) (iblk1 V c 2 t) (iblk1 V c 3 t) (iblk1 V c 4 t) (accAt V c (t.val - 1) (Nat.lt_of_le_of_lt (Nat.sub_le _ _) t.isLt))
  else
    attnMid c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => h0 ((zeroing_iff t).mp h)) (fun h => h1 ((closing_iff t).mp h)) (iblk1 V c 0 t) (iblk1 V c 1 t) (iblk1 V c 2 t) (iblk1 V c 3 t) (iblk1 V c 4 t) (accAt V c (t.val - 1) (Nat.lt_of_le_of_lt (Nat.sub_le _ _) t.isLt))

/-- The projected output's buffer after the body at point `t`: written at a tile's last head; elsewhere the window is
    idle and this value is consulted by nothing. -/
def after6 (c : Dev nD) (t : Fin cfg1.N) : Vec F S512x1024 .f32 :=
  if h1 : t.val % 16 = 15 then
    projLast c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => absurd ((zeroing_iff t).mp h) (by omega)) ((closing_iff t).mpr h1) (iblk1 V c 0 t) (iblk1 V c 1 t) (iblk1 V c 2 t) (iblk1 V c 3 t) (iblk1 V c 4 t) (accAt V c (t.val - 1) (Nat.lt_of_le_of_lt (Nat.sub_le _ _) t.isLt))
  else projV.read (Elt F) projV.junk

/-! ## The region invariant: the accumulator at what the head before left -/

/-- Before the first point the class's invariant (the accumulator at anything); before any other point the accumulator
    at what the point before left, beside the rest the body never touches. -/
def PhiS (c : Dev nD) : (n : ℕ) → n ≤ cfg1.N → sProp 𝕄
  | 0, _ => Pipeline.ΦA spec1 c
  | n + 1, hn => iprop(owns (c : Thread nD τ) accM fullShare (accAt V c n hn) ∗ spare (F := F) c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) accM fullShare (accAt V c n hn) ∗ spare (F := F) c) := rfl

theorem PhiS_pos (c : Dev nD) (n : ℕ) (h : n ≤ cfg1.N) (hz : n ≠ 0) :
    PhiS V c n h = iprop(owns (c : Thread nD τ) accM fullShare (accAt V c (n - 1) (by omega)) ∗ spare (F := F) c) := by
  cases n with
  | zero => exact absurd rfl hz
  | succ n => rfl

/-! ## The pipeline's proof data -/

/-- The proof data of the fused attention call on core `c`, at the contents `V` the region is entered with: the arrays
    are `V`'s; after the body each input's buffer holds its block and the outputs' what the case left; the invariant
    carries the accumulator; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => after5 V c t
    | ⟨6, _⟩ => after6 V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = after5 V c t := by dsimp only [dat1]
theorem after1_6 (c : Dev nD) (t : Fin cfg1.N) : (dat1 V c).after 6 t = after6 V c t := by dsimp only [dat1]

theorem held1_0 (c : Dev nD) (t : Fin cfg1.N) (d) : (dat1 V c).before 0 t d = iblk1 V c 0 t :=
  held1_0_of V (dat1 V c) (A_eq1 V c 0) (after1_0 V c) t d
theorem held1_1 (c : Dev nD) (t : Fin cfg1.N) (d) : (dat1 V c).before 1 t d = iblk1 V c 1 t :=
  held1_1_of V (dat1 V c) (A_eq1 V c 1) (after1_1 V c) t d
theorem held1_2 (c : Dev nD) (t : Fin cfg1.N) (d) : (dat1 V c).before 2 t d = iblk1 V c 2 t :=
  held1_2_of V (dat1 V c) (A_eq1 V c 2) (after1_2 V c) t d
theorem held1_3 (c : Dev nD) (t : Fin cfg1.N) (d) : (dat1 V c).before 3 t d = iblk1 V c 3 t :=
  held1_3_of V (dat1 V c) (A_eq1 V c 3) (after1_3 V c) t d
theorem held1_4 (c : Dev nD) (t : Fin cfg1.N) (d) : (dat1 V c).before 4 t d = iblk1 V c 4 t :=
  held1_4_of V (dat1 V c) (A_eq1 V c 4) (after1_4 V c) t d

end Region

end Cert.Kernel.Hand

end
-- ==== Proof.K.Body.lean ====
/-
  The body obligation of the fused attention call: at every grid point, from the invariant (the accumulator at what the
  head before left), the inputs' buffers at their blocks and the outputs' buffers at anything, the body runs to the
  invariant at the next point, the inputs' buffers unchanged, the attention buffer at the point's weights, and the
  projected output's buffer either written (a tile's last head) or handed back untouched (elsewhere, where its window
  is idle). The point's position in its tile selects the case; each case is its run.
-/
import proofs.«112914_j24472723653394_2_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (sm0 t) fullShare ((dat1 V c).before 0 t d))
    ∗ (∃ d, owns (c : Thread nD τ) (sm1 t) fullShare ((dat1 V c).before 1 t d))
    ∗ (∃ d, owns (c : Thread nD τ) (sm2 t) fullShare ((dat1 V c).before 2 t d))
    ∗ (∃ d, owns (c : Thread nD τ) (sm3 t) fullShare ((dat1 V c).before 3 t d))
    ∗ (∃ d, owns (c : Thread nD τ) (sm4 t) fullShare ((dat1 V c).before 4 t d))
    ∗ (∃ d, owns (c : Thread nD τ) (sm5 t) fullShare ((dat1 V c).before 5 t d))
    ∗ (∃ d, owns (c : Thread nD τ) (sm6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

theorem leaves1_0 (c : Dev nD) (t : Fin cfg1.N) : (dat1 V c).leavesExact 0 t = owns (c : Thread nD τ) (sm0 t) fullShare (iblk1 V c 0 t) := by
  rw [show (dat1 V c).leavesExact 0 t = owns (c : Thread nD τ) (sm0 t) fullShare ((dat1 V c).after 0 t) from by
    unfold Dat.leavesExact; rw [live1_0 t], after1_0]
theorem leaves1_1 (c : Dev nD) (t : Fin cfg1.N) : (dat1 V c).leavesExact 1 t = owns (c : Thread nD τ) (sm1 t) fullShare (iblk1 V c 1 t) := by
  rw [show (dat1 V c).leavesExact 1 t = owns (c : Thread nD τ) (sm1 t) fullShare ((dat1 V c).after 1 t) from by
    unfold Dat.leavesExact; rw [live1_1 t], after1_1]
theorem leaves1_2 (c : Dev nD) (t : Fin cfg1.N) : (dat1 V c).leavesExact 2 t = owns (c : Thread nD τ) (sm2 t) fullShare (iblk1 V c 2 t) := by
  rw [show (dat1 V c).leavesExact 2 t = owns (c : Thread nD τ) (sm2 t) fullShare ((dat1 V c).after 2 t) from by
    unfold Dat.leavesExact; rw [live1_2 t], after1_2]
theorem leaves1_3 (c : Dev nD) (t : Fin cfg1.N) : (dat1 V c).leavesExact 3 t = owns (c : Thread nD τ) (sm3 t) fullShare (iblk1 V c 3 t) := by
  rw [show (dat1 V c).leavesExact 3 t = owns (c : Thread nD τ) (sm3 t) fullShare ((dat1 V c).after 3 t) from by
    unfold Dat.leavesExact; rw [live1_3 t], after1_3]
theorem leaves1_4 (c : Dev nD) (t : Fin cfg1.N) : (dat1 V c).leavesExact 4 t = owns (c : Thread nD τ) (sm4 t) fullShare (iblk1 V c 4 t) := by
  rw [show (dat1 V c).leavesExact 4 t = owns (c : Thread nD τ) (sm4 t) fullShare ((dat1 V c).after 4 t) from by
    unfold Dat.leavesExact; rw [live1_4 t], after1_4]
theorem leaves1_5 (c : Dev nD) (t : Fin cfg1.N) : (dat1 V c).leavesExact 5 t = owns (c : Thread nD τ) (sm5 t) fullShare (after5 V c t) := by
  rw [show (dat1 V c).leavesExact 5 t = owns (c : Thread nD τ) (sm5 t) fullShare ((dat1 V c).after 5 t) from by
    unfold Dat.leavesExact; rw [live1_5 t], after1_5]

set_option maxHeartbeats 4800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1, held1_2, held1_3, held1_4]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4, leaves1_5]
  have hN : t.val < 64 := lt_of_lt_of_eq t.isLt (show cfg1.N = 64 from N_1)
  by_cases h0 : t.val % 16 = 0
  · rw [Dat.leavesExact_idle (dat1 V c) 6 t (idle1_6 t (fun h => absurd ((closing_iff t).mp h) (by omega))) (noFlush1_6 t (fun h => absurd ((closing_iff t).mp h) (by omega)))]
    rw [accAt_eq_first V c t h0, show after5 V c t = attnFirst c (grid1.coords t) (sm0 t) (sw0 t) (sm1 t) (sw1 t) (sm2 t) (sw2 t) (sm3 t) (sw3 t) (sm4 t) (sw4 t) (sm5 t) (sw5 t) (sm6 t) (sw6 t) accM (Memref.isWhole_whole _) ((zeroing_iff t).mpr h0) (fun h => absurd ((closing_iff t).mp h) (by omega)) (iblk1 V c 0 t) (iblk1 V c 1 t) (iblk1 V c 2 t) (iblk1 V c 3 t) (iblk1 V c 4 t) from dif_pos h0]
    unfold attnFirst accFirst; (try dsimp only)
    by_cases hz : t.val = 0
    · rw [PhiS_castSucc V c t, PhiS_zero V c _ _ hz, PhiA1_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid1.coords t) _ _ _ _ _ _ _ _ _ _ _ _ _ _ _ _ ((zeroing_iff t).mpr h0) (fun h => absurd ((closing_iff t).mp h) (by omega)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexact HS
      iintro ⟨H0, H1, H2, H3, H4, ⟨%e5, H5⟩, H6, ⟨%es, HS⟩⟩
      isplitl [HS Hg]
      · isplitl [HS]
        · unfold owns; iexists _; isplitr
          swap; · iexact HS
          ipureintro; exact View.read_writes_of_cover _ _ _ _ _ (coverFirstS c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverFirst5 c _ _ _ _ _ _ _ _ _ _ _ _ _ _ _ _ _ _ _ _ _ _ _ _)
      iexists _; iexact H6
    · rw [PhiS_castSucc V c t, PhiS_pos V c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid1.coords t) _ _ _ _ _ _ _ _ _ _ _ _ _ _ _ _ ((zeroing_iff t).mpr h0) (fun h => absurd ((closing_iff t).mp h) (by omega)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexists _; iexact HS
      iintro ⟨H0, H1, H2, H3, H4, ⟨%e5, H5⟩, H6, ⟨%es, HS⟩⟩
      isplitl [HS Hg]
      · isplitl [HS]
        · unfold owns; iexists _; isplitr
          swap; · iexact HS
          ipureintro; exact View.read_writes_of_cover _ _ _ _ _ (coverFirstS c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverFirst5 c _ _ _ _ _ _ _ _ _ _ _ _ _ _ _ _ _ _ _ _ _ _ _ _)
      iexists _; iexact H6
  · have hz : t.val ≠ 0 := fun e => h0 (by rw [e])
    by_cases h1 : t.val % 16 = 15
    · rw [show (dat1 V c).leavesExact 6 t = owns (c : Thread nD τ) (sm6 t) fullShare ((dat1 V c).after 6 t) from by
        unfold Dat.leavesExact; rw [live1_6 t ((closing_iff t).mpr h1)], after1_6]
      rw [accAt_eq_last V c t h1, show after5 V c t = attnLast c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => h0 ((zeroing_iff t).mp h)) ((closing_iff t).mpr h1) (iblk1 V c 0 t) (iblk1 V c 1 t) (iblk1 V c 2 t) (iblk1 V c 3 t) (iblk1 V c 4 t) (accAt V c (t.val - 1) (Nat.lt_of_le_of_lt (Nat.sub_le _ _) t.isLt)) from (dif_neg h0).trans (dif_pos h1),
        show after6 V c t = projLast c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => absurd ((zeroing_iff t).mp h) (by omega)) ((closing_iff t).mpr h1) (iblk1 V c 0 t) (iblk1 V c 1 t) (iblk1 V c 2 t) (iblk1 V c 3 t) (iblk1 V c 4 t) (accAt V c (t.val - 1) (Nat.lt_of_le_of_lt (Nat.sub_le _ _) t.isLt)) from dif_pos h1]
      unfold attnLast projLast accLast; (try dsimp only)
      · rw [PhiS_castSucc V c t, PhiS_pos V c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((runLast c (grid1.coords t) _ _ _ _ _ _ _ _ _ _ _ _ _ _ _ _ (fun h => h0 ((zeroing_iff t).mp h)) ((closing_iff t).mpr h1) (iblk1 V c 0 t) (iblk1 V c 1 t) (iblk1 V c 2 t) (iblk1 V c 3 t) (iblk1 V c 4 t) _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS]; · iexact HS
        iintro ⟨H0, H1, H2, H3, H4, ⟨%e5, H5⟩, ⟨%e6, H6⟩, ⟨%es, HS⟩⟩
        isplitl [HS Hg]
        · isplitl [HS]
          · unfold owns; iexists _; isplitr
            swap; · iexact HS
            ipureintro; exact View.read_writes_of_cover _ _ _ _ _ (coverLastS c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (coverLast5 c _ _ _ _ _ _ _ _ _ _ _ _ _ _ _ _ _ _ _ _ _ _ _ _ _)
        unfold owns; iexists _; isplitr
        swap; · iexact H6
        ipureintro; exact View.read_writes_of_cover _ _ _ _ _ (coverLast6 c _ _ _ _ _ _ _ _ _ _ _ _ _ _ _ _ _ _ _ _ _ _ _ _ _)
    · rw [Dat.leavesExact_idle (dat1 V c) 6 t (idle1_6 t (fun h => h1 ((closing_iff t).mp h))) (noFlush1_6 t (fun h => h1 ((closing_iff t).mp h)))]
      rw [accAt_eq_mid V c t h0 h1, show after5 V c t = attnMid c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => h0 ((zeroing_iff t).mp h)) (fun h => h1 ((closing_iff t).mp h)) (iblk1 V c 0 t) (iblk1 V c 1 t) (iblk1 V c 2 t) (iblk1 V c 3 t) (iblk1 V c 4 t) (accAt V c (t.val - 1) (Nat.lt_of_le_of_lt (Nat.sub_le _ _) t.isLt)) from (dif_neg h0).trans (dif_neg h1)]
      unfold attnMid accMid; (try dsimp only)
      · rw [PhiS_castSucc V c t, PhiS_pos V c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((runMid c (grid1.coords t) _ _ _ _ _ _ _ _ _ _ _ _ _ _ _ _ (fun h => h0 ((zeroing_iff t).mp h)) (fun h => h1 ((closing_iff t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS]; · iexact HS
        iintro ⟨H0, H1, H2, H3, H4, ⟨%e5, H5⟩, H6, ⟨%es, HS⟩⟩
        isplitl [HS Hg]
        · isplitl [HS]
          · unfold owns; iexists _; isplitr
            swap; · iexact HS
            ipureintro; exact View.read_writes_of_cover _ _ _ _ _ (coverMidS c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (coverMid5 c _ _ _ _ _ _ _ _ _ _ _ _ _ _ _ _ _ _ _ _ _ _ _ _ _)
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HS, Hg⟩
  isplitl [HS]
  · iexists _; iexact HS
  iexact Hg

theorem hout1 (c : Dev nD) : (dat1 V c).Φ (Fin.last cfg1.N) ⊢ Pipeline.ΦA spec1 c :=
  Phi_out1 V c _ (by rw [Fin.val_last]; have : cfg1.N = 64 := N_1; omega)

end Region

end Cert.Kernel.Hand

end
-- ==== Proof.K.Run.lean ====
/-
  The whole program as a run of three segments — the host stretch that casts, transposes and concatenates the
  weights; the projection kernel; the attention kernel — at any float instance.

  Between two segments a core holds every unscoped buffer whole at contents that are a fold from the launch memory:
  after the host stretch the operations' results; after a kernel region its arrays at what the pipeline's write-backs
  leave (an input array as entered, an output array the blocks its grid points wrote) and every other buffer as
  entered. The run ends with every unscoped buffer read against the last fold, so both the argument arrays (no host
  operation writes one, no region may change one) and the two result arrays are read off it.
-/
import proofs.«112914_j24472723653394_2_alg».proof.Proof.Gen.Kernel.Regions
import proofs.«112914_j24472723653394_2_alg».proof.Proof.K.QkvBody
import proofs.«112914_j24472723653394_2_alg».proof.Proof.K.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch, and after the host stretch (the projection kernel's entry). -/
abbrev B0 : Dev nD → Valuation τ sig (Elt F) := fun c => Gen.V0 m c
abbrev B1 : Dev nD → Valuation τ sig (Elt F) := fun c => Gen.V1 m c
/-- The same read at the TensorCore's references. -/
abbrev E1 : (c : Dev nD) → (b : Ref sig .tc) → Buf (Elt F) ((c : Thread nD τ).loc b) := fun c b => B1 m c b

/-- At the projection kernel's exit: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- At the attention kernel's exit, the end of the program. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ### The arguments end as launched -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of_ne m c main_arg0 (by decide)
    _ = B1 m c (Proc.devRef .tc main_arg0) := B2_of_ne m c main_arg0 (by decide)
    _ = m ((c : Thread nD τ).loc main_arg0) := Gen.V1_of m c main_arg0 (by decide)
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := B2_of_ne m c main_arg1 (by decide)
    _ = m ((c : Thread nD τ).loc main_arg1) := Gen.V1_of m c main_arg1 (by decide)
theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = B1 m c (Proc.devRef .tc main_arg2) := B2_of_ne m c main_arg2 (by decide)
    _ = m ((c : Thread nD τ).loc main_arg2) := Gen.V1_of m c main_arg2 (by decide)
theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = B1 m c (Proc.devRef .tc main_arg3) := B2_of_ne m c main_arg3 (by decide)
    _ = m ((c : Thread nD τ).loc main_arg3) := Gen.V1_of m c main_arg3 (by decide)
theorem B3_main_arg4 (c : Dev nD) : B3 m c (Proc.devRef .tc main_arg4) = m ((c : Thread nD τ).loc main_arg4) :=
  calc B3 m c (Proc.devRef .tc main_arg4)
    _ = B2 m c (Proc.devRef .tc main_arg4) := B3_of_ne m c main_arg4 (by decide)
    _ = B1 m c (Proc.devRef .tc main_arg4) := B2_of_ne m c main_arg4 (by decide)
    _ = m ((c : Thread nD τ).loc main_arg4) := Gen.V1_of m c main_arg4 (by decide)
theorem B3_main_arg5 (c : Dev nD) : B3 m c (Proc.devRef .tc main_arg5) = m ((c : Thread nD τ).loc main_arg5) :=
  calc B3 m c (Proc.devRef .tc main_arg5)
    _ = B2 m c (Proc.devRef .tc main_arg5) := B3_of_ne m c main_arg5 (by decide)
    _ = B1 m c (Proc.devRef .tc main_arg5) := B2_of_ne m c main_arg5 (by decide)
    _ = m ((c : Thread nD τ).loc main_arg5) := Gen.V1_of m c main_arg5 (by decide)
theorem B3_main_arg6 (c : Dev nD) : B3 m c (Proc.devRef .tc main_arg6) = m ((c : Thread nD τ).loc main_arg6) :=
  calc B3 m c (Proc.devRef .tc main_arg6)
    _ = B2 m c (Proc.devRef .tc main_arg6) := B3_of_ne m c main_arg6 (by decide)
    _ = B1 m c (Proc.devRef .tc main_arg6) := B2_of_ne m c main_arg6 (by decide)
    _ = m ((c : Thread nD τ).loc main_arg6) := Gen.V1_of m c main_arg6 (by decide)
theorem B3_main_arg7 (c : Dev nD) : B3 m c (Proc.devRef .tc main_arg7) = m ((c : Thread nD τ).loc main_arg7) :=
  calc B3 m c (Proc.devRef .tc main_arg7)
    _ = B2 m c (Proc.devRef .tc main_arg7) := B3_of_ne m c main_arg7 (by decide)
    _ = B1 m c (Proc.devRef .tc main_arg7) := B2_of_ne m c main_arg7 (by decide)
    _ = m ((c : Thread nD τ).loc main_arg7) := Gen.V1_of m c main_arg7 (by decide)

/-- The output bias is an input array of the attention kernel: its final contents are the entry contents. -/
theorem B3_main_arg8 (c : Dev nD) : B3 m c (Proc.devRef .tc main_arg8) = m ((c : Thread nD τ).loc main_arg8) :=
  calc B3 m c (Proc.devRef .tc main_arg8)
    _ = B2 m c (Proc.devRef .tc main_arg8) := (B3_arr m c 4).trans (((dat1 (E2 m) c).arrAt_in 4 rfl _).trans (A_eq1 (E2 m) c 4))
    _ = B1 m c (Proc.devRef .tc main_arg8) := B2_of_ne m c main_arg8 (by decide)
    _ = m ((c : Thread nD τ).loc main_arg8) := Gen.V1_of m c main_arg8 (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (B3 m c) ∗ ∃ r, prngReg c r)

/-! ## The regions as segments -/

set_option backward.isDefEq.respectTransparency.types false in
/-- The projection kernel over the thread state: entered from every unscoped buffer at `B1`, left at `B2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel over the thread state: entered from every unscoped buffer at `B2`, left at `B3`. Its
    invariant carries the accumulator between grid points; it takes the class's scoped rest in and gives it back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest spec1 c) ⊢ (Pipeline.ΦA spec1 c : sProp 𝕄) := by
      unfold Pipeline.ΦA
      iintro ⟨Hp, -, Hr⟩
      isplitl [Hr]; · iexact Hr
      iexact Hp
    exact h.trans (hin1 (E2 m) c)
  hout c := by
    rw [Pipeline.ownSems0_none]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (E2 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (B0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final memory holds every unscoped buffer at the last fold `B3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    (h c _ (mem_uc main_arg0 (by decide))).trans (B3_main_arg0 m c),
    (h c _ (mem_uc main_arg1 (by decide))).trans (B3_main_arg1 m c),
    (h c _ (mem_uc main_arg2 (by decide))).trans (B3_main_arg2 m c),
    (h c _ (mem_uc main_arg3 (by decide))).trans (B3_main_arg3 m c),
    (h c _ (mem_uc main_arg4 (by decide))).trans (B3_main_arg4 m c),
    (h c _ (mem_uc main_arg5 (by decide))).trans (B3_main_arg5 m c),
    (h c _ (mem_uc main_arg6 (by decide))).trans (B3_main_arg6 m c),
    (h c _ (mem_uc main_arg7 (by decide))).trans (B3_main_arg7 m c),
    (h c _ (mem_uc main_arg8 (by decide))).trans (B3_main_arg8 m c)⟩) (run_all m ρ)

end Cert.Kernel.Hand

end
-- ==== Proof.KI.QkvBody.lean ====
/-
  The projection kernel (the first pallas_call) as proof data for the pipeline, at any float instance and at any
  contents `V` of the TensorCore's buffers when the region is entered.

  At grid point t (one of 4 row tiles) the body loads the tile's 512 rows of x, the whole [1024, 3072] weight
  matrix and the whole [3072] bias, and stores three head-major blocks [16, 512, 64] — the Q, K and V projections
  of those rows — each through one whole-block store. So after the body each input's staging buffer still holds its
  block, and each output's holds the one payload of its store, a function of the three loaded blocks.
-/
import proofs.«112914_j24472723653394_2_alg».proof.Proof.Gen.KernelIdeal.Launch
import proofs.«112914_j24472723653394_2_alg».proof.Proof.Gen.KernelIdeal.Skeleton
import proofs.«112914_j24472723653394_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for any proof data over `V`'s arrays whose body leaves the block in place:
    the row tile of x (window 0), and the weight matrix and the bias (windows 1 and 2, whose index never moves). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is loaded and stored whole -/

abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rB : Rect S3072 := Rect.unit (s := S3072) ![0] S3072.size inb_S3072_S3072_0
abbrev rO : Rect S16x512x64 := Rect.unit (s := S16x512x64) ![0, 0, 0] S16x512x64.size inb_S16x512x64_S16x512x64_0_0_0

/-! ## What the body leaves in each output window's buffer -/

/-- The Q block: the one store's payload over the three loaded blocks. -/
def outQ (x : Vec F S512x1024 .bf16) (w : Vec F S1024x3072 .bf16) (b : Vec F S3072 .f32) : Vec F S16x512x64 .bf16 :=
  View.canon [⟨rO, k0_pay2 (View.ld x rX) (View.ld w rW) (View.ld b rB)⟩]
/-- The K block. -/
def outK (x : Vec F S512x1024 .bf16) (w : Vec F S1024x3072 .bf16) (b : Vec F S3072 .f32) : Vec F S16x512x64 .bf16 :=
  View.canon [⟨rO, k0_pay3 (View.ld x rX) (View.ld w rW) (View.ld b rB)⟩]
/-- The V block. -/
def outV (x : Vec F S512x1024 .bf16) (w : Vec F S1024x3072 .bf16) (b : Vec F S3072 .f32) : Vec F S16x512x64 .bf16 :=
  View.canon [⟨rO, k0_pay4 (View.ld x rX) (View.ld w rW) (View.ld b rB)⟩]

/-- One whole-block store covers the block. -/
theorem coverO (p : Vec F S16x512x64 .bf16) (y : S16x512x64.Idx) :
    ∃ pc ∈ ([⟨rO, p⟩] : List (View.Piece (Elt F) S16x512x64 .bf16)), y ∈ pc.1.set :=
  View.cover_of_tiled [⟨rO, p⟩] S16x512x64.size (by rfl) y

/-! ## The body's triple -/

set_option maxHeartbeats 1000000 in
/-- On whole staging memrefs — the three inputs' at read contents x, w, b, the three outputs' at anything — the body
    runs to the continuation holding the inputs' as they were and the outputs' at the Q, K and V blocks. -/
theorem sound_qkv (c : Dev nD) (E : Set ℕ) (i : grid0.Coords)
    (arg1 : Memref sig .tc .vmem S512x1024 .bf16) (harg1 : arg1.IsWhole) (arg2 : Memref sig .tc .vmem S1024x3072 .bf16) (harg2 : arg2.IsWhole)
    (arg3 : Memref sig .tc .vmem S3072 .f32) (harg3 : arg3.IsWhole) (arg4 : Memref sig .tc .vmem S16x512x64 .bf16) (harg4 : arg4.IsWhole)
    (arg5 : Memref sig .tc .vmem S16x512x64 .bf16) (harg5 : arg5.IsWhole) (arg6 : Memref sig .tc .vmem S16x512x64 .bf16) (harg6 : arg6.IsWhole)
    (x : Vec F S512x1024 .bf16) (w : Vec F S1024x3072 .bf16) (b : Vec F S3072 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare w ∗ owns (c : Thread nD τ) arg3 fullShare b
            ∗ owns (c : Thread nD τ) arg4 fullShare (outQ x w b) ∗ owns (c : Thread nD τ) arg5 fullShare (outK x w b)
            ∗ owns (c : Thread nD τ) arg6 fullShare (outV x w b)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverO _)
  isplitl [H5]
  · iexists _; isplitr
    swap; · iexact H5
    ipureintro
    exact View.read_writes_eq_canon _ _ _ (coverO _)
  iexists _; isplitr
  swap; · iexact H6
  ipureintro
  exact View.read_writes_eq_canon _ _ _ (coverO _)

/-! ## The pipeline's proof data -/

/-- The proof data of the projection pipeline on core `c`: the arrays as the region finds them; after the body at
    point `t` each input's buffer at its block and the three outputs' at the Q, K and V blocks of the input blocks;
    the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outQ (iblk0 V c 0 t) (iblk0 V c 1 t) (iblk0 V c 2 t)
    | ⟨4, _⟩ => outK (iblk0 V c 0 t) (iblk0 V c 1 t) (iblk0 V c 2 t)
    | ⟨5, _⟩ => outV (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outQ (iblk0 V c 0 t) (iblk0 V c 1 t) (iblk0 V c 2 t) := by dsimp only [dat0]
theorem after0_4 (c : Dev nD) (t : Fin cfg0.N) : (dat0 V c).after 4 t = outK (iblk0 V c 0 t) (iblk0 V c 1 t) (iblk0 V c 2 t) := by dsimp only [dat0]
theorem after0_5 (c : Dev nD) (t : Fin cfg0.N) : (dat0 V c).after 5 t = outV (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_qkv c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Conds.lean ====
/-
  The fused attention kernel's grid has 64 points, point t working on head t mod 16 of query tile t / 16.
  This module decides, over the grid, where the body's two conditionals fire (the accumulator is zeroed at the first
  head of a tile, the projected output is stored at the last), where the output window is idle, and states what each
  input window's staging buffer holds when the body is entered: the window's block of the array the region found.
-/
import proofs.«112914_j24472723653394_2_alg».proof.Proof.Gen.KernelIdeal.Launch
import proofs.«112914_j24472723653394_2_alg».proof.Proof.Gen.KernelIdeal.Skeleton
import proofs.«112914_j24472723653394_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditionals over the grid -/

/-- The body zeroes the accumulator: its first conditional's test, from the grid coordinates. -/
abbrev zeroing (i : grid1.Coords) : Prop :=
  (Scalar.cmpi .ne (Scalar.extui (Scalar.cmpi .eq (BitVec.ofNat 32 (i 1).val) 0#32)) 0#32) = 1#1

/-- It fires exactly at a tile's first head. -/
theorem zeroing_iff : ∀ t : Fin cfg1.N, zeroing (grid1.coords t) ↔ t.val % 16 = 0 :=
  (by decide +kernel : ∀ t : Fin grid1.N, zeroing (grid1.coords t) ↔ t.val % 16 = 0)

/-- The body stores the projected output: its second conditional's test. -/
abbrev closing (i : grid1.Coords) : Prop := k1_cond2 i = 1#1

/-- It fires exactly at a tile's last head. -/
theorem closing_iff : ∀ t : Fin cfg1.N, closing (grid1.coords t) ↔ t.val % 16 = 15 :=
  (by decide +kernel : ∀ t : Fin grid1.N, closing (grid1.coords t) ↔ t.val % 16 = 15)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel

/-- Away from a tile's last head the projected output's window is idle and is not written back. -/
theorem idle1_6 : ∀ t : Fin cfg1.N, ¬closing (grid1.coords t) → cfg1.idle 6 (grid1.coords t) = true := by decide +kernel
theorem noFlush1_6 : ∀ t : Fin cfg1.N, ¬closing (grid1.coords t) → (cfg1.win 6).flush t = false := by decide +kernel
/-- At a tile's last head it is live. -/
theorem live1_6 : ∀ t : Fin cfg1.N, closing (grid1.coords t) → cfg1.idle 6 (grid1.coords t) = false := by decide +kernel

/-! ## The staging memrefs the body is called with, and the accumulator -/

abbrev sm0 (t : Fin cfg1.N) : Memref sig .tc .vmem S1x512x64 .bf16 := win1_0.stage (cfg1.slots t 0)
abbrev sw0 (t : Fin cfg1.N) : (sm0 t).IsWhole := hstage1_0 ((cfg1.slots t 0).cast nbuf1_0)
abbrev sm1 (t : Fin cfg1.N) : Memref sig .tc .vmem S1x2048x64 .bf16 := win1_1.stage (cfg1.slots t 1)
abbrev sw1 (t : Fin cfg1.N) : (sm1 t).IsWhole := hstage1_1 ((cfg1.slots t 1).cast nbuf1_1)
abbrev sm2 (t : Fin cfg1.N) : Memref sig .tc .vmem S1x2048x64 .bf16 := win1_2.stage (cfg1.slots t 2)
abbrev sw2 (t : Fin cfg1.N) : (sm2 t).IsWhole := hstage1_2 ((cfg1.slots t 2).cast nbuf1_2)
abbrev sm3 (t : Fin cfg1.N) : Memref sig .tc .vmem S64x1024 .bf16 := win1_3.stage (cfg1.slots t 3)
abbrev sw3 (t : Fin cfg1.N) : (sm3 t).IsWhole := hstage1_3 ((cfg1.slots t 3).cast nbuf1_3)
abbrev sm4 (t : Fin cfg1.N) : Memref sig .tc .vmem S1024 .f32 := win1_4.stage (cfg1.slots t 4)
abbrev sw4 (t : Fin cfg1.N) : (sm4 t).IsWhole := hstage1_4 ((cfg1.slots t 4).cast nbuf1_4)
abbrev sm5 (t : Fin cfg1.N) : Memref sig .tc .vmem S1x512x2048 .f32 := win1_5.stage (cfg1.slots t 5)
abbrev sw5 (t : Fin cfg1.N) : (sm5 t).IsWhole := hstage1_5 ((cfg1.slots t 5).cast nbuf1_5)
abbrev sm6 (t : Fin cfg1.N) : Memref sig .tc .vmem S512x1024 .f32 := win1_6.stage (cfg1.slots t 6)
abbrev sw6 (t : Fin cfg1.N) : (sm6 t).IsWhole := hstage1_6 ((cfg1.slots t 6).cast nbuf1_6)

/-- The accumulator: a whole scoped buffer of the kernel's own, carried from head to head. -/
abbrev accM : Memref sig .tc .vmem S512x1024 .f32 := Memref.whole cc1_scratch0
/-- The views through which the accumulator's and the two outputs' contents are stated. -/
abbrev accV : View sig .tc .vmem S512x1024 .f32 := (accM).view
abbrev attnV : View sig .tc .vmem S1x512x2048 .f32 := (Memref.whole cc1_stg5_0 : Memref sig .tc .vmem S1x512x2048 .f32).view
abbrev projV : View sig .tc .vmem S512x1024 .f32 := (Memref.whole cc1_stg6_0 : Memref sig .tc .vmem S512x1024 .f32).view

/-! ## The region invariant of the class, with the accumulator singled out -/

/-- The core's scoped buffers other than this call's staging buffers and the accumulator (the first call's staging
    buffers), each at some contents, and the generator register at some state: what the body never touches. -/
def spare (c : Dev nD) : sProp 𝕄 :=
  iprop(iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))
    ∗ (∃ r, prngReg c r))

/-- The class's invariant is the accumulator at some contents beside the untouched rest. -/
theorem PhiA1_eq (c : Dev nD) :
    (Pipeline.ΦA spec1 c : sProp 𝕄) = iprop((∃ d, owns (c : Thread nD τ) accM fullShare d) ∗ spare (F := F) c) := by
  unfold Pipeline.ΦA; rw [scopedRest1_eq]; unfold spare; simp only [accM, owns_whole]
  refine BI.equiv_iff.mp ⟨?_, ?_⟩
  · show (_ : sProp 𝕄) ⊢ _
    iintro ⟨⟨R0, R1, R2, R3, R4, R5, R6, R7, R8, R9, HS⟩, Hg⟩
    isplitl [HS]; · iexact HS
    isplitr [Hg]; swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  · show (_ : sProp 𝕄) ⊢ _
    iintro ⟨HS, ⟨R0, R1, R2, R3, R4, R5, R6, R7, R8, R9⟩, Hg⟩
    isplitr [Hg]; swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact HS

/-! ## The windows' blocks, at the contents the region is entered with -/

section Blocks
variable (V : (c : Dev nD) → (b : Ref sig .tc) → Buf (Elt F) ((c : Thread nD τ).loc b))

/-- Window `w`'s block at point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, fetched there or not, for any
    proof data over the entry arrays whose body leaves the block in place: where the block is not fetched its index has
    not moved since the point before. One statement per input window. -/
theorem held1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem held1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem held1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem held1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem held1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.KernelIdeal.Hand

end
-- ==== Proof.KI.RunMid.lean ====
/-
  The fused attention body at a head that is neither a tile's first nor its last: it loads the query, key, value and
  projection blocks, stores the attention weights into their window's buffer, and adds the head's share of the output
  projection to the accumulator. The projected output's buffer and the bias are left as found.
-/
import proofs.«112914_j24472723653394_2_alg».proof.Proof.KI.Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple at a middle head, on whole memrefs: the inputs at their contents, the attention window's buffer
    at anything, the projected output's buffer at contents handed back untouched, the accumulator at what the head
    before left. It runs to a continuation holding the inputs as they were, the attention buffer and the accumulator
    with the stores' pieces written (the pieces, last first, are the witness the run finds). -/
noncomputable def runMid (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : ¬closing i)
    (x0 : Vec F S1x512x64 .bf16) (x1 : Vec F S1x2048x64 .bf16) (x2 : Vec F S1x2048x64 .bf16) (x3 : Vec F S64x1024 .bf16) (x4 : Vec F S1024 .f32) (xs : Vec F S512x1024 .f32) :
    Σ' (L5 : List (View.Piece (Elt F) S1x512x2048 .f32)), { LS : List (View.Piece (Elt F) S512x1024 .f32) //
      ∀ (xi6 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xi6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc1__fused_kernel i arg2 harg2 arg3 harg3 arg4 harg4 arg5 harg5 arg6 harg6 arg7 harg7 arg8 harg8 arg9 harg9) K } := by
  refine ⟨?_, ?_, fun xi6 E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hf6
    obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS

end Cert.KernelIdeal.Hand

end
-- ==== Proof.KI.RunFirst.lean ====
/-
  The fused attention body at a tile's first head: it first zeroes the accumulator, then proceeds as at any head —
  loads the query, key, value and projection blocks, stores the attention weights, and adds the head's share of the
  output projection to the (zeroed) accumulator. The projected output's buffer and the bias are left as found.
-/
import proofs.«112914_j24472723653394_2_alg».proof.Proof.KI.RunMid

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple at a tile's first head, on whole memrefs: the inputs at their contents, the attention window's
    buffer and the accumulator at anything, the projected output's buffer at contents handed back untouched. It runs
    to a continuation holding the inputs as they were, the attention buffer and the accumulator with the stores'
    pieces written (the pieces, last first, are the witness the run finds). -/
noncomputable def runFirst (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : zeroing i) (hc1 : ¬closing i)
    (x0 : Vec F S1x512x64 .bf16) (x1 : Vec F S1x2048x64 .bf16) (x2 : Vec F S1x2048x64 .bf16) (x3 : Vec F S64x1024 .bf16) (x4 : Vec F S1024 .f32) :
    Σ' (L5 : List (View.Piece (Elt F) S1x512x2048 .f32)), { LS : List (View.Piece (Elt F) S512x1024 .f32) //
      ∀ (xi6 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc1__fused_kernel i arg2 harg2 arg3 harg3 arg4 harg4 arg5 harg5 arg6 harg6 arg7 harg7 arg8 harg8 arg9 harg9) K } := by
  refine ⟨?_, ?_, fun xi6 E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS

end Cert.KernelIdeal.Hand

end
-- ==== Proof.KI.RunLast.lean ====
/-
  The fused attention body at a tile's last head: it proceeds as at any head — loads the query, key, value and
  projection blocks, stores the attention weights, adds the head's share of the output projection to the
  accumulator — and then stores the accumulator plus the bias row into the projected output's buffer.
-/
import proofs.«112914_j24472723653394_2_alg».proof.Proof.KI.RunFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple at a tile's last head, on whole memrefs: the inputs at their contents, the two outputs' buffers
    at anything, the accumulator at what the head before left. It runs to a continuation holding the inputs as they
    were, the two output buffers and the accumulator with the stores' pieces written (the pieces, last first, are the
    witness the run finds). -/
noncomputable def runLast (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : closing i)
    (x0 : Vec F S1x512x64 .bf16) (x1 : Vec F S1x2048x64 .bf16) (x2 : Vec F S1x2048x64 .bf16) (x3 : Vec F S64x1024 .bf16) (x4 : Vec F S1024 .f32) (xs : Vec F S512x1024 .f32) :
    Σ' (L5 : List (View.Piece (Elt F) S1x512x2048 .f32)) (L6 : List (View.Piece (Elt F) S512x1024 .f32)), { LS : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc1__fused_kernel i arg2 harg2 arg3 harg3 arg4 harg4 arg5 harg5 arg6 harg6 arg7 harg7 arg8 harg8 arg9 harg9) K } := by
  refine ⟨?_, ?_, ?_, fun E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS

end Cert.KernelIdeal.Hand

end
-- ==== Proof.KI.Data.lean ====
/-
  What the fused attention body leaves behind, head by head, and the pipeline's proof data built from it.

  At every point the attention window's buffer is overwritten whole; the accumulator is overwritten whole too (zeroed
  first at a tile's first head, otherwise read as the head before left it); the projected output's buffer is written
  only at a tile's last head and is idle elsewhere. The contents are stated through the pieces each case's run found,
  read back over arbitrary contents: the pieces cover the buffer, so what it held before does not matter.
-/
import proofs.«112914_j24472723653394_2_alg».proof.Proof.KI.RunLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves, as the run's pieces read back -/

theorem coverFirst5 (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : zeroing i) (hc1 : ¬closing i) (x0 : Vec F S1x512x64 .bf16) (x1 : Vec F S1x2048x64 .bf16) (x2 : Vec F S1x2048x64 .bf16) (x3 : Vec F S64x1024 .bf16) (x4 : Vec F S1024 .f32) (y : S1x512x2048.Idx) :
    ∃ pc ∈ (runFirst c i arg2 harg2 arg3 harg3 arg4 harg4 arg5 harg5 arg6 harg6 arg7 harg7 arg8 harg8 arg9 harg9 hc0 hc1 x0 x1 x2 x3 x4).1, y ∈ pc.1.set :=
  View.cover_of_tiledL (runFirst c i arg2 harg2 arg3 harg3 arg4 harg4 arg5 harg5 arg6 harg6 arg7 harg7 arg8 harg8 arg9 harg9 hc0 hc1 x0 x1 x2 x3 x4).1 S1x512x2048.size (by sl_kernel_rfl) y
theorem coverFirstS (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : zeroing i) (hc1 : ¬closing i) (x0 : Vec F S1x512x64 .bf16) (x1 : Vec F S1x2048x64 .bf16) (x2 : Vec F S1x2048x64 .bf16) (x3 : Vec F S64x1024 .bf16) (x4 : Vec F S1024 .f32) (y : S512x1024.Idx) :
    ∃ pc ∈ (runFirst c i arg2 harg2 arg3 harg3 arg4 harg4 arg5 harg5 arg6 harg6 arg7 harg7 arg8 harg8 arg9 harg9 hc0 hc1 x0 x1 x2 x3 x4).2.1, y ∈ pc.1.set :=
  View.cover_of_tiledL (runFirst c i arg2 harg2 arg3 harg3 arg4 harg4 arg5 harg5 arg6 harg6 arg7 harg7 arg8 harg8 arg9 harg9 hc0 hc1 x0 x1 x2 x3 x4).2.1 S512x1024.size (by sl_kernel_rfl) y
/-- The attention weights' buffer and the accumulator after a tile's first head. -/
def attnFirst (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : zeroing i) (hc1 : ¬closing i) (x0 : Vec F S1x512x64 .bf16) (x1 : Vec F S1x2048x64 .bf16) (x2 : Vec F S1x2048x64 .bf16) (x3 : Vec F S64x1024 .bf16) (x4 : Vec F S1024 .f32) : Vec F S1x512x2048 .f32 :=
  attnV.read (Elt F) (attnV.writes (Elt F) attnV.junk (runFirst c i arg2 harg2 arg3 harg3 arg4 harg4 arg5 harg5 arg6 harg6 arg7 harg7 arg8 harg8 arg9 harg9 hc0 hc1 x0 x1 x2 x3 x4).1)
def accFirst (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : zeroing i) (hc1 : ¬closing i) (x0 : Vec F S1x512x64 .bf16) (x1 : Vec F S1x2048x64 .bf16) (x2 : Vec F S1x2048x64 .bf16) (x3 : Vec F S64x1024 .bf16) (x4 : Vec F S1024 .f32) : Vec F S512x1024 .f32 :=
  accV.read (Elt F) (accV.writes (Elt F) accV.junk (runFirst c i arg2 harg2 arg3 harg3 arg4 harg4 arg5 harg5 arg6 harg6 arg7 harg7 arg8 harg8 arg9 harg9 hc0 hc1 x0 x1 x2 x3 x4).2.1)

theorem coverMid5 (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : ¬closing i) (x0 : Vec F S1x512x64 .bf16) (x1 : Vec F S1x2048x64 .bf16) (x2 : Vec F S1x2048x64 .bf16) (x3 : Vec F S64x1024 .bf16) (x4 : Vec F S1024 .f32) (xs : Vec F S512x1024 .f32) (y : S1x512x2048.Idx) :
    ∃ pc ∈ (runMid c i arg2 harg2 arg3 harg3 arg4 harg4 arg5 harg5 arg6 harg6 arg7 harg7 arg8 harg8 arg9 harg9 hc0 hc1 x0 x1 x2 x3 x4 xs).1, y ∈ pc.1.set :=
  View.cover_of_tiledL (runMid c i arg2 harg2 arg3 harg3 arg4 harg4 arg5 harg5 arg6 harg6 arg7 harg7 arg8 harg8 arg9 harg9 hc0 hc1 x0 x1 x2 x3 x4 xs).1 S1x512x2048.size (by sl_kernel_rfl) y
theorem coverMidS (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : ¬closing i) (x0 : Vec F S1x512x64 .bf16) (x1 : Vec F S1x2048x64 .bf16) (x2 : Vec F S1x2048x64 .bf16) (x3 : Vec F S64x1024 .bf16) (x4 : Vec F S1024 .f32) (xs : Vec F S512x1024 .f32) (y : S512x1024.Idx) :
    ∃ pc ∈ (runMid c i arg2 harg2 arg3 harg3 arg4 harg4 arg5 harg5 arg6 harg6 arg7 harg7 arg8 harg8 arg9 harg9 hc0 hc1 x0 x1 x2 x3 x4 xs).2.1, y ∈ pc.1.set :=
  View.cover_of_tiledL (runMid c i arg2 harg2 arg3 harg3 arg4 harg4 arg5 harg5 arg6 harg6 arg7 harg7 arg8 harg8 arg9 harg9 hc0 hc1 x0 x1 x2 x3 x4 xs).2.1 S512x1024.size (by sl_kernel_rfl) y
/-- The same after a middle head, the accumulator entered at `xs`. -/
def attnMid (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : ¬closing i) (x0 : Vec F S1x512x64 .bf16) (x1 : Vec F S1x2048x64 .bf16) (x2 : Vec F S1x2048x64 .bf16) (x3 : Vec F S64x1024 .bf16) (x4 : Vec F S1024 .f32) (xs : Vec F S512x1024 .f32) : Vec F S1x512x2048 .f32 :=
  attnV.read (Elt F) (attnV.writes (Elt F) attnV.junk (runMid c i arg2 harg2 arg3 harg3 arg4 harg4 arg5 harg5 arg6 harg6 arg7 harg7 arg8 harg8 arg9 harg9 hc0 hc1 x0 x1 x2 x3 x4 xs).1)
def accMid (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : ¬closing i) (x0 : Vec F S1x512x64 .bf16) (x1 : Vec F S1x2048x64 .bf16) (x2 : Vec F S1x2048x64 .bf16) (x3 : Vec F S64x1024 .bf16) (x4 : Vec F S1024 .f32) (xs : Vec F S512x1024 .f32) : Vec F S512x1024 .f32 :=
  accV.read (Elt F) (accV.writes (Elt F) accV.junk (runMid c i arg2 harg2 arg3 harg3 arg4 harg4 arg5 harg5 arg6 harg6 arg7 harg7 arg8 harg8 arg9 harg9 hc0 hc1 x0 x1 x2 x3 x4 xs).2.1)

theorem coverLast5 (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : closing i) (x0 : Vec F S1x512x64 .bf16) (x1 : Vec F S1x2048x64 .bf16) (x2 : Vec F S1x2048x64 .bf16) (x3 : Vec F S64x1024 .bf16) (x4 : Vec F S1024 .f32) (xs : Vec F S512x1024 .f32) (y : S1x512x2048.Idx) :
    ∃ pc ∈ (runLast c i arg2 harg2 arg3 harg3 arg4 harg4 arg5 harg5 arg6 harg6 arg7 harg7 arg8 harg8 arg9 harg9 hc0 hc1 x0 x1 x2 x3 x4 xs).1, y ∈ pc.1.set :=
  View.cover_of_tiledL (runLast c i arg2 harg2 arg3 harg3 arg4 harg4 arg5 harg5 arg6 harg6 arg7 harg7 arg8 harg8 arg9 harg9 hc0 hc1 x0 x1 x2 x3 x4 xs).1 S1x512x2048.size (by sl_kernel_rfl) y
theorem coverLast6 (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : closing i) (x0 : Vec F S1x512x64 .bf16) (x1 : Vec F S1x2048x64 .bf16) (x2 : Vec F S1x2048x64 .bf16) (x3 : Vec F S64x1024 .bf16) (x4 : Vec F S1024 .f32) (xs : Vec F S512x1024 .f32) (y : S512x1024.Idx) :
    ∃ pc ∈ (runLast c i arg2 harg2 arg3 harg3 arg4 harg4 arg5 harg5 arg6 harg6 arg7 harg7 arg8 harg8 arg9 harg9 hc0 hc1 x0 x1 x2 x3 x4 xs).2.1, y ∈ pc.1.set :=
  View.cover_of_tiledL (runLast c i arg2 harg2 arg3 harg3 arg4 harg4 arg5 harg5 arg6 harg6 arg7 harg7 arg8 harg8 arg9 harg9 hc0 hc1 x0 x1 x2 x3 x4 xs).2.1 S512x1024.size (by sl_kernel_rfl) y
theorem coverLastS (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : closing i) (x0 : Vec F S1x512x64 .bf16) (x1 : Vec F S1x2048x64 .bf16) (x2 : Vec F S1x2048x64 .bf16) (x3 : Vec F S64x1024 .bf16) (x4 : Vec F S1024 .f32) (xs : Vec F S512x1024 .f32) (y : S512x1024.Idx) :
    ∃ pc ∈ (runLast c i arg2 harg2 arg3 harg3 arg4 harg4 arg5 harg5 arg6 harg6 arg7 harg7 arg8 harg8 arg9 harg9 hc0 hc1 x0 x1 x2 x3 x4 xs).2.2.1, y ∈ pc.1.set :=
  View.cover_of_tiledL (runLast c i arg2 harg2 arg3 harg3 arg4 harg4 arg5 harg5 arg6 harg6 arg7 harg7 arg8 harg8 arg9 harg9 hc0 hc1 x0 x1 x2 x3 x4 xs).2.2.1 S512x1024.size (by sl_kernel_rfl) y
/-- The same after a tile's last head, and the projected output's buffer there. -/
def attnLast (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : closing i) (x0 : Vec F S1x512x64 .bf16) (x1 : Vec F S1x2048x64 .bf16) (x2 : Vec F S1x2048x64 .bf16) (x3 : Vec F S64x1024 .bf16) (x4 : Vec F S1024 .f32) (xs : Vec F S512x1024 .f32) : Vec F S1x512x2048 .f32 :=
  attnV.read (Elt F) (attnV.writes (Elt F) attnV.junk (runLast c i arg2 harg2 arg3 harg3 arg4 harg4 arg5 harg5 arg6 harg6 arg7 harg7 arg8 harg8 arg9 harg9 hc0 hc1 x0 x1 x2 x3 x4 xs).1)
def projLast (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : closing i) (x0 : Vec F S1x512x64 .bf16) (x1 : Vec F S1x2048x64 .bf16) (x2 : Vec F S1x2048x64 .bf16) (x3 : Vec F S64x1024 .bf16) (x4 : Vec F S1024 .f32) (xs : Vec F S512x1024 .f32) : Vec F S512x1024 .f32 :=
  projV.read (Elt F) (projV.writes (Elt F) projV.junk (runLast c i arg2 harg2 arg3 harg3 arg4 harg4 arg5 harg5 arg6 harg6 arg7 harg7 arg8 harg8 arg9 harg9 hc0 hc1 x0 x1 x2 x3 x4 xs).2.1)
def accLast (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : closing i) (x0 : Vec F S1x512x64 .bf16) (x1 : Vec F S1x2048x64 .bf16) (x2 : Vec F S1x2048x64 .bf16) (x3 : Vec F S64x1024 .bf16) (x4 : Vec F S1024 .f32) (xs : Vec F S512x1024 .f32) : Vec F S512x1024 .f32 :=
  accV.read (Elt F) (accV.writes (Elt F) accV.junk (runLast c i arg2 harg2 arg3 harg3 arg4 harg4 arg5 harg5 arg6 harg6 arg7 harg7 arg8 harg8 arg9 harg9 hc0 hc1 x0 x1 x2 x3 x4 xs).2.2.1)

section Region
variable (V : (c : Dev nD) → (b : Ref sig .tc) → Buf (Elt F) ((c : Thread nD τ).loc b))

/-! ## The accumulator, head by head -/

/-- What the accumulator holds after the body at position `n`: at a tile's first head the first case's contents
    (whatever it held before), otherwise the middle or last case's, entered at what position `n - 1` left. -/
def accAt (c : Dev nD) : (n : ℕ) → n < cfg1.N → Vec F S512x1024 .f32
  | 0, hn =>
    accFirst c (grid1.coords (⟨0, hn⟩ : Fin cfg1.N)) (sm0 (⟨0, hn⟩ : Fin cfg1.N)) (sw0 (⟨0, hn⟩ : Fin cfg1.N)) (sm1 (⟨0, hn⟩ : Fin cfg1.N)) (sw1 (⟨0, hn⟩ : Fin cfg1.N)) (sm2 (⟨0, hn⟩ : Fin cfg1.N)) (sw2 (⟨0, hn⟩ : Fin cfg1.N)) (sm3 (⟨0, hn⟩ : Fin cfg1.N)) (sw3 (⟨0, hn⟩ : Fin cfg1.N)) (sm4 (⟨0, hn⟩ : Fin cfg1.N)) (sw4 (⟨0, hn⟩ : Fin cfg1.N)) (sm5 (⟨0, hn⟩ : Fin cfg1.N)) (sw5 (⟨0, hn⟩ : Fin cfg1.N)) (sm6 (⟨0, hn⟩ : Fin cfg1.N)) (sw6 (⟨0, hn⟩ : Fin cfg1.N)) accM (Memref.isWhole_whole _) ((zeroing_iff (⟨0, hn⟩ : Fin cfg1.N)).mpr (Nat.zero_mod _)) (fun h => absurd ((closing_iff (⟨0, hn⟩ : Fin cfg1.N)).mp h) (show ¬(0 % 16 = 15) by decide)) (iblk1 V c 0 (⟨0, hn⟩ : Fin cfg1.N)) (iblk1 V c 1 (⟨0, hn⟩ : Fin cfg1.N)) (iblk1 V c 2 (⟨0, hn⟩ : Fin cfg1.N)) (iblk1 V c 3 (⟨0, hn⟩ : Fin cfg1.N)) (iblk1 V c 4 (⟨0, hn⟩ : Fin cfg1.N))
  | n + 1, hn =>
    if h0 : (n + 1) % 16 = 0 then
      accFirst c (grid1.coords (⟨n + 1, hn⟩ : Fin cfg1.N)) (sm0 (⟨n + 1, hn⟩ : Fin cfg1.N)) (sw0 (⟨n + 1, hn⟩ : Fin cfg1.N)) (sm1 (⟨n + 1, hn⟩ : Fin cfg1.N)) (sw1 (⟨n + 1, hn⟩ : Fin cfg1.N)) (sm2 (⟨n + 1, hn⟩ : Fin cfg1.N)) (sw2 (⟨n + 1, hn⟩ : Fin cfg1.N)) (sm3 (⟨n + 1, hn⟩ : Fin cfg1.N)) (sw3 (⟨n + 1, hn⟩ : Fin cfg1.N)) (sm4 (⟨n + 1, hn⟩ : Fin cfg1.N)) (sw4 (⟨n + 1, hn⟩ : Fin cfg1.N)) (sm5 (⟨n + 1, hn⟩ : Fin cfg1.N)) (sw5 (⟨n + 1, hn⟩ : Fin cfg1.N)) (sm6 (⟨n + 1, hn⟩ : Fin cfg1.N)) (sw6 (⟨n + 1, hn⟩ : Fin cfg1.N)) accM (Memref.isWhole_whole _) ((zeroing_iff (⟨n + 1, hn⟩ : Fin cfg1.N)).mpr h0) (fun h => absurd ((closing_iff (⟨n + 1, hn⟩ : Fin cfg1.N)).mp h) (show ¬((n + 1) % 16 = 15) by omega)) (iblk1 V c 0 (⟨n + 1, hn⟩ : Fin cfg1.N)) (iblk1 V c 1 (⟨n + 1, hn⟩ : Fin cfg1.N)) (iblk1 V c 2 (⟨n + 1, hn⟩ : Fin cfg1.N)) (iblk1 V c 3 (⟨n + 1, hn⟩ : Fin cfg1.N)) (iblk1 V c 4 (⟨n + 1, hn⟩ : Fin cfg1.N))
    else if h1 : (n + 1) % 16 = 15 then
      accLast c (grid1.coords (⟨n + 1, hn⟩ : Fin cfg1.N)) (sm0 (⟨n + 1, hn⟩ : Fin cfg1.N)) (sw0 (⟨n + 1, hn⟩ : Fin cfg1.N)) (sm1 (⟨n + 1, hn⟩ : Fin cfg1.N)) (sw1 (⟨n + 1, hn⟩ : Fin cfg1.N)) (sm2 (⟨n + 1, hn⟩ : Fin cfg1.N)) (sw2 (⟨n + 1, hn⟩ : Fin cfg1.N)) (sm3 (⟨n + 1, hn⟩ : Fin cfg1.N)) (sw3 (⟨n + 1, hn⟩ : Fin cfg1.N)) (sm4 (⟨n + 1, hn⟩ : Fin cfg1.N)) (sw4 (⟨n + 1, hn⟩ : Fin cfg1.N)) (sm5 (⟨n + 1, hn⟩ : Fin cfg1.N)) (sw5 (⟨n + 1, hn⟩ : Fin cfg1.N)) (sm6 (⟨n + 1, hn⟩ : Fin cfg1.N)) (sw6 (⟨n + 1, hn⟩ : Fin cfg1.N)) accM (Memref.isWhole_whole _) (fun h => h0 ((zeroing_iff (⟨n + 1, hn⟩ : Fin cfg1.N)).mp h)) ((closing_iff (⟨n + 1, hn⟩ : Fin cfg1.N)).mpr h1) (iblk1 V c 0 (⟨n + 1, hn⟩ : Fin cfg1.N)) (iblk1 V c 1 (⟨n + 1, hn⟩ : Fin cfg1.N)) (iblk1 V c 2 (⟨n + 1, hn⟩ : Fin cfg1.N)) (iblk1 V c 3 (⟨n + 1, hn⟩ : Fin cfg1.N)) (iblk1 V c 4 (⟨n + 1, hn⟩ : Fin cfg1.N)) (accAt c n (Nat.lt_of_succ_lt hn))
    else
      accMid c (grid1.coords (⟨n + 1, hn⟩ : Fin cfg1.N)) (sm0 (⟨n + 1, hn⟩ : Fin cfg1.N)) (sw0 (⟨n + 1, hn⟩ : Fin cfg1.N)) (sm1 (⟨n + 1, hn⟩ : Fin cfg1.N)) (sw1 (⟨n + 1, hn⟩ : Fin cfg1.N)) (sm2 (⟨n + 1, hn⟩ : Fin cfg1.N)) (sw2 (⟨n + 1, hn⟩ : Fin cfg1.N)) (sm3 (⟨n + 1, hn⟩ : Fin cfg1.N)) (sw3 (⟨n + 1, hn⟩ : Fin cfg1.N)) (sm4 (⟨n + 1, hn⟩ : Fin cfg1.N)) (sw4 (⟨n + 1, hn⟩ : Fin cfg1.N)) (sm5 (⟨n + 1, hn⟩ : Fin cfg1.N)) (sw5 (⟨n + 1, hn⟩ : Fin cfg1.N)) (sm6 (⟨n + 1, hn⟩ : Fin cfg1.N)) (sw6 (⟨n + 1, hn⟩ : Fin cfg1.N)) accM (Memref.isWhole_whole _) (fun h => h0 ((zeroing_iff (⟨n + 1, hn⟩ : Fin cfg1.N)).mp h)) (fun h => h1 ((closing_iff (⟨n + 1, hn⟩ : Fin cfg1.N)).mp h)) (iblk1 V c 0 (⟨n + 1, hn⟩ : Fin cfg1.N)) (iblk1 V c 1 (⟨n + 1, hn⟩ : Fin cfg1.N)) (iblk1 V c 2 (⟨n + 1, hn⟩ : Fin cfg1.N)) (iblk1 V c 3 (⟨n + 1, hn⟩ : Fin cfg1.N)) (iblk1 V c 4 (⟨n + 1, hn⟩ : Fin cfg1.N)) (accAt c n (Nat.lt_of_succ_lt hn))

theorem accAt_eq_first (c : Dev nD) (t : Fin cfg1.N) (h0 : t.val % 16 = 0) :
    accAt V c t.val t.isLt = accFirst c (grid1.coords t) (sm0 t) (sw0 t) (sm1 t) (sw1 t) (sm2 t) (sw2 t) (sm3 t) (sw3 t) (sm4 t) (sw4 t) (sm5 t) (sw5 t) (sm6 t) (sw6 t) accM (Memref.isWhole_whole _) ((zeroing_iff t).mpr h0) (fun h => absurd ((closing_iff t).mp h) (by omega)) (iblk1 V c 0 t) (iblk1 V c 1 t) (iblk1 V c 2 t) (iblk1 V c 3 t) (iblk1 V c 4 t) := by
  obtain ⟨n, hn⟩ := t
  cases n with
  | zero => exact rfl
  | succ n => exact (dif_pos h0).trans rfl

theorem accAt_eq_mid (c : Dev nD) (t : Fin cfg1.N) (h0 : ¬t.val % 16 = 0) (h1 : ¬t.val % 16 = 15) :
    accAt V c t.val t.isLt = accMid c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => h0 ((zeroing_iff t).mp h)) (fun h => h1 ((closing_iff t).mp h)) (iblk1 V c 0 t) (iblk1 V c 1 t) (iblk1 V c 2 t) (iblk1 V c 3 t) (iblk1 V c 4 t) (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt_eq_last (c : Dev nD) (t : Fin cfg1.N) (h1 : t.val % 16 = 15) :
    accAt V c t.val t.isLt = accLast c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => absurd ((zeroing_iff t).mp h) (by omega)) ((closing_iff t).mpr h1) (iblk1 V c 0 t) (iblk1 V c 1 t) (iblk1 V c 2 t) (iblk1 V c 3 t) (iblk1 V c 4 t) (accAt V c (t.val - 1) (Nat.lt_of_le_of_lt (Nat.sub_le _ _) t.isLt)) := by
  obtain ⟨n, hn⟩ := t
  cases n with
  | zero => exact absurd h1 (show ¬(0 % 16 = 15) by decide)
  | succ n => exact (dif_neg (fun h => by have h1' : (n + 1) % 16 = 15 := h1; omega)).trans ((dif_pos h1).trans rfl)

/-! ## The two outputs' buffers after the body -/

/-- The attention weights' buffer after the body at point `t`. -/
def after5 (c : Dev nD) (t : Fin cfg1.N) : Vec F S1x512x2048 .f32 :=
  if h0 : t.val % 16 = 0 then
    attnFirst c (grid1.coords t) (sm0 t) (sw0 t) (sm1 t) (sw1 t) (sm2 t) (sw2 t) (sm3 t) (sw3 t) (sm4 t) (sw4 t) (sm5 t) (sw5 t) (sm6 t) (sw6 t) accM (Memref.isWhole_whole _) ((zeroing_iff t).mpr h0) (fun h => absurd ((closing_iff t).mp h) (by omega)) (iblk1 V c 0 t) (iblk1 V c 1 t) (iblk1 V c 2 t) (iblk1 V c 3 t) (iblk1 V c 4 t)
  else if h1 : t.val % 16 = 15 then
    attnLast c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => h0 ((zeroing_iff t).mp h)) ((closing_iff t).mpr h1) (iblk1 V c 0 t) (iblk1 V c 1 t) (iblk1 V c 2 t) (iblk1 V c 3 t) (iblk1 V c 4 t) (accAt V c (t.val - 1) (Nat.lt_of_le_of_lt (Nat.sub_le _ _) t.isLt))
  else
    attnMid c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => h0 ((zeroing_iff t).mp h)) (fun h => h1 ((closing_iff t).mp h)) (iblk1 V c 0 t) (iblk1 V c 1 t) (iblk1 V c 2 t) (iblk1 V c 3 t) (iblk1 V c 4 t) (accAt V c (t.val - 1) (Nat.lt_of_le_of_lt (Nat.sub_le _ _) t.isLt))

/-- The projected output's buffer after the body at point `t`: written at a tile's last head; elsewhere the window is
    idle and this value is consulted by nothing. -/
def after6 (c : Dev nD) (t : Fin cfg1.N) : Vec F S512x1024 .f32 :=
  if h1 : t.val % 16 = 15 then
    projLast c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => absurd ((zeroing_iff t).mp h) (by omega)) ((closing_iff t).mpr h1) (iblk1 V c 0 t) (iblk1 V c 1 t) (iblk1 V c 2 t) (iblk1 V c 3 t) (iblk1 V c 4 t) (accAt V c (t.val - 1) (Nat.lt_of_le_of_lt (Nat.sub_le _ _) t.isLt))
  else projV.read (Elt F) projV.junk

/-! ## The region invariant: the accumulator at what the head before left -/

/-- Before the first point the class's invariant (the accumulator at anything); before any other point the accumulator
    at what the point before left, beside the rest the body never touches. -/
def PhiS (c : Dev nD) : (n : ℕ) → n ≤ cfg1.N → sProp 𝕄
  | 0, _ => Pipeline.ΦA spec1 c
  | n + 1, hn => iprop(owns (c : Thread nD τ) accM fullShare (accAt V c n hn) ∗ spare (F := F) c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) accM fullShare (accAt V c n hn) ∗ spare (F := F) c) := rfl

theorem PhiS_pos (c : Dev nD) (n : ℕ) (h : n ≤ cfg1.N) (hz : n ≠ 0) :
    PhiS V c n h = iprop(owns (c : Thread nD τ) accM fullShare (accAt V c (n - 1) (by omega)) ∗ spare (F := F) c) := by
  cases n with
  | zero => exact absurd rfl hz
  | succ n => rfl

/-! ## The pipeline's proof data -/

/-- The proof data of the fused attention call on core `c`, at the contents `V` the region is entered with: the arrays
    are `V`'s; after the body each input's buffer holds its block and the outputs' what the case left; the invariant
    carries the accumulator; nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => after5 V c t
    | ⟨6, _⟩ => after6 V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = after5 V c t := by dsimp only [dat1]
theorem after1_6 (c : Dev nD) (t : Fin cfg1.N) : (dat1 V c).after 6 t = after6 V c t := by dsimp only [dat1]

theorem held1_0 (c : Dev nD) (t : Fin cfg1.N) (d) : (dat1 V c).before 0 t d = iblk1 V c 0 t :=
  held1_0_of V (dat1 V c) (A_eq1 V c 0) (after1_0 V c) t d
theorem held1_1 (c : Dev nD) (t : Fin cfg1.N) (d) : (dat1 V c).before 1 t d = iblk1 V c 1 t :=
  held1_1_of V (dat1 V c) (A_eq1 V c 1) (after1_1 V c) t d
theorem held1_2 (c : Dev nD) (t : Fin cfg1.N) (d) : (dat1 V c).before 2 t d = iblk1 V c 2 t :=
  held1_2_of V (dat1 V c) (A_eq1 V c 2) (after1_2 V c) t d
theorem held1_3 (c : Dev nD) (t : Fin cfg1.N) (d) : (dat1 V c).before 3 t d = iblk1 V c 3 t :=
  held1_3_of V (dat1 V c) (A_eq1 V c 3) (after1_3 V c) t d
theorem held1_4 (c : Dev nD) (t : Fin cfg1.N) (d) : (dat1 V c).before 4 t d = iblk1 V c 4 t :=
  held1_4_of V (dat1 V c) (A_eq1 V c 4) (after1_4 V c) t d

end Region

end Cert.KernelIdeal.Hand

end
-- ==== Proof.KI.Body.lean ====
/-
  The body obligation of the fused attention call: at every grid point, from the invariant (the accumulator at what the
  head before left), the inputs' buffers at their blocks and the outputs' buffers at anything, the body runs to the
  invariant at the next point, the inputs' buffers unchanged, the attention buffer at the point's weights, and the
  projected output's buffer either written (a tile's last head) or handed back untouched (elsewhere, where its window
  is idle). The point's position in its tile selects the case; each case is its run.
-/
import proofs.«112914_j24472723653394_2_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (sm0 t) fullShare ((dat1 V c).before 0 t d))
    ∗ (∃ d, owns (c : Thread nD τ) (sm1 t) fullShare ((dat1 V c).before 1 t d))
    ∗ (∃ d, owns (c : Thread nD τ) (sm2 t) fullShare ((dat1 V c).before 2 t d))
    ∗ (∃ d, owns (c : Thread nD τ) (sm3 t) fullShare ((dat1 V c).before 3 t d))
    ∗ (∃ d, owns (c : Thread nD τ) (sm4 t) fullShare ((dat1 V c).before 4 t d))
    ∗ (∃ d, owns (c : Thread nD τ) (sm5 t) fullShare ((dat1 V c).before 5 t d))
    ∗ (∃ d, owns (c : Thread nD τ) (sm6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

theorem leaves1_0 (c : Dev nD) (t : Fin cfg1.N) : (dat1 V c).leavesExact 0 t = owns (c : Thread nD τ) (sm0 t) fullShare (iblk1 V c 0 t) := by
  rw [show (dat1 V c).leavesExact 0 t = owns (c : Thread nD τ) (sm0 t) fullShare ((dat1 V c).after 0 t) from by
    unfold Dat.leavesExact; rw [live1_0 t], after1_0]
theorem leaves1_1 (c : Dev nD) (t : Fin cfg1.N) : (dat1 V c).leavesExact 1 t = owns (c : Thread nD τ) (sm1 t) fullShare (iblk1 V c 1 t) := by
  rw [show (dat1 V c).leavesExact 1 t = owns (c : Thread nD τ) (sm1 t) fullShare ((dat1 V c).after 1 t) from by
    unfold Dat.leavesExact; rw [live1_1 t], after1_1]
theorem leaves1_2 (c : Dev nD) (t : Fin cfg1.N) : (dat1 V c).leavesExact 2 t = owns (c : Thread nD τ) (sm2 t) fullShare (iblk1 V c 2 t) := by
  rw [show (dat1 V c).leavesExact 2 t = owns (c : Thread nD τ) (sm2 t) fullShare ((dat1 V c).after 2 t) from by
    unfold Dat.leavesExact; rw [live1_2 t], after1_2]
theorem leaves1_3 (c : Dev nD) (t : Fin cfg1.N) : (dat1 V c).leavesExact 3 t = owns (c : Thread nD τ) (sm3 t) fullShare (iblk1 V c 3 t) := by
  rw [show (dat1 V c).leavesExact 3 t = owns (c : Thread nD τ) (sm3 t) fullShare ((dat1 V c).after 3 t) from by
    unfold Dat.leavesExact; rw [live1_3 t], after1_3]
theorem leaves1_4 (c : Dev nD) (t : Fin cfg1.N) : (dat1 V c).leavesExact 4 t = owns (c : Thread nD τ) (sm4 t) fullShare (iblk1 V c 4 t) := by
  rw [show (dat1 V c).leavesExact 4 t = owns (c : Thread nD τ) (sm4 t) fullShare ((dat1 V c).after 4 t) from by
    unfold Dat.leavesExact; rw [live1_4 t], after1_4]
theorem leaves1_5 (c : Dev nD) (t : Fin cfg1.N) : (dat1 V c).leavesExact 5 t = owns (c : Thread nD τ) (sm5 t) fullShare (after5 V c t) := by
  rw [show (dat1 V c).leavesExact 5 t = owns (c : Thread nD τ) (sm5 t) fullShare ((dat1 V c).after 5 t) from by
    unfold Dat.leavesExact; rw [live1_5 t], after1_5]

set_option maxHeartbeats 4800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1, held1_2, held1_3, held1_4]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3, leaves1_4, leaves1_5]
  have hN : t.val < 64 := lt_of_lt_of_eq t.isLt (show cfg1.N = 64 from N_1)
  by_cases h0 : t.val % 16 = 0
  · rw [Dat.leavesExact_idle (dat1 V c) 6 t (idle1_6 t (fun h => absurd ((closing_iff t).mp h) (by omega))) (noFlush1_6 t (fun h => absurd ((closing_iff t).mp h) (by omega)))]
    rw [accAt_eq_first V c t h0, show after5 V c t = attnFirst c (grid1.coords t) (sm0 t) (sw0 t) (sm1 t) (sw1 t) (sm2 t) (sw2 t) (sm3 t) (sw3 t) (sm4 t) (sw4 t) (sm5 t) (sw5 t) (sm6 t) (sw6 t) accM (Memref.isWhole_whole _) ((zeroing_iff t).mpr h0) (fun h => absurd ((closing_iff t).mp h) (by omega)) (iblk1 V c 0 t) (iblk1 V c 1 t) (iblk1 V c 2 t) (iblk1 V c 3 t) (iblk1 V c 4 t) from dif_pos h0]
    unfold attnFirst accFirst; (try dsimp only)
    by_cases hz : t.val = 0
    · rw [PhiS_castSucc V c t, PhiS_zero V c _ _ hz, PhiA1_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid1.coords t) _ _ _ _ _ _ _ _ _ _ _ _ _ _ _ _ ((zeroing_iff t).mpr h0) (fun h => absurd ((closing_iff t).mp h) (by omega)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexact HS
      iintro ⟨H0, H1, H2, H3, H4, ⟨%e5, H5⟩, H6, ⟨%es, HS⟩⟩
      isplitl [HS Hg]
      · isplitl [HS]
        · unfold owns; iexists _; isplitr
          swap; · iexact HS
          ipureintro; exact View.read_writes_of_cover _ _ _ _ _ (coverFirstS c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverFirst5 c _ _ _ _ _ _ _ _ _ _ _ _ _ _ _ _ _ _ _ _ _ _ _ _)
      iexists _; iexact H6
    · rw [PhiS_castSucc V c t, PhiS_pos V c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid1.coords t) _ _ _ _ _ _ _ _ _ _ _ _ _ _ _ _ ((zeroing_iff t).mpr h0) (fun h => absurd ((closing_iff t).mp h) (by omega)) (iblk1 V c 0 t) (iblk1 V c 1 t) (iblk1 V c 2 t) (iblk1 V c 3 t) (iblk1 V c 4 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexists _; iexact HS
      iintro ⟨H0, H1, H2, H3, H4, ⟨%e5, H5⟩, H6, ⟨%es, HS⟩⟩
      isplitl [HS Hg]
      · isplitl [HS]
        · unfold owns; iexists _; isplitr
          swap; · iexact HS
          ipureintro; exact View.read_writes_of_cover _ _ _ _ _ (coverFirstS c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverFirst5 c _ _ _ _ _ _ _ _ _ _ _ _ _ _ _ _ _ _ _ _ _ _ _ _)
      iexists _; iexact H6
  · have hz : t.val ≠ 0 := fun e => h0 (by rw [e])
    by_cases h1 : t.val % 16 = 15
    · rw [show (dat1 V c).leavesExact 6 t = owns (c : Thread nD τ) (sm6 t) fullShare ((dat1 V c).after 6 t) from by
        unfold Dat.leavesExact; rw [live1_6 t ((closing_iff t).mpr h1)], after1_6]
      rw [accAt_eq_last V c t h1, show after5 V c t = attnLast c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => h0 ((zeroing_iff t).mp h)) ((closing_iff t).mpr h1) (iblk1 V c 0 t) (iblk1 V c 1 t) (iblk1 V c 2 t) (iblk1 V c 3 t) (iblk1 V c 4 t) (accAt V c (t.val - 1) (Nat.lt_of_le_of_lt (Nat.sub_le _ _) t.isLt)) from (dif_neg h0).trans (dif_pos h1),
        show after6 V c t = projLast c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => absurd ((zeroing_iff t).mp h) (by omega)) ((closing_iff t).mpr h1) (iblk1 V c 0 t) (iblk1 V c 1 t) (iblk1 V c 2 t) (iblk1 V c 3 t) (iblk1 V c 4 t) (accAt V c (t.val - 1) (Nat.lt_of_le_of_lt (Nat.sub_le _ _) t.isLt)) from dif_pos h1]
      unfold attnLast projLast accLast; (try dsimp only)
      · rw [PhiS_castSucc V c t, PhiS_pos V c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((runLast c (grid1.coords t) _ _ _ _ _ _ _ _ _ _ _ _ _ _ _ _ (fun h => h0 ((zeroing_iff t).mp h)) ((closing_iff t).mpr h1) (iblk1 V c 0 t) (iblk1 V c 1 t) (iblk1 V c 2 t) (iblk1 V c 3 t) (iblk1 V c 4 t) _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS]; · iexact HS
        iintro ⟨H0, H1, H2, H3, H4, ⟨%e5, H5⟩, ⟨%e6, H6⟩, ⟨%es, HS⟩⟩
        isplitl [HS Hg]
        · isplitl [HS]
          · unfold owns; iexists _; isplitr
            swap; · iexact HS
            ipureintro; exact View.read_writes_of_cover _ _ _ _ _ (coverLastS c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (coverLast5 c _ _ _ _ _ _ _ _ _ _ _ _ _ _ _ _ _ _ _ _ _ _ _ _ _)
        unfold owns; iexists _; isplitr
        swap; · iexact H6
        ipureintro; exact View.read_writes_of_cover _ _ _ _ _ (coverLast6 c _ _ _ _ _ _ _ _ _ _ _ _ _ _ _ _ _ _ _ _ _ _ _ _ _)
    · rw [Dat.leavesExact_idle (dat1 V c) 6 t (idle1_6 t (fun h => h1 ((closing_iff t).mp h))) (noFlush1_6 t (fun h => h1 ((closing_iff t).mp h)))]
      rw [accAt_eq_mid V c t h0 h1, show after5 V c t = attnMid c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => h0 ((zeroing_iff t).mp h)) (fun h => h1 ((closing_iff t).mp h)) (iblk1 V c 0 t) (iblk1 V c 1 t) (iblk1 V c 2 t) (iblk1 V c 3 t) (iblk1 V c 4 t) (accAt V c (t.val - 1) (Nat.lt_of_le_of_lt (Nat.sub_le _ _) t.isLt)) from (dif_neg h0).trans (dif_neg h1)]
      unfold attnMid accMid; (try dsimp only)
      · rw [PhiS_castSucc V c t, PhiS_pos V c _ _ hz]
        iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
        iapply ((runMid c (grid1.coords t) _ _ _ _ _ _ _ _ _ _ _ _ _ _ _ _ (fun h => h0 ((zeroing_iff t).mp h)) (fun h => h1 ((closing_iff t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS]; · iexact HS
        iintro ⟨H0, H1, H2, H3, H4, ⟨%e5, H5⟩, H6, ⟨%es, HS⟩⟩
        isplitl [HS Hg]
        · isplitl [HS]
          · unfold owns; iexists _; isplitr
            swap; · iexact HS
            ipureintro; exact View.read_writes_of_cover _ _ _ _ _ (coverMidS c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (coverMid5 c _ _ _ _ _ _ _ _ _ _ _ _ _ _ _ _ _ _ _ _ _ _ _ _ _)
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HS, Hg⟩
  isplitl [HS]
  · iexists _; iexact HS
  iexact Hg

theorem hout1 (c : Dev nD) : (dat1 V c).Φ (Fin.last cfg1.N) ⊢ Pipeline.ΦA spec1 c :=
  Phi_out1 V c _ (by rw [Fin.val_last]; have : cfg1.N = 64 := N_1; omega)

end Region

end Cert.KernelIdeal.Hand

end
-- ==== Proof.KI.Run.lean ====
/-
  The whole program as a run of three segments — the host stretch that casts, transposes and concatenates the
  weights; the projection kernel; the attention kernel — at any float instance.

  Between two segments a core holds every unscoped buffer whole at contents that are a fold from the launch memory:
  after the host stretch the operations' results; after a kernel region its arrays at what the pipeline's write-backs
  leave (an input array as entered, an output array the blocks its grid points wrote) and every other buffer as
  entered. The run ends with every unscoped buffer read against the last fold, so both the argument arrays (no host
  operation writes one, no region may change one) and the two result arrays are read off it.
-/
import proofs.«112914_j24472723653394_2_alg».proof.Proof.Gen.KernelIdeal.Regions
import proofs.«112914_j24472723653394_2_alg».proof.Proof.KI.QkvBody
import proofs.«112914_j24472723653394_2_alg».proof.Proof.KI.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch, and after the host stretch (the projection kernel's entry). -/
abbrev B0 : Dev nD → Valuation τ sig (Elt F) := fun c => Gen.V0 m c
abbrev B1 : Dev nD → Valuation τ sig (Elt F) := fun c => Gen.V1 m c
/-- The same read at the TensorCore's references. -/
abbrev E1 : (c : Dev nD) → (b : Ref sig .tc) → Buf (Elt F) ((c : Thread nD τ).loc b) := fun c b => B1 m c b

/-- At the projection kernel's exit: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- At the attention kernel's exit, the end of the program. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ### The arguments end as launched -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of_ne m c main_arg0 (by decide)
    _ = B1 m c (Proc.devRef .tc main_arg0) := B2_of_ne m c main_arg0 (by decide)
    _ = m ((c : Thread nD τ).loc main_arg0) := Gen.V1_of m c main_arg0 (by decide)
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := B2_of_ne m c main_arg1 (by decide)
    _ = m ((c : Thread nD τ).loc main_arg1) := Gen.V1_of m c main_arg1 (by decide)
theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = B1 m c (Proc.devRef .tc main_arg2) := B2_of_ne m c main_arg2 (by decide)
    _ = m ((c : Thread nD τ).loc main_arg2) := Gen.V1_of m c main_arg2 (by decide)
theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = B1 m c (Proc.devRef .tc main_arg3) := B2_of_ne m c main_arg3 (by decide)
    _ = m ((c : Thread nD τ).loc main_arg3) := Gen.V1_of m c main_arg3 (by decide)
theorem B3_main_arg4 (c : Dev nD) : B3 m c (Proc.devRef .tc main_arg4) = m ((c : Thread nD τ).loc main_arg4) :=
  calc B3 m c (Proc.devRef .tc main_arg4)
    _ = B2 m c (Proc.devRef .tc main_arg4) := B3_of_ne m c main_arg4 (by decide)
    _ = B1 m c (Proc.devRef .tc main_arg4) := B2_of_ne m c main_arg4 (by decide)
    _ = m ((c : Thread nD τ).loc main_arg4) := Gen.V1_of m c main_arg4 (by decide)
theorem B3_main_arg5 (c : Dev nD) : B3 m c (Proc.devRef .tc main_arg5) = m ((c : Thread nD τ).loc main_arg5) :=
  calc B3 m c (Proc.devRef .tc main_arg5)
    _ = B2 m c (Proc.devRef .tc main_arg5) := B3_of_ne m c main_arg5 (by decide)
    _ = B1 m c (Proc.devRef .tc main_arg5) := B2_of_ne m c main_arg5 (by decide)
    _ = m ((c : Thread nD τ).loc main_arg5) := Gen.V1_of m c main_arg5 (by decide)
theorem B3_main_arg6 (c : Dev nD) : B3 m c (Proc.devRef .tc main_arg6) = m ((c : Thread nD τ).loc main_arg6) :=
  calc B3 m c (Proc.devRef .tc main_arg6)
    _ = B2 m c (Proc.devRef .tc main_arg6) := B3_of_ne m c main_arg6 (by decide)
    _ = B1 m c (Proc.devRef .tc main_arg6) := B2_of_ne m c main_arg6 (by decide)
    _ = m ((c : Thread nD τ).loc main_arg6) := Gen.V1_of m c main_arg6 (by decide)
theorem B3_main_arg7 (c : Dev nD) : B3 m c (Proc.devRef .tc main_arg7) = m ((c : Thread nD τ).loc main_arg7) :=
  calc B3 m c (Proc.devRef .tc main_arg7)
    _ = B2 m c (Proc.devRef .tc main_arg7) := B3_of_ne m c main_arg7 (by decide)
    _ = B1 m c (Proc.devRef .tc main_arg7) := B2_of_ne m c main_arg7 (by decide)
    _ = m ((c : Thread nD τ).loc main_arg7) := Gen.V1_of m c main_arg7 (by decide)

/-- The output bias is an input array of the attention kernel: its final contents are the entry contents. -/
theorem B3_main_arg8 (c : Dev nD) : B3 m c (Proc.devRef .tc main_arg8) = m ((c : Thread nD τ).loc main_arg8) :=
  calc B3 m c (Proc.devRef .tc main_arg8)
    _ = B2 m c (Proc.devRef .tc main_arg8) := (B3_arr m c 4).trans (((dat1 (E2 m) c).arrAt_in 4 rfl _).trans (A_eq1 (E2 m) c 4))
    _ = B1 m c (Proc.devRef .tc main_arg8) := B2_of_ne m c main_arg8 (by decide)
    _ = m ((c : Thread nD τ).loc main_arg8) := Gen.V1_of m c main_arg8 (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (B3 m c) ∗ ∃ r, prngReg c r)

/-! ## The regions as segments -/

set_option backward.isDefEq.respectTransparency.types false in
/-- The projection kernel over the thread state: entered from every unscoped buffer at `B1`, left at `B2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel over the thread state: entered from every unscoped buffer at `B2`, left at `B3`. Its
    invariant carries the accumulator between grid points; it takes the class's scoped rest in and gives it back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
        ∗ Pipeline.scopedRest spec1 c) ⊢ (Pipeline.ΦA spec1 c : sProp 𝕄) := by
      unfold Pipeline.ΦA
      iintro ⟨Hp, -, Hr⟩
      isplitl [Hr]; · iexact Hr
      iexact Hp
    exact h.trans (hin1 (E2 m) c)
  hout c := by
    rw [Pipeline.ownSems0_none]
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (E2 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub Gen.hostOps0_fresh (B0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final memory holds every unscoped buffer at the last fold `B3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    (h c _ (mem_uc main_arg0 (by decide))).trans (B3_main_arg0 m c),
    (h c _ (mem_uc main_arg1 (by decide))).trans (B3_main_arg1 m c),
    (h c _ (mem_uc main_arg2 (by decide))).trans (B3_main_arg2 m c),
    (h c _ (mem_uc main_arg3 (by decide))).trans (B3_main_arg3 m c),
    (h c _ (mem_uc main_arg4 (by decide))).trans (B3_main_arg4 m c),
    (h c _ (mem_uc main_arg5 (by decide))).trans (B3_main_arg5 m c),
    (h c _ (mem_uc main_arg6 (by decide))).trans (B3_main_arg6 m c),
    (h c _ (mem_uc main_arg7 (by decide))).trans (B3_main_arg7 m c),
    (h c _ (mem_uc main_arg8 (by decide))).trans (B3_main_arg8 m c)⟩) (run_all m ρ)

end Cert.KernelIdeal.Hand

end
-- ==== Proof.KI.Values.lean ====
/-
  The values the fused attention body leaves, as the body's arithmetic applied to the blocks it loaded: the attention
  window's buffer holds the softmax weights of the query block against the key block; the accumulator holds the head's
  share of the output projection added to what it held (to zeros at a tile's first head); at a tile's last head the
  projected output's buffer holds the accumulator plus the bias row. Each is one covering store's payload, whose loads
  read whole buffers.
-/
import proofs.«112914_j24472723653394_2_alg».proof.Proof.KI.Body
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The attention weights' buffer, in each case -/

theorem attnFirst_val (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : zeroing i) (hc1 : ¬closing i) (x0 : Vec F S1x512x64 .bf16) (x1 : Vec F S1x2048x64 .bf16) (x2 : Vec F S1x2048x64 .bf16) (x3 : Vec F S64x1024 .bf16) (x4 : Vec F S1024 .f32) :
    attnFirst c i arg2 harg2 arg3 harg3 arg4 harg4 arg5 harg5 arg6 harg6 arg7 harg7 arg8 harg8 arg9 harg9 hc0 hc1 x0 x1 x2 x3 x4 = k1_pay5 x0 x1 := by
  unfold attnFirst
  rw [View.read_writes_eq_canon _ _ _ (coverFirst5 c i arg2 harg2 arg3 harg3 arg4 harg4 arg5 harg5 arg6 harg6 arg7 harg7 arg8 harg8 arg9 harg9 hc0 hc1 x0 x1 x2 x3 x4)]
  unfold runFirst
  dsimp only
  sl_unfold_words
  rw [View.canon_unit_zero hz3]
  simp only [View.readAt_eq_ld, harg2.read_unread, harg3.read_unread, View.ld_unit_zero (S := S1x512x64) hz3, View.ld_unit_zero (S := S1x2048x64) hz3]

theorem attnMid_val (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : ¬closing i) (x0 : Vec F S1x512x64 .bf16) (x1 : Vec F S1x2048x64 .bf16) (x2 : Vec F S1x2048x64 .bf16) (x3 : Vec F S64x1024 .bf16) (x4 : Vec F S1024 .f32) (xs : Vec F S512x1024 .f32) :
    attnMid c i arg2 harg2 arg3 harg3 arg4 harg4 arg5 harg5 arg6 harg6 arg7 harg7 arg8 harg8 arg9 harg9 hc0 hc1 x0 x1 x2 x3 x4 xs = k1_pay5 x0 x1 := by
  unfold attnMid
  rw [View.read_writes_eq_canon _ _ _ (coverMid5 c i arg2 harg2 arg3 harg3 arg4 harg4 arg5 harg5 arg6 harg6 arg7 harg7 arg8 harg8 arg9 harg9 hc0 hc1 x0 x1 x2 x3 x4 xs)]
  unfold runMid
  dsimp only
  sl_unfold_words
  rw [View.canon_unit_zero hz3]
  simp only [View.readAt_eq_ld, harg2.read_unread, harg3.read_unread, View.ld_unit_zero (S := S1x512x64) hz3, View.ld_unit_zero (S := S1x2048x64) hz3]

theorem attnLast_val (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : closing i) (x0 : Vec F S1x512x64 .bf16) (x1 : Vec F S1x2048x64 .bf16) (x2 : Vec F S1x2048x64 .bf16) (x3 : Vec F S64x1024 .bf16) (x4 : Vec F S1024 .f32) (xs : Vec F S512x1024 .f32) :
    attnLast c i arg2 harg2 arg3 harg3 arg4 harg4 arg5 harg5 arg6 harg6 arg7 harg7 arg8 harg8 arg9 harg9 hc0 hc1 x0 x1 x2 x3 x4 xs = k1_pay5 x0 x1 := by
  unfold attnLast
  rw [View.read_writes_eq_canon _ _ _ (coverLast5 c i arg2 harg2 arg3 harg3 arg4 harg4 arg5 harg5 arg6 harg6 arg7 harg7 arg8 harg8 arg9 harg9 hc0 hc1 x0 x1 x2 x3 x4 xs)]
  unfold runLast
  dsimp only
  sl_unfold_words
  rw [View.canon_unit_zero hz3]
  simp only [View.readAt_eq_ld, harg2.read_unread, harg3.read_unread, View.ld_unit_zero (S := S1x512x64) hz3, View.ld_unit_zero (S := S1x2048x64) hz3]

/-! ## The accumulator, in each case -/

theorem accFirst_val (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : zeroing i) (hc1 : ¬closing i) (x0 : Vec F S1x512x64 .bf16) (x1 : Vec F S1x2048x64 .bf16) (x2 : Vec F S1x2048x64 .bf16) (x3 : Vec F S64x1024 .bf16) (x4 : Vec F S1024 .f32) :
    accFirst c i arg2 harg2 arg3 harg3 arg4 harg4 arg5 harg5 arg6 harg6 arg7 harg7 arg8 harg8 arg9 harg9 hc0 hc1 x0 x1 x2 x3 x4 = k1_pay1 (k1_pay6 x0 x1 x2 x3) (k1_pay3 (F := F)) := by
  unfold accFirst
  rw [View.read_writes_eq_canon _ _ _ (coverFirstS c i arg2 harg2 arg3 harg3 arg4 harg4 arg5 harg5 arg6 harg6 arg7 harg7 arg8 harg8 arg9 harg9 hc0 hc1 x0 x1 x2 x3 x4)]
  unfold runFirst
  dsimp only
  sl_unfold_words
  rw [View.canon_cons_unit_zero (S := S512x1024) hz2, View.readCov_unit_zero (S := S512x1024) _ hz2]
  simp only [View.readAt_eq_ld, harg2.read_unread, harg3.read_unread, harg4.read_unread, harg5.read_unread, harg6.read_unread, harg9.read_unread, View.ld_unit_zero (S := S1x512x64) hz3, View.ld_unit_zero (S := S1x2048x64) hz3, View.ld_unit_zero (S := S64x1024) hz2]

theorem accMid_val (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : ¬closing i) (x0 : Vec F S1x512x64 .bf16) (x1 : Vec F S1x2048x64 .bf16) (x2 : Vec F S1x2048x64 .bf16) (x3 : Vec F S64x1024 .bf16) (x4 : Vec F S1024 .f32) (xs : Vec F S512x1024 .f32) :
    accMid c i arg2 harg2 arg3 harg3 arg4 harg4 arg5 harg5 arg6 harg6 arg7 harg7 arg8 harg8 arg9 harg9 hc0 hc1 x0 x1 x2 x3 x4 xs = k1_pay1 (k1_pay6 x0 x1 x2 x3) xs := by
  unfold accMid
  rw [View.read_writes_eq_canon _ _ _ (coverMidS c i arg2 harg2 arg3 harg3 arg4 harg4 arg5 harg5 arg6 harg6 arg7 harg7 arg8 harg8 arg9 harg9 hc0 hc1 x0 x1 x2 x3 x4 xs)]
  unfold runMid
  dsimp only
  sl_unfold_words
  rw [View.canon_unit_zero hz2]
  simp only [View.readAt_eq_ld, harg2.read_unread, harg3.read_unread, harg4.read_unread, harg5.read_unread, harg6.read_unread, harg9.read_unread, View.ld_unit_zero (S := S1x512x64) hz3, View.ld_unit_zero (S := S1x2048x64) hz3, View.ld_unit_zero (S := S64x1024) hz2, View.ld_unit_zero (S := S512x1024) hz2]

theorem accLast_val (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : closing i) (x0 : Vec F S1x512x64 .bf16) (x1 : Vec F S1x2048x64 .bf16) (x2 : Vec F S1x2048x64 .bf16) (x3 : Vec F S64x1024 .bf16) (x4 : Vec F S1024 .f32) (xs : Vec F S512x1024 .f32) :
    accLast c i arg2 harg2 arg3 harg3 arg4 harg4 arg5 harg5 arg6 harg6 arg7 harg7 arg8 harg8 arg9 harg9 hc0 hc1 x0 x1 x2 x3 x4 xs = k1_pay1 (k1_pay6 x0 x1 x2 x3) xs := by
  unfold accLast
  rw [View.read_writes_eq_canon _ _ _ (coverLastS c i arg2 harg2 arg3 harg3 arg4 harg4 arg5 harg5 arg6 harg6 arg7 harg7 arg8 harg8 arg9 harg9 hc0 hc1 x0 x1 x2 x3 x4 xs)]
  unfold runLast
  dsimp only
  sl_unfold_words
  rw [View.canon_unit_zero hz2]
  simp only [View.readAt_eq_ld, harg2.read_unread, harg3.read_unread, harg4.read_unread, harg5.read_unread, harg6.read_unread, harg9.read_unread, View.ld_unit_zero (S := S1x512x64) hz3, View.ld_unit_zero (S := S1x2048x64) hz3, View.ld_unit_zero (S := S64x1024) hz2, View.ld_unit_zero (S := S512x1024) hz2]

/-! ## The projected output's buffer at a tile's last head -/

theorem projLast_val (c : Dev nD) (i : grid1.Coords) (arg2 : Memref sig .tc .vmem S1x512x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S64x1024 .bf16) (harg5 : arg5.IsWhole) (arg6 : Memref sig .tc .vmem S1024 .f32) (harg6 : arg6.IsWhole) (arg7 : Memref sig .tc .vmem S1x512x2048 .f32) (harg7 : arg7.IsWhole) (arg8 : Memref sig .tc .vmem S512x1024 .f32) (harg8 : arg8.IsWhole) (arg9 : Memref sig .tc .vmem S512x1024 .f32) (harg9 : arg9.IsWhole) (hc0 : ¬zeroing i) (hc1 : closing i) (x0 : Vec F S1x512x64 .bf16) (x1 : Vec F S1x2048x64 .bf16) (x2 : Vec F S1x2048x64 .bf16) (x3 : Vec F S64x1024 .bf16) (x4 : Vec F S1024 .f32) (xs : Vec F S512x1024 .f32) :
    projLast c i arg2 harg2 arg3 harg3 arg4 harg4 arg5 harg5 arg6 harg6 arg7 harg7 arg8 harg8 arg9 harg9 hc0 hc1 x0 x1 x2 x3 x4 xs = k1_pay2 (k1_pay1 (k1_pay6 x0 x1 x2 x3) xs) x4 := by
  unfold projLast
  rw [View.read_writes_eq_canon _ _ _ (coverLast6 c i arg2 harg2 arg3 harg3 arg4 harg4 arg5 harg5 arg6 harg6 arg7 harg7 arg8 harg8 arg9 harg9 hc0 hc1 x0 x1 x2 x3 x4 xs)]
  unfold runLast
  dsimp only
  sl_unfold_words
  rw [View.canon_unit_zero hz2, View.readCov_unit_zero (S := S512x1024) _ hz2]
  simp only [View.readAt_eq_ld, harg2.read_unread, harg3.read_unread, harg4.read_unread, harg5.read_unread, harg6.read_unread, harg9.read_unread, View.ld_unit_zero (S := S1x512x64) hz3, View.ld_unit_zero (S := S1x2048x64) hz3, View.ld_unit_zero (S := S64x1024) hz2, View.ld_unit_zero (S := S512x1024) hz2, View.ld_unit_zero (S := S1024) hz1]

/-! ## The proof data's values, point by point -/

section Region
variable (V : (c : Dev nD) → (b : Ref sig .tc) → Buf (Elt F) ((c : Thread nD τ).loc b))

/-- After the body at any point the attention window's buffer holds the softmax weights of the point's query block
    against its key block. -/
theorem attn_after (c : Dev nD) (t : Fin cfg1.N) :
    (dat1 V c).after 5 t = k1_pay5 (iblk1 V c 0 t) (iblk1 V c 1 t) := by
  rw [after1_5]
  by_cases h0 : t.val % 16 = 0
  · exact (show after5 V c t = attnFirst c (grid1.coords t) (sm0 t) (sw0 t) (sm1 t) (sw1 t) (sm2 t) (sw2 t) (sm3 t) (sw3 t) (sm4 t) (sw4 t) (sm5 t) (sw5 t) (sm6 t) (sw6 t) accM (Memref.isWhole_whole _) ((zeroing_iff t).mpr h0) (fun h => absurd ((closing_iff t).mp h) (by omega)) (iblk1 V c 0 t) (iblk1 V c 1 t) (iblk1 V c 2 t) (iblk1 V c 3 t) (iblk1 V c 4 t) from dif_pos h0).trans
      (attnFirst_val c (grid1.coords t) (sm0 t) (sw0 t) (sm1 t) (sw1 t) (sm2 t) (sw2 t) (sm3 t) (sw3 t) (sm4 t) (sw4 t) (sm5 t) (sw5 t) (sm6 t) (sw6 t) accM (Memref.isWhole_whole _) ((zeroing_iff t).mpr h0) (fun h => absurd ((closing_iff t).mp h) (by omega)) (iblk1 V c 0 t) (iblk1 V c 1 t) (iblk1 V c 2 t) (iblk1 V c 3 t) (iblk1 V c 4 t))
  · by_cases h1 : t.val % 16 = 15
    · exact (show after5 V c t = attnLast c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => h0 ((zeroing_iff t).mp h)) ((closing_iff t).mpr h1) (iblk1 V c 0 t) (iblk1 V c 1 t) (iblk1 V c 2 t) (iblk1 V c 3 t) (iblk1 V c 4 t) (accAt V c (t.val - 1) (Nat.lt_of_le_of_lt (Nat.sub_le _ _) t.isLt)) from (dif_neg h0).trans (dif_pos h1)).trans
        (attnLast_val c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => h0 ((zeroing_iff t).mp h)) ((closing_iff t).mpr h1) (iblk1 V c 0 t) (iblk1 V c 1 t) (iblk1 V c 2 t) (iblk1 V c 3 t) (iblk1 V c 4 t) (accAt V c (t.val - 1) (Nat.lt_of_le_of_lt (Nat.sub_le _ _) t.isLt)))
    · exact (show after5 V c t = attnMid c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => h0 ((zeroing_iff t).mp h)) (fun h => h1 ((closing_iff t).mp h)) (iblk1 V c 0 t) (iblk1 V c 1 t) (iblk1 V c 2 t) (iblk1 V c 3 t) (iblk1 V c 4 t) (accAt V c (t.val - 1) (Nat.lt_of_le_of_lt (Nat.sub_le _ _) t.isLt)) from (dif_neg h0).trans (dif_neg h1)).trans
        (attnMid_val c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => h0 ((zeroing_iff t).mp h)) (fun h => h1 ((closing_iff t).mp h)) (iblk1 V c 0 t) (iblk1 V c 1 t) (iblk1 V c 2 t) (iblk1 V c 3 t) (iblk1 V c 4 t) (accAt V c (t.val - 1) (Nat.lt_of_le_of_lt (Nat.sub_le _ _) t.isLt)))

/-- At a tile's first head the accumulator ends at the head's share of the output projection added to zeros. -/
theorem accAt_first (c : Dev nD) (t : Fin cfg1.N) (h : t.val % 16 = 0) :
    accAt V c t.val t.isLt = k1_pay1 (k1_pay6 (iblk1 V c 0 t) (iblk1 V c 1 t) (iblk1 V c 2 t) (iblk1 V c 3 t)) (k1_pay3 (F := F)) :=
  have h0 := h
  (accAt_eq_first V c t h0).trans (accFirst_val c (grid1.coords t) (sm0 t) (sw0 t) (sm1 t) (sw1 t) (sm2 t) (sw2 t) (sm3 t) (sw3 t) (sm4 t) (sw4 t) (sm5 t) (sw5 t) (sm6 t) (sw6 t) accM (Memref.isWhole_whole _) ((zeroing_iff t).mpr h0) (fun h => absurd ((closing_iff t).mp h) (by omega)) (iblk1 V c 0 t) (iblk1 V c 1 t) (iblk1 V c 2 t) (iblk1 V c 3 t) (iblk1 V c 4 t))

/-- At any other head it ends at the head's share added to what the head before left. -/
theorem accAt_next (c : Dev nD) (t : Fin cfg1.N) (h : t.val % 16 ≠ 0) :
    accAt V c t.val t.isLt = k1_pay1 (k1_pay6 (iblk1 V c 0 t) (iblk1 V c 1 t) (iblk1 V c 2 t) (iblk1 V c 3 t)) (accAt V c (t.val - 1) (by omega)) := by
  have h0 : ¬t.val % 16 = 0 := h
  by_cases h1 : t.val % 16 = 15
  · exact (accAt_eq_last V c t h1).trans (accLast_val c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => absurd ((zeroing_iff t).mp h) (by omega)) ((closing_iff t).mpr h1) (iblk1 V c 0 t) (iblk1 V c 1 t) (iblk1 V c 2 t) (iblk1 V c 3 t) (iblk1 V c 4 t) (accAt V c (t.val - 1) (Nat.lt_of_le_of_lt (Nat.sub_le _ _) t.isLt)))
  · exact (accAt_eq_mid V c t h0 h1).trans (accMid_val c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => h0 ((zeroing_iff t).mp h)) (fun h => h1 ((closing_iff t).mp h)) (iblk1 V c 0 t) (iblk1 V c 1 t) (iblk1 V c 2 t) (iblk1 V c 3 t) (iblk1 V c 4 t) (accAt V c (t.val - 1) (Nat.lt_of_le_of_lt (Nat.sub_le _ _) t.isLt)))

/-- At a tile's last head the projected output's buffer ends at the accumulator plus the bias row. -/
theorem out_after (c : Dev nD) (t : Fin cfg1.N) (h : t.val % 16 = 15) :
    (dat1 V c).after 6 t = k1_pay2 (accAt V c t.val t.isLt) (iblk1 V c 4 t) := by
  have h1 := h
  have e1 := projLast_val c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => absurd ((zeroing_iff t).mp h) (by omega)) ((closing_iff t).mpr h1) (iblk1 V c 0 t) (iblk1 V c 1 t) (iblk1 V c 2 t) (iblk1 V c 3 t) (iblk1 V c 4 t) (accAt V c (t.val - 1) (Nat.lt_of_le_of_lt (Nat.sub_le _ _) t.isLt))
  have e2 := accLast_val c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => absurd ((zeroing_iff t).mp h) (by omega)) ((closing_iff t).mpr h1) (iblk1 V c 0 t) (iblk1 V c 1 t) (iblk1 V c 2 t) (iblk1 V c 3 t) (iblk1 V c 4 t) (accAt V c (t.val - 1) (Nat.lt_of_le_of_lt (Nat.sub_le _ _) t.isLt))
  rw [after1_6, show after6 V c t = projLast c (grid1.coords t) (sm0 t) (sw0 t) (sm1 t) (sw1 t) (sm2 t) (sw2 t) (sm3 t) (sw3 t) (sm4 t) (sw4 t) (sm5 t) (sw5 t) (sm6 t) (sw6 t) accM (Memref.isWhole_whole _) (fun h => absurd ((zeroing_iff t).mp h) (by omega)) ((closing_iff t).mpr h1) (iblk1 V c 0 t) (iblk1 V c 1 t) (iblk1 V c 2 t) (iblk1 V c 3 t) (iblk1 V c 4 t) (accAt V c (t.val - 1) (Nat.lt_of_le_of_lt (Nat.sub_le _ _) t.isLt)) from dif_pos h1, accAt_eq_last V c t h1]
  exact e1.trans (congrArg (fun a => k1_pay2 a (iblk1 V c 4 t)) e2.symm)

end Region

end Cert.KernelIdeal.Hand

end
-- ==== Proof.AttnBlocks.lean ====
/-
  Where the attention kernel's input blocks sit in their arrays. Grid point t works on head t mod 16 of query tile
  t / 16: its query block is rows 512·(t/16) … of head (t mod 16) of the head-major Q array, its key and value
  blocks are the whole [2048, 64] slices of that head, its output-weight block is rows 64·(t mod 16) … of the
  transposed weight matrix, and its bias block is the whole bias. Each is the array as the region found it, read at
  block index × block size + the coordinate inside the block.
-/
import proofs.«112914_j24472723653394_2_alg».proof.Proof.KI.Conds
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Hand

variable {F : FTy → Type} [FloatOps F]
variable (V : (c : Dev nD) → (b : Ref sig .tc) → Buf (Elt F) ((c : Thread nD τ).loc b))

/-- The seven windows' block indices at every grid point, decided over the 64 points. -/
theorem idx1 : ∀ t : Fin cfg1.N,
    win1_0.index t (0 : Fin 3) = t.val % 16 ∧ win1_0.index t (1 : Fin 3) = t.val / 16 ∧ win1_0.index t (2 : Fin 3) = 0
    ∧ win1_1.index t (0 : Fin 3) = t.val % 16 ∧ win1_1.index t (1 : Fin 3) = 0 ∧ win1_1.index t (2 : Fin 3) = 0
    ∧ win1_2.index t (0 : Fin 3) = t.val % 16 ∧ win1_2.index t (1 : Fin 3) = 0 ∧ win1_2.index t (2 : Fin 3) = 0
    ∧ win1_3.index t (0 : Fin 2) = t.val % 16 ∧ win1_3.index t (1 : Fin 2) = 0
    ∧ win1_4.index t (0 : Fin 1) = 0
    ∧ win1_5.index t (0 : Fin 3) = t.val % 16 ∧ win1_5.index t (1 : Fin 3) = t.val / 16 ∧ win1_5.index t (2 : Fin 3) = 0
    ∧ win1_6.index t (0 : Fin 2) = t.val / 16 ∧ win1_6.index t (1 : Fin 2) = 0 :=
  (by decide +kernel : ∀ t : Fin grid1.N, _)

/-- The query block: row r, lane d of the block is row 512·(t/16) + r, lane d of head t mod 16. -/
theorem blkQ (c : Dev nD) (t : Fin cfg1.N) (r : Fin 512) (d : Fin 64) (h : Fin 16) (s : Fin 2048)
    (hh : h.val = t.val % 16) (hs : s.val = t.val / 16 * 512 + r.val) :
    iblk1 V c 0 t (ix3 (0 : Fin 1) r d) = (V c main_v9_0 : Vec F S16x2048x64 .bf16) (ix3 h s d) := by
  obtain ⟨e0, e1, e2, -⟩ := idx1 t
  show V c main_v9_0 (((cfg1.win 0).blk t).view.emb (ix3 (0 : Fin 1) r d)) = _
  refine congrArg _ ?_
  funext a; apply Fin.ext
  match a with
  | ⟨0, _⟩ => show win1_0.index t (0 : Fin 3) * 1 + 1 * 0 = h.val; omega
  | ⟨1, _⟩ => show win1_0.index t (1 : Fin 3) * 512 + 1 * r.val = s.val; omega
  | ⟨2, _⟩ => show win1_0.index t (2 : Fin 3) * 64 + 1 * d.val = d.val; omega

/-- The key block: the whole slice of head t mod 16. -/
theorem blkK (c : Dev nD) (t : Fin cfg1.N) (u : Fin 2048) (d : Fin 64) (h : Fin 16) (hh : h.val = t.val % 16) :
    iblk1 V c 1 t (ix3 (0 : Fin 1) u d) = (V c main_v9_1 : Vec F S16x2048x64 .bf16) (ix3 h u d) := by
  obtain ⟨-, -, -, e0, e1, e2, -⟩ := idx1 t
  show V c main_v9_1 (((cfg1.win 1).blk t).view.emb (ix3 (0 : Fin 1) u d)) = _
  refine congrArg _ ?_
  funext a; apply Fin.ext
  match a with
  | ⟨0, _⟩ => show win1_1.index t (0 : Fin 3) * 1 + 1 * 0 = h.val; omega
  | ⟨1, _⟩ => show win1_1.index t (1 : Fin 3) * 2048 + 1 * u.val = u.val; omega
  | ⟨2, _⟩ => show win1_1.index t (2 : Fin 3) * 64 + 1 * d.val = d.val; omega

/-- The value block: the whole slice of head t mod 16. -/
theorem blkV (c : Dev nD) (t : Fin cfg1.N) (u : Fin 2048) (d : Fin 64) (h : Fin 16) (hh : h.val = t.val % 16) :
    iblk1 V c 2 t (ix3 (0 : Fin 1) u d) = (V c main_v9_2 : Vec F S16x2048x64 .bf16) (ix3 h u d) := by
  obtain ⟨-, -, -, -, -, -, e0, e1, e2, -⟩ := idx1 t
  show V c main_v9_2 (((cfg1.win 2).blk t).view.emb (ix3 (0 : Fin 1) u d)) = _
  refine congrArg _ ?_
  funext a; apply Fin.ext
  match a with
  | ⟨0, _⟩ => show win1_2.index t (0 : Fin 3) * 1 + 1 * 0 = h.val; omega
  | ⟨1, _⟩ => show win1_2.index t (1 : Fin 3) * 2048 + 1 * u.val = u.val; omega
  | ⟨2, _⟩ => show win1_2.index t (2 : Fin 3) * 64 + 1 * d.val = d.val; omega

/-- The output-weight block: row d of the block is row 64·(t mod 16) + d of the transposed weights. -/
theorem blkW (c : Dev nD) (t : Fin cfg1.N) (d : Fin 64) (j : Fin 1024) (e : Fin 1024) (he : e.val = t.val % 16 * 64 + d.val) :
    iblk1 V c 3 t (ix2 d j) = (V c main_v8 : Vec F S1024x1024 .bf16) (ix2 e j) := by
  obtain ⟨-, -, -, -, -, -, -, -, -, e0, e1, -⟩ := idx1 t
  show V c main_v8 (((cfg1.win 3).blk t).view.emb (ix2 d j)) = _
  refine congrArg _ ?_
  funext a; apply Fin.ext
  match a with
  | ⟨0, _⟩ => show win1_3.index t (0 : Fin 2) * 64 + 1 * d.val = e.val; omega
  | ⟨1, _⟩ => show win1_3.index t (1 : Fin 2) * 1024 + 1 * j.val = j.val; omega

/-- The bias block: the whole bias. -/
theorem blkB (c : Dev nD) (t : Fin cfg1.N) (j : Fin 1024) :
    iblk1 V c 4 t (ix1 j) = (V c main_arg8 : Vec F S1024 .f32) (ix1 j) := by
  obtain ⟨-, -, -, -, -, -, -, -, -, -, -, e0, -⟩ := idx1 t
  show V c main_arg8 (((cfg1.win 4).blk t).view.emb (ix1 j)) = _
  refine congrArg _ ?_
  funext a; apply Fin.ext
  match a with
  | ⟨0, _⟩ => show win1_4.index t (0 : Fin 1) * 1024 + 1 * j.val = j.val; omega

end Cert.KernelIdeal.Val

end
-- ==== Proof.AttnCover.lean ====
/-
  The two result arrays are tiled by the attention kernel's output blocks. Grid point t writes back the block of
  the attention weights [16, 2048, 2048] at head t mod 16, rows 512·(t/16) … 512·(t/16)+511, all columns; and, at a
  tile's last head only (t mod 16 = 15), the block of the output [2048, 1024] at rows 512·(t/16) …, all columns.
  So entry (h, s, u) of the weights is written by point 16·(s/512) + h, and entry (s, j) of the output by point
  16·(s/512) + 15.
-/
import proofs.«112914_j24472723653394_2_alg».proof.Proof.AttnBlocks

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Hand

/-- An entry of the weights array is in point t's block iff each coordinate is in the block's range on its axis. -/
theorem mem_blkW (t : Fin cfg1.N) (i : S16x2048x2048.Idx) :
    i ∈ ((cfg1.win 5).blk t).view.set ↔ ∀ a : Fin 3, win1_5.index t a * S1x512x2048.size a ≤ (i a).val ∧ (i a).val < win1_5.index t a * S1x512x2048.size a + S1x512x2048.size a := by
  show i ∈ ((View.whole main_v10_0).slice (win1_5.rect t)).set ↔ _
  rw [View.set_slice_whole, Rect.mem_set_unit]
  exact Iff.rfl

/-- Every entry of the weights array is in the block of a point that writes it back. -/
theorem coverW (i : S16x2048x2048.Idx) :
    ∃ t : Fin cfg1.N, (cfg1.win 5).flush t = true ∧ i ∈ ((cfg1.win 5).blk t).view.set := by
  have h0 : (i 0).val < 16 := (i 0).isLt
  have h1 : (i 1).val < 2048 := (i 1).isLt
  have h2 : (i 2).val < 2048 := (i 2).isLt
  have hN : cfg1.N = 64 := N_1
  let t : Fin cfg1.N := ⟨(i 1).val / 512 * 16 + (i 0).val, by rw [hN]; omega⟩
  obtain ⟨-, -, -, -, -, -, -, -, -, -, -, -, e0, e1, e2, -⟩ := idx1 t
  have tv : t.val = (i 1).val / 512 * 16 + (i 0).val := rfl
  refine ⟨t, flush1_5 t, ?_⟩
  rw [mem_blkW]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 2048 ≤ (i 2).val ∧ (i 2).val < win1_5.index t (2 : Fin 3) * 2048 + 2048; omega

/-- An entry of the output array is in point t's block iff each coordinate is in the block's range on its axis. -/
theorem mem_blkO (t : Fin cfg1.N) (i : S2048x1024.Idx) :
    i ∈ ((cfg1.win 6).blk t).view.set ↔ ∀ a : Fin 2, win1_6.index t a * S512x1024.size a ≤ (i a).val ∧ (i a).val < win1_6.index t a * S512x1024.size a + S512x1024.size a := by
  show i ∈ ((View.whole main_v10_1).slice (win1_6.rect t)).set ↔ _
  rw [View.set_slice_whole, Rect.mem_set_unit]
  exact Iff.rfl

/-- Every entry of the output array is in the block of a tile's last head, which writes it back. -/
theorem coverO (i : S2048x1024.Idx) :
    ∃ t : Fin cfg1.N, (cfg1.win 6).flush t = true ∧ i ∈ ((cfg1.win 6).blk t).view.set := by
  have h0 : (i 0).val < 2048 := (i 0).isLt
  have h1 : (i 1).val < 1024 := (i 1).isLt
  have hN : cfg1.N = 64 := N_1
  let t : Fin cfg1.N := ⟨(i 0).val / 512 * 16 + 15, by rw [hN]; omega⟩
  obtain ⟨-, -, -, -, -, -, -, -, -, -, -, -, -, -, -, e0, e1⟩ := idx1 t
  have tv : t.val = (i 0).val / 512 * 16 + 15 := rfl
  refine ⟨t, (flush1_6 t).mpr (by omega), ?_⟩
  rw [mem_blkO]
  intro a
  match a with
  | ⟨0, _⟩ => show win1_6.index t (0 : Fin 2) * 512 ≤ (i 0).val ∧ (i 0).val < win1_6.index t (0 : Fin 2) * 512 + 512; omega
  | ⟨1, _⟩ => show win1_6.index t (1 : Fin 2) * 1024 ≤ (i 1).val ∧ (i 1).val < win1_6.index t (1 : Fin 2) * 1024 + 1024; omega

end Cert.KernelIdeal.Val

end
-- ==== Proof.MhaSpec.lean ====
/-
  Multi-head self-attention over a sequence of 2048 rows with 1024 features, 16 heads of 64 lanes, as two functions
  of the nine argument arrays, index by index, on the extended reals.

  For a row s and a feature j the three linear layers are  lin x W b s j = Σ_e x[s,e]·W[j,e] + b[j]  (y = x·Wᵀ + b).
  Head h owns the features  feat h d = 64·h + d  (d < 64).  With c = 2⁻⁵ (the scale 1/√1024):
     score h s t = Σ_d (Q[s, feat h d]·c)·K[t, feat h d]
     attn  h s t = exp(score h s t − max_t' score h s t') / Σ_t' exp(score h s t' − max_t'' score h s t'')
     ctx   h s d = Σ_t attn h s t · V[t, feat h d]
     out   s j   = Σ_h Σ_d ctx h s d · Wo[j, feat h d]  +  bo[j].
  The maximum is the fold of max from −∞, the quotient the extended reals' division.
-/
import Idealize.ShloMosaic.PureOps.Ideal
import Idealize.ShloMosaic.PureOps.Ideal.Laws
import Idealize.ShloMosaic.Lib.ValueIdx

noncomputable section

namespace Cert.Mha

open Idealize.ShloMosaic Idealize.ShloMosaic.ValueIdx

/-- A matrix and a row of extended reals, over literal extents. -/
abbrev Mat (a b : Nat) : Type := (⟨2, ![a, b]⟩ : Shape).Idx → EReal
abbrev Row (a : Nat) : Type := (⟨1, ![a]⟩ : Shape).Idx → EReal

/-- The nine argument arrays. -/
structure Args where
  x : Mat 2048 1024
  Wq : Mat 1024 1024
  bq : Row 1024
  Wk : Mat 1024 1024
  bk : Row 1024
  Wv : Mat 1024 1024
  bv : Row 1024
  Wo : Mat 1024 1024
  bo : Row 1024

/-- Lane `d` of head `h` is feature `64·h + d`. -/
def feat (h : Fin 16) (d : Fin 64) : Fin 1024 := ⟨h.val * 64 + d.val, by omega⟩

/-- The softmax scale, the program's bf16 literal (2⁻⁵). -/
def scale : EReal := Ideal.ofBits .bf16 0x3D00#16

/-- A linear layer y = x·Wᵀ + b at row `s`, feature `j`. -/
def lin (x : Mat 2048 1024) (W : Mat 1024 1024) (b : Row 1024) (s : Fin 2048) (j : Fin 1024) : EReal :=
  (∑ e : Fin 1024, x (ix2 s e) * W (ix2 j e)) + b (ix1 j)

def Q (A : Args) (s : Fin 2048) (j : Fin 1024) : EReal := lin A.x A.Wq A.bq s j
def K (A : Args) (s : Fin 2048) (j : Fin 1024) : EReal := lin A.x A.Wk A.bk s j
def V (A : Args) (s : Fin 2048) (j : Fin 1024) : EReal := lin A.x A.Wv A.bv s j

/-- The scaled score of query row `s` against key row `t` in head `h`: the scale sits on the query's lanes. -/
def score (A : Args) (h : Fin 16) (s t : Fin 2048) : EReal :=
  ∑ d : Fin 64, (Q A s (feat h d) * scale) * K A t (feat h d)

/-- A row's maximum, folded from −∞. -/
def rowMax (A : Args) (h : Fin 16) (s : Fin 2048) : EReal :=
  (Finset.univ : Finset (Fin 2048)).fold max (Ideal.ofBits .f32 0xFF800000#32) (fun t => score A h s t)

def expo (A : Args) (h : Fin 16) (s t : Fin 2048) : EReal := Ideal.exp (score A h s t - rowMax A h s)

def denom (A : Args) (h : Fin 16) (s : Fin 2048) : EReal := ∑ t : Fin 2048, expo A h s t

/-- The attention weights. -/
def attn (A : Args) (h : Fin 16) (s t : Fin 2048) : EReal := Ideal.div (expo A h s t) (denom A h s)

/-- Head `h`'s context row `s`, lane `d`. -/
def ctx (A : Args) (h : Fin 16) (s : Fin 2048) (d : Fin 64) : EReal :=
  ∑ t : Fin 2048, attn A h s t * V A t (feat h d)

/-- Head `h`'s share of the output projection at row `s`, feature `j`. -/
def contrib (A : Args) (h : Fin 16) (s : Fin 2048) (j : Fin 1024) : EReal :=
  ∑ d : Fin 64, ctx A h s d * A.Wo (ix2 j (feat h d))

/-- The first result: the projected output [2048, 1024]. -/
def out (A : Args) : Mat 2048 1024 := fun i => (∑ h : Fin 16, contrib A h (i 0) (i 1)) + A.bo (ix1 (i 1))

/-- The second result: the attention weights [16, 2048, 2048]. -/
def weights (A : Args) : (⟨3, ![16, 2048, 2048]⟩ : Shape).Idx → EReal := fun i => attn A (i 0) (i 1) (i 2)

theorem out_apply (A : Args) (s : Fin 2048) (j : Fin 1024) :
    out A (ix2 s j) = (∑ h : Fin 16, contrib A h s j) + A.bo (ix1 j) := rfl

theorem weights_apply (A : Args) (h : Fin 16) (s t : Fin 2048) : weights A (ix3 h s t) = attn A h s t := rfl

end Cert.Mha

end
-- ==== Proof.PayloadAcc.lean ====
/-
  The three small payloads of the attention kernel's output accumulator, read at an element on the extended reals:
  one step adds a head's share to what the accumulator held, the first step starts it from zero, and the last step adds
  the output bias, a row broadcast over the 512 rows of the block.
-/
import proofs.«112914_j24472723653394_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Mha.Pay

open Cert.KernelIdeal Cert.KernelIdeal.Gen Idealize.ShloMosaic Idealize.ShloMosaic.ValueIdx

/-- One accumulation step: the accumulator's element plus the head's share there. -/
theorem pay_acc (c : FVec Ideal S512x1024 .f32) (a : Vec Ideal S512x1024 .f32) (i : S512x1024.Idx) :
    k1_pay1 c a i = a i + c i := by
  unfold k1_pay1
  rw [shapeCast_self]
  rfl

/-- The accumulator's first value: zero everywhere. -/
theorem pay_zero (i : S512x1024.Idx) : k1_pay3 (F := Ideal) i = 0 := by
  unfold k1_pay3
  rw [shapeCast_self]
  exact Ideal.ofBits_zero_f32

/-- The last step: the accumulated element plus the bias of its column. -/
theorem pay_final (a : Vec Ideal S512x1024 .f32) (bo : Vec Ideal S1024 .f32) (r : Fin 512) (j : Fin 1024) :
    k1_pay2 a bo (ix2 r j) = a (ix2 r j) + bo (ix1 j) := by
  unfold k1_pay2
  rw [addf_apply, broadcastTo_1b_ab_apply, shapeCast_a_1a_apply]

end Cert.Mha.Pay

end
-- ==== Proof.LibDense.lean ====
/-
  A plain matrix product read at an index.

  For `l : [A, K]` and `r : [K, B]` the product with dimension numbers "contract axis 1 of the left with axis 0 of the
  right, no batch axes" — what `jnp.dot` of two matrices lowers to, on the matrix unit (into a zero accumulator) and on
  the host alike — is, at the ideal instance and at the element `(a, b)`, the exact sum over `k` of
  `l (a, k) · r (k, b)`. General in `A`, `K`, `B` and in the operands' float formats.
-/
import Idealize.ShloMosaic.PureOps.Ideal
import Idealize.ShloMosaic.PureOps.Ideal.Laws
import Idealize.ShloMosaic.Lib.ValueIdx

noncomputable section

open scoped BigOperators

namespace Cert.Lib.Dense

open Idealize.ShloMosaic Idealize.ShloMosaic.ValueIdx

/-- The dimension numbers of `l @ r` for `l : [A, K]`, `r : [K, B]`. -/
abbrev denseDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

section
variable {A K B : Nat} (wf : DotDims.WF ⟨2, ![A, K]⟩ ⟨2, ![K, B]⟩ ⟨2, ![A, B]⟩ [1] [0] [0] [1] [] [])

/-- The left operand's row is the result's row … -/
theorem dense_lhs0 (i : (⟨2, ![A, B]⟩ : Shape).Idx) (q : (denseDims A K B wf).contr.Idx) :
    ((denseDims A K B wf).lhsIdx i q 0).val = (i 0).val := by
  unfold DotDims.lhsIdx
  rw [dif_neg (show ¬(0 : Fin 2) ∈ (denseDims A K B wf).lhsBatch from List.not_mem_nil),
    dif_pos (show (0 : Fin 2) ∈ (denseDims A K B wf).lhsNonContracting from List.mem_singleton.mpr rfl)]
  rfl

/-- … and its column the contraction coordinate. -/
theorem dense_lhs1 (i : (⟨2, ![A, B]⟩ : Shape).Idx) (q : (denseDims A K B wf).contr.Idx) :
    ((denseDims A K B wf).lhsIdx i q 1).val = (q ⟨0, (Nat.one_pos : 0 < 1)⟩).val :=
  (denseDims A K B wf).lhsIdx_val_of_single rfl i q

/-- The right operand's row is the contraction coordinate … -/
theorem dense_rhs0 (i : (⟨2, ![A, B]⟩ : Shape).Idx) (q : (denseDims A K B wf).contr.Idx) :
    ((denseDims A K B wf).rhsIdx i q 0).val = (q ⟨0, (Nat.one_pos : 0 < 1)⟩).val :=
  (denseDims A K B wf).rhsIdx_val_of_single rfl i q

/-- … and its column the result's column. -/
theorem dense_rhs1 (i : (⟨2, ![A, B]⟩ : Shape).Idx) (q : (denseDims A K B wf).contr.Idx) :
    ((denseDims A K B wf).rhsIdx i q 1).val = (i 1).val := by
  unfold DotDims.rhsIdx
  rw [dif_neg (show ¬(1 : Fin 2) ∈ (denseDims A K B wf).rhsBatch from List.not_mem_nil),
    dif_pos (show (1 : Fin 2) ∈ (denseDims A K B wf).rhsNonContracting from List.mem_singleton.mpr rfl)]
  rfl

/-- The contraction's sum, re-indexed by its one coordinate. -/
theorem dense_sum {φ₁ φ₂ : FTy} (l : FVec Ideal ⟨2, ![A, K]⟩ φ₁) (r : FVec Ideal ⟨2, ![K, B]⟩ φ₂) (a : Fin A) (b : Fin B) :
    (∑ q : (denseDims A K B wf).contr.Idx,
        l ((denseDims A K B wf).lhsIdx (ix2 a b) q) * r ((denseDims A K B wf).rhsIdx (ix2 a b) q))
      = ∑ k : Fin K, l (ix2 a k) * r (ix2 k b) := by
  rw [← Equiv.sum_comp (contrEquiv1 (denseDims A K B wf) K rfl rfl).symm]
  refine Finset.sum_congr rfl fun k _ => ?_
  have hk := contrEquiv1_symm_val (denseDims A K B wf) K rfl rfl k
  have el : (denseDims A K B wf).lhsIdx (ix2 a b) ((contrEquiv1 (denseDims A K B wf) K rfl rfl).symm k) = ix2 a k :=
    funext fun x => Fin.ext (by
      match x with
      | ⟨0, _⟩ => exact dense_lhs0 wf _ _
      | ⟨1, _⟩ => exact (dense_lhs1 wf _ _).trans hk)
  have er : (denseDims A K B wf).rhsIdx (ix2 a b) ((contrEquiv1 (denseDims A K B wf) K rfl rfl).symm k) = ix2 k b :=
    funext fun x => Fin.ext (by
      match x with
      | ⟨0, _⟩ => exact (dense_rhs0 wf _ _).trans hk
      | ⟨1, _⟩ => exact dense_rhs1 wf _ _)
  rw [el, er]

/-- THE MATRIX UNIT'S PRODUCT into a zero accumulator, read at `(a, b)`. -/
theorem dense_matmul_apply {φ₁ φ₂ : FTy} (prec : Option ContractPrecision)
    (l : FVec Ideal ⟨2, ![A, K]⟩ φ₁) (r : FVec Ideal ⟨2, ![K, B]⟩ φ₂) (a : Fin A) (b : Fin B) :
    FloatOps.matmul (denseDims A K B wf) prec l r (constant (F := Ideal) ⟨2, ![A, B]⟩ .f32 0x00000000#32) (ix2 a b)
      = ∑ k : Fin K, l (ix2 a k) * r (ix2 k b) := by
  rw [Ideal.matmul_constant_zero_apply]
  exact dense_sum wf l r a b

/-- THE HOST'S PRODUCT, read at `(a, b)`. -/
theorem dense_dotGeneral_apply {φ₁ φ₂ : FTy} (prec : Option ContractPrecision) (sched : HostSchedule)
    (l : FVec Ideal ⟨2, ![A, K]⟩ φ₁) (r : FVec Ideal ⟨2, ![K, B]⟩ φ₂) (a : Fin A) (b : Fin B) :
    FloatOps.dotGeneral (denseDims A K B wf) prec sched l r (ix2 a b) = ∑ k : Fin K, l (ix2 a k) * r (ix2 k b) := by
  rw [Ideal.dotGeneral_apply]
  exact dense_sum wf l r a b

end

end Cert.Lib.Dense

end
-- ==== Proof.LibColumn.lean ====
/-
  The keepdims column forms of two layout operations, read at an index: what a row reduction kept as a column
  (`jnp.sum(…, axis=1, keepdims=True)`) goes through before it meets a matrix again.
-/
import Idealize.ShloMosaic.Lib.Pipeline.Value
import Idealize.ShloMosaic.Lib.ValueIdx

noncomputable section

namespace LibColumn

open Idealize.ShloMosaic Idealize.ShloMosaic.ValueIdx

/-- An `[a]` array cast to the column `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end LibColumn

end
-- ==== Proof.LibReshape4.lean ====
/-
  Row-major re-layouts of a rank-4 array, read at an element.

  An array `[a, b, c, d]` and its two flattened views hold the same entries in the same row-major order:
  * `[a·b, c·d]`: row `i·b + j`, column `k·d + l` is the entry `(i, j, k, l)` — in both directions;
  * `[a, b, c·d]`: `(i, j, k·d + l)` is the entry `(i, j, k, l)` — in both directions.
  Also a row `[1, g]` seen as a column `[g, 1]`, and the index a sum over the second axis of a matrix runs over:
  `p` with the coordinate `k` put back is `(p, k)`.
  General in the extents and the element type.
-/
import Idealize.ShloMosaic.PureOps.Ideal
import Idealize.ShloMosaic.Lib.ValueIdx
import Idealize.ShloMosaic.Lib.Pipeline.Value
import Idealize.ShloMosaic.PureOps.Reduce

noncomputable section

namespace Cert.Lib.Reshape4

open Idealize.ShloMosaic Idealize.ShloMosaic.ValueIdx

variable {α : Type}

/-! ## Both pairs of axes merged: `[a, b, c, d] ↔ [a·b, c·d]` -/

/-- `[a, b, c, d]` seen as `[n, m]` (`m = c·d`): row `i·b + j`, column `k·d + l` reads `(i, j, k, l)`. -/
theorem shapeCast_abcd_nm_apply {a b c d n m : Nat} (x : (⟨4, ![a, b, c, d]⟩ : Shape).Idx → α)
    (h : (⟨4, ![a, b, c, d]⟩ : Shape).ShapeCasts ⟨2, ![n, m]⟩) (hm : m = c * d)
    (i : Fin a) (j : Fin b) (k : Fin c) (l : Fin d) (r : Fin n) (q : Fin m)
    (hr : r.val = i.val * b + j.val) (hq : q.val = k.val * d + l.val) :
    shapeCast ⟨2, ![n, m]⟩ x h (ix2 r q) = x (ix4 i j k l) :=
  shapeCast_apply x h _ _ (by
    rw [Shape.rowMajor_val_four, Shape.rowMajor_val_two]
    show ((i.val * b + j.val) * c + k.val) * d + l.val = r.val * m + q.val
    rw [hr, hq, hm]; ring)

/-- `[n, m]` seen as `[a, b, c, d]`: `(i, j, k, l)` reads row `i·b + j`, column `k·d + l`. -/
theorem shapeCast_nm_abcd_apply {a b c d n m : Nat} (y : (⟨2, ![n, m]⟩ : Shape).Idx → α)
    (h : (⟨2, ![n, m]⟩ : Shape).ShapeCasts ⟨4, ![a, b, c, d]⟩) (hm : m = c * d)
    (i : Fin a) (j : Fin b) (k : Fin c) (l : Fin d) (r : Fin n) (q : Fin m)
    (hr : r.val = i.val * b + j.val) (hq : q.val = k.val * d + l.val) :
    shapeCast ⟨4, ![a, b, c, d]⟩ y h (ix4 i j k l) = y (ix2 r q) :=
  shapeCast_apply y h _ _ (by
    rw [Shape.rowMajor_val_four, Shape.rowMajor_val_two]
    show r.val * m + q.val = ((i.val * b + j.val) * c + k.val) * d + l.val
    rw [hr, hq, hm]; ring)

/-! ## The last two axes merged: `[a, b, c, d] ↔ [a, b, c·d]` -/

/-- `[a, b, c, d]` seen as `[a, b, m]` (`m = c·d`): `(i, j, k·d + l)` reads `(i, j, k, l)`. -/
theorem shapeCast_abcd_abm_apply {a b c d m : Nat} (x : (⟨4, ![a, b, c, d]⟩ : Shape).Idx → α)
    (h : (⟨4, ![a, b, c, d]⟩ : Shape).ShapeCasts ⟨3, ![a, b, m]⟩) (hm : m = c * d)
    (i : Fin a) (j : Fin b) (k : Fin c) (l : Fin d) (q : Fin m) (hq : q.val = k.val * d + l.val) :
    shapeCast ⟨3, ![a, b, m]⟩ x h (ix3 i j q) = x (ix4 i j k l) :=
  shapeCast_apply x h _ _ (by
    rw [Shape.rowMajor_val_four, Shape.rowMajor_val_three]
    show ((i.val * b + j.val) * c + k.val) * d + l.val = (i.val * b + j.val) * m + q.val
    rw [hq, hm]; ring)

/-- `[a, b, m]` seen as `[a, b, c, d]`: `(i, j, k, l)` reads `(i, j, k·d + l)`. -/
theorem shapeCast_abm_abcd_apply {a b c d m : Nat} (y : (⟨3, ![a, b, m]⟩ : Shape).Idx → α)
    (h : (⟨3, ![a, b, m]⟩ : Shape).ShapeCasts ⟨4, ![a, b, c, d]⟩) (hm : m = c * d)
    (i : Fin a) (j : Fin b) (k : Fin c) (l : Fin d) (q : Fin m) (hq : q.val = k.val * d + l.val) :
    shapeCast ⟨4, ![a, b, c, d]⟩ y h (ix4 i j k l) = y (ix3 i j q) :=
  shapeCast_apply y h _ _ (by
    rw [Shape.rowMajor_val_four, Shape.rowMajor_val_three]
    show (i.val * b + j.val) * m + q.val = ((i.val * b + j.val) * c + k.val) * d + l.val
    rw [hq, hm]; ring)

/-! ## A row as a column -/

/-- A row `[1, g]` seen as a column `[g, 1]` reads, at `(p, u)`, the row's entry `p`. -/
theorem shapeCast_row_col_apply {g : Nat} (x : (⟨2, ![1, g]⟩ : Shape).Idx → α)
    (h : (⟨2, ![1, g]⟩ : Shape).ShapeCasts ⟨2, ![g, 1]⟩) (p : Fin g) (u : Fin 1) :
    shapeCast ⟨2, ![g, 1]⟩ x h (ix2 p u) = x (ix2 (0 : Fin 1) p) :=
  shapeCast_apply x h _ _ (by
    have hu : u.val = 0 := by omega
    rw [Shape.rowMajor_val_two, Shape.rowMajor_val_two]
    show 0 * g + p.val = p.val * 1 + u.val
    rw [hu, Nat.zero_mul, Nat.zero_add, Nat.mul_one, Nat.add_zero])

/-! ## The index a sum over a matrix's second axis runs over -/

/-- `p` with the coordinate `k` put back on the second axis is `(p, k)`. -/
theorem lift_axis1 {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

end Cert.Lib.Reshape4

end
-- ==== Proof.PayloadScores.lean ====
/-
  The attention kernel's weights payload read at an element, on the extended reals.

  From a block of 512 query rows and the 2048 key rows of one head the kernel forms the scaled scores
  s[r,t] = Σ_d (q[r,d]·c)·k[t,d] on the matrix unit, takes each row's maximum m[r] (folded from −∞), exponentiates
  s[r,t] − m[r], sums each row, and divides: the payload at (r, t) is exp(s[r,t] − m[r]) / Σ_t' exp(s[r,t'] − m[r]).
-/
import proofs.«112914_j24472723653394_2_alg».proof.Proof.Gen.KernelIdeal.Skeleton
import proofs.«112914_j24472723653394_2_alg».proof.Proof.MhaSpec
import proofs.«112914_j24472723653394_2_alg».proof.Proof.LibDense
import proofs.«112914_j24472723653394_2_alg».proof.Proof.LibColumn
import proofs.«112914_j24472723653394_2_alg».proof.Proof.LibReshape4
import Idealize.ShloMosaic.Lib.ValueIdx
import Idealize.ShloMosaic.Lib.Pipeline.Value
import Idealize.ShloMosaic.Lib.ValueLayout
import Idealize.ShloMosaic.PureOps.Ideal.Laws

noncomputable section

namespace Cert.Mha.Pay

open Cert.KernelIdeal Cert.KernelIdeal.Gen Idealize.ShloMosaic Idealize.ShloMosaic.ValueIdx

/-- The scaled score of block row `r` against key row `t`, from the two loaded blocks. -/
def sc (q : Vec Ideal S1x512x64 .bf16) (k : Vec Ideal S1x2048x64 .bf16) (r : Fin 512) (t : Fin 2048) : EReal :=
  ∑ d : Fin 64, (q (ix3 0 r d) * Cert.Mha.scale) * k (ix3 0 t d)

/-- The maximum of block row `r`'s scores, folded from −∞. -/
def mx (q : Vec Ideal S1x512x64 .bf16) (k : Vec Ideal S1x2048x64 .bf16) (r : Fin 512) : EReal :=
  (Finset.univ : Finset (Fin 2048)).fold max (Ideal.ofBits .f32 0xFF800000#32) (fun t => sc q k r t)

/-! ## Row reductions of a matrix read at a row -/

/-- The exponential of a vector reads, at an index, the exponential of the element. -/
theorem exp_apply {s : Shape} {φ : FTy} (a : FVec Ideal s φ) (i : s.Idx) : exp a i = Ideal.exp (a i) := rfl

/-- A matrix's row maxima from −∞: at row `p`, the fold of `max` over the row's entries. -/
theorem rowMax_apply {a b : ℕ} (X : FVec Ideal ⟨2, ![a, b]⟩ .f32) (hr : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ X 0xFF800000#32 hr hφ hacc (ix1 p)
      = (Finset.univ : Finset (Fin b)).fold max (Ideal.ofBits .f32 0xFF800000#32) (fun t => X (ix2 p t)) := by
  refine (Ideal.multiReduction_maximumf_single X 0xFF800000#32 hr hφ hacc (ix1 p)).trans ?_
  have e : (X ∘ hr.lift (ix1 p)) = fun k => X (ix2 p ⟨k.val, k.isLt⟩) :=
    funext fun k => congrArg X (Cert.Lib.Reshape4.lift_axis1 hr p k)
  rw [e]
  rfl

/-- A matrix's row sums: at row `p`, the sum of the row's entries. -/
theorem rowSum_apply {a b : ℕ} (Y : FVec Ideal ⟨2, ![a, b]⟩ .f32) (hr : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ Y 0x00000000#32 hr hφ hacc (ix1 p) = ∑ t : Fin b, Y (ix2 p t) := by
  refine (Ideal.multiReduction_add_single Y 0x00000000#32 hr hφ hacc (ix1 p)).trans ?_
  exact Finset.sum_congr rfl fun k _ => congrArg Y (Cert.Lib.Reshape4.lift_axis1 hr p k)

/-! ## The softmax of the rows of a matrix -/

/-- The softmax of each row of a [512, 2048] matrix, in the kernel's order of operations: the row maxima kept as a
column and spread over the row, the difference exponentiated, the row sums kept as a column and spread, the quotient. -/
def rowSoftmax (X : FVec Ideal S512x2048 .f32) (hr : S512x2048.Reduces [1] S512) (hc : S512.ShapeCasts S512x1)
    (hb : S512x1.Broadcasts S512x2048) : FVec Ideal S512x2048 .f32 :=
  divf (exp (subf X (broadcastTo S512x2048
          (shapeCast S512x1 (multiReduction .maximumf [1] S512 X 0xFF800000#32 hr (.inl rfl) rfl) hc) hb)))
    (broadcastTo S512x2048
      (shapeCast S512x1
        (multiReduction .add [1] S512
          (exp (subf X (broadcastTo S512x2048
            (shapeCast S512x1 (multiReduction .maximumf [1] S512 X 0xFF800000#32 hr (.inl rfl) rfl) hc) hb)))
          0x00000000#32 hr (.inl rfl) rfl) hc) hb)

/-- The maximum of row `r` of a matrix, folded from −∞. -/
def rowMaxOf (X : FVec Ideal S512x2048 .f32) (r : Fin 512) : EReal :=
  (Finset.univ : Finset (Fin 2048)).fold max (Ideal.ofBits .f32 0xFF800000#32) (fun t => X (ix2 r t))

/-- The exponentiated difference at `(r, t)`. -/
theorem expDiff_apply (X : FVec Ideal S512x2048 .f32) (hr : S512x2048.Reduces [1] S512) (hc : S512.ShapeCasts S512x1)
    (hb : S512x1.Broadcasts S512x2048) (r : Fin 512) (t : Fin 2048) :
    exp (subf X (broadcastTo S512x2048
          (shapeCast S512x1 (multiReduction .maximumf [1] S512 X 0xFF800000#32 hr (.inl rfl) rfl) hc) hb)) (ix2 r t)
      = Ideal.exp (X (ix2 r t) - rowMaxOf X r) := by
  rw [exp_apply, subf_apply, LibColumn.broadcastTo_a1_ab_apply, LibColumn.shapeCast_a_a1_apply, rowMax_apply]
  rfl

/-- The row softmax at `(r, t)`. -/
theorem rowSoftmax_apply (X : FVec Ideal S512x2048 .f32) (hr : S512x2048.Reduces [1] S512) (hc : S512.ShapeCasts S512x1)
    (hb : S512x1.Broadcasts S512x2048) (r : Fin 512) (t : Fin 2048) :
    rowSoftmax X hr hc hb (ix2 r t)
      = Ideal.div (Ideal.exp (X (ix2 r t) - rowMaxOf X r)) (∑ t' : Fin 2048, Ideal.exp (X (ix2 r t') - rowMaxOf X r)) := by
  unfold rowSoftmax
  rw [divf_apply, expDiff_apply, LibColumn.broadcastTo_a1_ab_apply, LibColumn.shapeCast_a_a1_apply, rowSum_apply]
  exact congrArg (Ideal.div _) (Finset.sum_congr rfl fun t' _ => expDiff_apply X hr hc hb r t')

/-! ## The scores -/

/-- The scaled scores as the kernel forms them: the query block times the scale, against the key block transposed. -/
def scoresMat (q : Vec Ideal S1x512x64 .bf16) (k : Vec Ideal S1x2048x64 .bf16) (hq : S1x512x64.ShapeCasts S512x64)
    (hk : S1x2048x64.ShapeCasts S2048x64) (ht : S2048x64.Transposes [1, 0] S64x2048) : FVec Ideal S512x2048 .f32 :=
  matmul (φ₁ := .bf16) (φ₂ := .bf16) dot_S512x64_S64x2048_S512x2048_1_0_0_1_n_n none
    (mulf (shapeCast S512x64 q hq) (broadcast S512x64 (Scalar.ofBits (F := Ideal) .bf16 0x3D00#16)))
    (transpose S64x2048 [1, 0] (shapeCast S2048x64 k hk) ht)
    (constant (F := Ideal) S512x2048 .f32 0x00000000#32)

/-- The scores at `(r, t)`. -/
theorem scoresMat_apply (q : Vec Ideal S1x512x64 .bf16) (k : Vec Ideal S1x2048x64 .bf16) (hq : S1x512x64.ShapeCasts S512x64)
    (hk : S1x2048x64.ShapeCasts S2048x64) (ht : S2048x64.Transposes [1, 0] S64x2048) (r : Fin 512) (t : Fin 2048) :
    scoresMat q k hq hk ht (ix2 r t) = sc q k r t := by
  unfold scoresMat sc
  refine (Cert.Lib.Dense.dense_matmul_apply dot_S512x64_S64x2048_S512x2048_1_0_0_1_n_n_wf none _ _ r t).trans ?_
  refine Finset.sum_congr rfl fun d _ => ?_
  rw [mulf_apply, shapeCast_1ab_ab_apply, broadcast_apply, transpose_ix2_apply, shapeCast_1ab_ab_apply]
  rfl

/-- The weights payload is the row softmax of the scores. -/
theorem k1_pay4_eq (q : Vec Ideal S1x512x64 .bf16) (k : Vec Ideal S1x2048x64 .bf16) :
    k1_pay4 q k = rowSoftmax (scoresMat q k shapeCasts_S1x512x64_S512x64 shapeCasts_S1x2048x64_S2048x64
      transposes_S2048x64_p1_0_S64x2048) reduces_S512x2048_S512 shapeCasts_S512_S512x1 broadcasts_S512x1_S512x2048 := rfl

theorem rowMaxOf_scoresMat (q : Vec Ideal S1x512x64 .bf16) (k : Vec Ideal S1x2048x64 .bf16) (hq : S1x512x64.ShapeCasts S512x64)
    (hk : S1x2048x64.ShapeCasts S2048x64) (ht : S2048x64.Transposes [1, 0] S64x2048) (r : Fin 512) :
    rowMaxOf (scoresMat q k hq hk ht) r = mx q k r := by
  unfold rowMaxOf mx
  exact congrArg (Finset.univ.fold max _) (funext fun t => scoresMat_apply q k hq hk ht r t)

/-- The attention weights of block row `r` against key row `t`. -/
theorem pay_p (q : Vec Ideal S1x512x64 .bf16) (k : Vec Ideal S1x2048x64 .bf16) (r : Fin 512) (t : Fin 2048) :
    k1_pay4 q k (ix2 r t)
      = Ideal.div (Ideal.exp (sc q k r t - mx q k r)) (∑ t' : Fin 2048, Ideal.exp (sc q k r t' - mx q k r)) := by
  rw [k1_pay4_eq, rowSoftmax_apply, rowMaxOf_scoresMat, scoresMat_apply]
  exact congrArg (Ideal.div _) (Finset.sum_congr rfl fun t' _ => by rw [scoresMat_apply])

/-- The stored weights block: the same, under a leading unit axis. -/
theorem pay_attn (q : Vec Ideal S1x512x64 .bf16) (k : Vec Ideal S1x2048x64 .bf16) (r : Fin 512) (t : Fin 2048) :
    k1_pay5 q k (ix3 0 r t) = k1_pay4 q k (ix2 r t) := by
  unfold k1_pay5
  exact shapeCast_ab_1ab_apply _ _ 0 r t

end Cert.Mha.Pay

end
-- ==== Proof.PayloadContrib.lean ====
/-
  One head's share of the output projection, as the attention kernel forms it, read at an element on the extended reals.

  The weights block p[r,t] (the weights payload) multiplies the head's value block v[t,d] on the matrix unit, and the
  result multiplies the head's 64 rows of the output weights w[d,j]: the share at (r, j) is
  Σ_d (Σ_t p[r,t]·v[t,d])·w[d,j]. The narrowings to bf16 in between are the identity on the extended reals.
-/
import proofs.«112914_j24472723653394_2_alg».proof.Proof.Gen.KernelIdeal.Skeleton
import proofs.«112914_j24472723653394_2_alg».proof.Proof.LibDense
import Idealize.ShloMosaic.Lib.ValueIdx
import Idealize.ShloMosaic.Lib.Pipeline.Value
import Idealize.ShloMosaic.Lib.ValueLayout
import Idealize.ShloMosaic.PureOps.Ideal.Laws

noncomputable section

namespace Cert.Mha.Pay

open Cert.KernelIdeal Cert.KernelIdeal.Gen Idealize.ShloMosaic Idealize.ShloMosaic.ValueIdx

/-- The head's share of the output projection at block row `r`, feature `j`. -/
theorem pay_contrib (q : Vec Ideal S1x512x64 .bf16) (k v : Vec Ideal S1x2048x64 .bf16) (w : Vec Ideal S64x1024 .bf16)
    (r : Fin 512) (j : Fin 1024) :
    k1_pay6 q k v w (ix2 r j)
      = ∑ d : Fin 64, (∑ t : Fin 2048, k1_pay4 q k (ix2 r t) * v (ix3 0 t d)) * w (ix2 d j) := by
  unfold k1_pay6
  refine (Cert.Lib.Dense.dense_matmul_apply dot_S512x64_S64x1024_S512x1024_1_0_0_1_n_n_wf none _ _ r j).trans ?_
  refine Finset.sum_congr rfl fun d _ => ?_
  rw [truncf_apply, shapeCast_self]
  refine congrArg (· * w (ix2 d j)) ?_
  refine (Cert.Lib.Dense.dense_matmul_apply dot_S512x2048_S2048x64_S512x64_1_0_0_1_n_n_wf none _ _ r d).trans ?_
  refine Finset.sum_congr rfl fun t _ => ?_
  rw [truncf_apply, shapeCast_1ab_ab_apply]

end Cert.Mha.Pay

end
-- ==== Proof.PayloadSpec.lean ====
/-
  The attention kernel's payloads in the specification's terms.

  When the loaded blocks are what the specification names — the query block the rows s0 … s0+511 of head h's lanes of Q,
  the key and value blocks head h's lanes of K and V, the weight block head h's 64 columns of the output weights,
  transposed — the weights payload is the specification's attention weights, and the head's share of the output
  projection is the specification's. Adding the sixteen heads' shares one after another from zero gives their sum.
-/
import proofs.«112914_j24472723653394_2_alg».proof.Proof.MhaSpec
import proofs.«112914_j24472723653394_2_alg».proof.Proof.PayloadAcc
import proofs.«112914_j24472723653394_2_alg».proof.Proof.PayloadScores
import proofs.«112914_j24472723653394_2_alg».proof.Proof.PayloadContrib

noncomputable section

namespace Cert.Mha.Pay

open Cert.KernelIdeal Cert.KernelIdeal.Gen Idealize.ShloMosaic Idealize.ShloMosaic.ValueIdx

/-- Row `r` of the block of 512 rows that starts at row `s0`. -/
def row (s0 : Nat) (hs0 : s0 + 512 ≤ 2048) (r : Fin 512) : Fin 2048 := ⟨s0 + r.val, by omega⟩

theorem row_val (s0 : Nat) (hs0 : s0 + 512 ≤ 2048) (r : Fin 512) : (row s0 hs0 r).val = s0 + r.val := rfl

section Blocks

variable (A : Cert.Mha.Args) (h : Fin 16) (s0 : Nat) (hs0 : s0 + 512 ≤ 2048)
  (q : Vec Ideal S1x512x64 .bf16) (k : Vec Ideal S1x2048x64 .bf16)
  (hq : ∀ (r : Fin 512) (d : Fin 64), q (ix3 0 r d) = Cert.Mha.Q A (row s0 hs0 r) (Cert.Mha.feat h d))
  (hk : ∀ (t : Fin 2048) (d : Fin 64), k (ix3 0 t d) = Cert.Mha.K A t (Cert.Mha.feat h d))

include hq hk

/-- The block's scaled scores are the specification's. -/
theorem sc_eq_score (r : Fin 512) (t : Fin 2048) : sc q k r t = Cert.Mha.score A h (row s0 hs0 r) t := by
  unfold sc Cert.Mha.score
  exact Finset.sum_congr rfl fun d _ => by rw [hq, hk]

/-- The block's row maxima are the specification's. -/
theorem mx_eq_rowMax (r : Fin 512) : mx q k r = Cert.Mha.rowMax A h (row s0 hs0 r) := by
  unfold mx Cert.Mha.rowMax
  exact congrArg (Finset.univ.fold max _) (funext fun t => sc_eq_score A h s0 hs0 q k hq hk r t)

/-- The weights payload at `(r, t)` is the specification's attention weight of row `s0 + r` against row `t` in head `h`. -/
theorem attn_block (r : Fin 512) (t : Fin 2048) : k1_pay4 q k (ix2 r t) = Cert.Mha.attn A h (row s0 hs0 r) t := by
  rw [pay_p, mx_eq_rowMax A h s0 hs0 q k hq hk r, sc_eq_score A h s0 hs0 q k hq hk r t]
  unfold Cert.Mha.attn Cert.Mha.denom Cert.Mha.expo
  exact congrArg (Ideal.div _) (Finset.sum_congr rfl fun t' _ => by rw [sc_eq_score A h s0 hs0 q k hq hk r t'])

/-- The stored weights block likewise. -/
theorem attn_block_stored (r : Fin 512) (t : Fin 2048) :
    k1_pay5 q k (ix3 0 r t) = Cert.Mha.attn A h (row s0 hs0 r) t :=
  (pay_attn q k r t).trans (attn_block A h s0 hs0 q k hq hk r t)

/-- The head's share of the output projection at `(r, j)` is the specification's at row `s0 + r`. -/
theorem contrib_block (v : Vec Ideal S1x2048x64 .bf16) (w : Vec Ideal S64x1024 .bf16)
    (hv : ∀ (t : Fin 2048) (d : Fin 64), v (ix3 0 t d) = Cert.Mha.V A t (Cert.Mha.feat h d))
    (hw : ∀ (d : Fin 64) (j : Fin 1024), w (ix2 d j) = A.Wo (ix2 j (Cert.Mha.feat h d)))
    (r : Fin 512) (j : Fin 1024) : k1_pay6 q k v w (ix2 r j) = Cert.Mha.contrib A h (row s0 hs0 r) j := by
  rw [pay_contrib]
  unfold Cert.Mha.contrib Cert.Mha.ctx
  refine Finset.sum_congr rfl fun d _ => ?_
  rw [hw]
  refine congrArg (· * A.Wo (ix2 j (Cert.Mha.feat h d))) ?_
  exact Finset.sum_congr rfl fun t _ => by rw [attn_block A h s0 hs0 q k hq hk r t, hv]

end Blocks

/-! ## The accumulation over the heads -/

/-- The accumulator after the steps `0, 1, …, n`: started from zero at step `0`, each step adds that step's share. -/
def accOf (c : ℕ → FVec Ideal S512x1024 .f32) : ℕ → S512x1024.Idx → EReal
  | 0 => k1_pay1 (c 0) (k1_pay3 (F := Ideal))
  | n + 1 => k1_pay1 (c (n + 1)) (accOf c n)

/-- After the steps `0 … n` the accumulator holds the sum of their shares. -/
theorem acc_fold (c : ℕ → FVec Ideal S512x1024 .f32) (n : ℕ) (i : S512x1024.Idx) :
    accOf c n i = ∑ h' ∈ Finset.range (n + 1), c h' i := by
  induction n with
  | zero =>
    show k1_pay1 (c 0) (k1_pay3 (F := Ideal)) i = _
    rw [pay_acc, pay_zero, zero_add, Finset.sum_range_one]
  | succ n ih =>
    show k1_pay1 (c (n + 1)) (accOf c n) i = _
    rw [pay_acc, ih]
    exact (Finset.sum_range_succ (fun h' => c h' i) (n + 1)).symm

/-- After all sixteen heads: the sum over the heads. -/
theorem acc_fold_heads (c : ℕ → FVec Ideal S512x1024 .f32) (i : S512x1024.Idx) :
    accOf c 15 i = ∑ h' : Fin 16, c h'.val i :=
  (acc_fold c 15 i).trans (Finset.sum_range (fun h' => c h' i))

end Cert.Mha.Pay

end
-- ==== Proof.PayloadQkv.lean ====
/-
  The projection kernel's three payloads read at an element, on the extended reals.

  One block of 512 rows of the input is multiplied by the three weight matrices laid side by side, [1024, 3072], and the
  three biases laid end to end are added: entry (r, c) of that product is Σ_e x[r,e]·w[e,c] + b[c]. Each of the three
  outputs takes 1024 consecutive columns of it (from column 0, 1024 or 2048), regroups them as 16 heads of 64 lanes and
  puts the head first: its entry (h, r, d) is the product's entry (r, o + 64·h + d).
-/
import proofs.«112914_j24472723653394_2_alg».proof.Proof.Gen.KernelIdeal.Skeleton
import proofs.«112914_j24472723653394_2_alg».proof.Proof.LibDense
import Idealize.ShloMosaic.Lib.ValueIdx
import Idealize.ShloMosaic.Lib.Pipeline.Value
import Idealize.ShloMosaic.Lib.ValueLayout
import Idealize.ShloMosaic.PureOps.Ideal.Laws

noncomputable section

namespace Cert.Mha.Pay

open Cert.KernelIdeal Cert.KernelIdeal.Gen Idealize.ShloMosaic Idealize.ShloMosaic.ValueIdx

/-- Lane `d` of head `h` among the three projections' 3072 columns, at column offset `o` ∈ {0, 1024, 2048}. -/
def col (o : Nat) (ho : o + 1024 ≤ 3072) (h : Fin 16) (d : Fin 64) : Fin 3072 := ⟨o + h.val * 64 + d.val, by omega⟩

theorem col_val (o : Nat) (ho : o + 1024 ≤ 3072) (h : Fin 16) (d : Fin 64) : (col o ho h d).val = o + h.val * 64 + d.val := rfl

/-! ## Two layout operations read at an element -/

/-- A matrix `[a, b·c]` whose columns are regrouped as `b` runs of `c` reads, at `(p, q, s)`, the matrix at column
`q·c + s` of row `p`. -/
theorem shapeCast_split_cols_apply {α : Type} {a b c bc : ℕ} (hbc : bc = b * c) (x : (⟨2, ![a, bc]⟩ : Shape).Idx → α)
    (hc : (⟨2, ![a, bc]⟩ : Shape).ShapeCasts ⟨3, ![a, b, c]⟩) (p : Fin a) (q : Fin b) (s : Fin c) (k : Fin bc)
    (hk : k.val = q.val * c + s.val) :
    shapeCast ⟨3, ![a, b, c]⟩ x hc (ix3 p q s) = x (ix2 p k) :=
  shapeCast_apply x hc _ _ (by
    rw [Shape.rowMajor_val_two, Shape.rowMajor_val_three]
    show p.val * bc + k.val = (p.val * b + q.val) * c + s.val
    rw [hk, hbc]
    ring)

/-- A rank-3 array with its first two axes exchanged reads, at `(q, p, s)`, the operand at `(p, q, s)`. -/
theorem transpose_102_apply {α : Type} {a b c : ℕ} (x : (⟨3, ![a, b, c]⟩ : Shape).Idx → α)
    (ht : (⟨3, ![a, b, c]⟩ : Shape).Transposes [1, 0, 2] ⟨3, ![b, a, c]⟩) (q : Fin b) (p : Fin a) (s : Fin c) :
    transpose ⟨3, ![b, a, c]⟩ [1, 0, 2] x ht (ix3 q p s) = x (ix3 p q s) :=
  transpose_apply _ x ht _ _ fun e => match e with | ⟨0, _⟩ => rfl | ⟨1, _⟩ => rfl | ⟨2, _⟩ => rfl

/-! ## The product with the bias -/

/-- The matrix unit's product of the input block with the three weight matrices, at `(r, c)`. -/
theorem matmul_qkv_apply (l : FVec Ideal S512x1024 .bf16) (w : FVec Ideal S1024x3072 .bf16) (r : Fin 512) (c : Fin 3072) :
    matmul dot_S512x1024_S1024x3072_S512x3072_1_0_0_1_n_n none l w (constant (F := Ideal) S512x3072 .f32 0x00000000#32) (ix2 r c)
      = ∑ e : Fin 1024, l (ix2 r e) * w (ix2 e c) :=
  Cert.Lib.Dense.dense_matmul_apply dot_S512x1024_S1024x3072_S512x3072_1_0_0_1_n_n_wf none l w r c

/-- The three projections before they are cut apart: `x·w + b` at `(r, c)`. -/
theorem pay_xwb (xb : Vec Ideal S512x1024 .bf16) (w : Vec Ideal S1024x3072 .bf16) (b : Vec Ideal S3072 .f32)
    (r : Fin 512) (c : Fin 3072) :
    k0_pay1 xb w b (ix2 r c) = (∑ e : Fin 1024, xb (ix2 r e) * w (ix2 e c)) + b (ix1 c) := by
  unfold k0_pay1
  rw [addf_apply, broadcastTo_1b_ab_apply, shapeCast_a_1a_apply, shapeCast_self, shapeCast_self, shapeCast_self]
  exact congrArg (· + b (ix1 c)) (matmul_qkv_apply xb w r c)

/-! ## One projection's share: a run of 1024 columns, by head -/

/-- The columns from `o` on, narrowed, regrouped by head and with the head put first, read at `(h, r, d)`: the matrix at
`(r, o + 64·h + d)`. -/
theorem heads_of_cols (o : Nat) (X : FVec Ideal S512x3072 .f32) (hs : S512x3072.Slices ![0, o] S512x1024)
    (hb : FTy.bits .bf16 < FTy.bits .f32) (hc : S512x1024.ShapeCasts S512x16x64)
    (ht : S512x16x64.Transposes [1, 0, 2] S16x512x64) (h : Fin 16) (r : Fin 512) (d : Fin 64) (c : Fin 3072)
    (hcv : c.val = o + h.val * 64 + d.val) :
    transpose S16x512x64 [1, 0, 2]
        (shapeCast S512x16x64 (truncf .bf16 (extractStridedSlice S512x1024 ![0, o] X hs) hb) hc) ht (ix3 h r d)
      = X (ix2 r c) := by
  refine (transpose_102_apply _ ht h r d).trans ?_
  refine (shapeCast_split_cols_apply (by norm_num) _ hc r h d ⟨h.val * 64 + d.val, by omega⟩ rfl).trans ?_
  rw [truncf_apply]
  exact slice2_axis1_apply o X hs r _ c (by rw [hcv]; show _ = o + (h.val * 64 + d.val); omega)

/-- The query projection at head `h`, row `r`, lane `d`. -/
theorem pay_q (xb : Vec Ideal S512x1024 .bf16) (w : Vec Ideal S1024x3072 .bf16) (b : Vec Ideal S3072 .f32)
    (h : Fin 16) (r : Fin 512) (d : Fin 64) :
    k0_pay2 xb w b (ix3 h r d)
      = (∑ e : Fin 1024, xb (ix2 r e) * w (ix2 e (col 0 (by omega) h d))) + b (ix1 (col 0 (by omega) h d)) := by
  unfold k0_pay2
  exact (heads_of_cols 0 _ _ _ _ _ h r d (col 0 (by omega) h d) rfl).trans (pay_xwb xb w b r _)

/-- The key projection at head `h`, row `r`, lane `d`. -/
theorem pay_k (xb : Vec Ideal S512x1024 .bf16) (w : Vec Ideal S1024x3072 .bf16) (b : Vec Ideal S3072 .f32)
    (h : Fin 16) (r : Fin 512) (d : Fin 64) :
    k0_pay3 xb w b (ix3 h r d)
      = (∑ e : Fin 1024, xb (ix2 r e) * w (ix2 e (col 1024 (by omega) h d))) + b (ix1 (col 1024 (by omega) h d)) := by
  unfold k0_pay3
  exact (heads_of_cols 1024 _ _ _ _ _ h r d (col 1024 (by omega) h d) rfl).trans (pay_xwb xb w b r _)

/-- The value projection at head `h`, row `r`, lane `d`. -/
theorem pay_v (xb : Vec Ideal S512x1024 .bf16) (w : Vec Ideal S1024x3072 .bf16) (b : Vec Ideal S3072 .f32)
    (h : Fin 16) (r : Fin 512) (d : Fin 64) :
    k0_pay4 xb w b (ix3 h r d)
      = (∑ e : Fin 1024, xb (ix2 r e) * w (ix2 e (col 2048 (by omega) h d))) + b (ix1 (col 2048 (by omega) h d)) := by
  unfold k0_pay4
  exact (heads_of_cols 2048 _ _ _ _ _ h r d (col 2048 (by omega) h d) rfl).trans (pay_xwb xb w b r _)

end Cert.Mha.Pay

end
-- ==== Proof.LibConcat3.lean ====
/-
  Three matrices laid side by side, read at an index.

  A concatenation of three arrays `[a, b]`, `[a, c]`, `[a, d]` along the last axis reads the first array where the
  column is below `b`, the second where it is from `b` to below `b + c`, and the third above that, each at the
  column counted from the start of its own block. General in the extents.
-/
import Idealize.ShloMosaic.Lib.Pipeline.Value
import Idealize.ShloMosaic.Lib.ValueIdx

noncomputable section

namespace Cert.Lib.Concat3

open Idealize.ShloMosaic Idealize.ShloMosaic.ValueIdx

variable {α : Type}

/-- Three matrices laid side by side read, at `(n, j)`, the first at `(n, j)` when `j < b`, the second at
    `(n, j - b)` when `b ≤ j < b + c`, and the third at `(n, j - (b + c))` otherwise. -/
theorem concatenate_cols3_apply {a b c d t : ℕ} (ht : t = b + c + d) (x : (⟨2, ![a, b]⟩ : Shape).Idx → α)
    (y : (⟨2, ![a, c]⟩ : Shape).Idx → α) (z : (⟨2, ![a, d]⟩ : Shape).Idx → α)
    (h : Shape.Concatenates [⟨2, ![a, b]⟩, ⟨2, ![a, c]⟩, ⟨2, ![a, d]⟩] ⟨2, ![a, t]⟩ 1) (n : Fin a) (j : Fin t) :
    concatenate ⟨2, ![a, t]⟩ 1 [⟨⟨2, ![a, b]⟩, x⟩, ⟨⟨2, ![a, c]⟩, y⟩, ⟨⟨2, ![a, d]⟩, z⟩] h (ix2 n j)
      = if h1 : j.val < b then x (ix2 n ⟨j.val, h1⟩)
        else if h2 : j.val < b + c then y (ix2 n ⟨j.val - b, by omega⟩)
        else z (ix2 n ⟨j.val - (b + c), by have := j.isLt; omega⟩) := by
  by_cases h1 : j.val < b
  · rw [dif_pos h1]
    refine concatenate_apply_piece (t := ⟨2, ![a, t]⟩) (1 : Fin 2) [⟨⟨2, ![a, b]⟩, x⟩, ⟨⟨2, ![a, c]⟩, y⟩, ⟨⟨2, ![a, d]⟩, z⟩] h (ix2 n j) 0
      (by show (0 : ℕ) < 3; omega) ⟨2, ![a, b]⟩ x rfl rfl 0 rfl
      (ix2 n ⟨j.val, h1⟩) (fun ax hax => ?_) ?_
    · match ax with
      | ⟨0, _⟩ => rfl
      | ⟨1, _⟩ => exact absurd rfl hax
    · show 0 + j.val = j.val
      omega
  · rw [dif_neg h1]
    by_cases h2 : j.val < b + c
    · rw [dif_pos h2]
      refine concatenate_apply_piece (t := ⟨2, ![a, t]⟩) (1 : Fin 2) [⟨⟨2, ![a, b]⟩, x⟩, ⟨⟨2, ![a, c]⟩, y⟩, ⟨⟨2, ![a, d]⟩, z⟩] h (ix2 n j) 1
        (by show (1 : ℕ) < 3; omega) ⟨2, ![a, c]⟩ y rfl rfl b ?_
        (ix2 n ⟨j.val - b, by omega⟩) (fun ax hax => ?_) ?_
      · show b + 0 = b
        rfl
      · match ax with
        | ⟨0, _⟩ => rfl
        | ⟨1, _⟩ => exact absurd rfl hax
      · show b + (j.val - b) = j.val
        omega
    · rw [dif_neg h2]
      refine concatenate_apply_piece (t := ⟨2, ![a, t]⟩) (1 : Fin 2) [⟨⟨2, ![a, b]⟩, x⟩, ⟨⟨2, ![a, c]⟩, y⟩, ⟨⟨2, ![a, d]⟩, z⟩] h (ix2 n j) 2
        (by show (2 : ℕ) < 3; omega) ⟨2, ![a, d]⟩ z rfl rfl (b + c) ?_
        (ix2 n ⟨j.val - (b + c), by have := j.isLt; omega⟩) (fun ax hax => ?_) ?_
      · show b + (c + 0) = b + c
        rfl
      · match ax with
        | ⟨0, _⟩ => rfl
        | ⟨1, _⟩ => exact absurd rfl hax
      · show b + c + (j.val - (b + c)) = j.val
        omega

end Cert.Lib.Concat3

end
-- ==== Proof.LibHostLayout.lean ====
/-
  The host's re-layouts of the weights and biases, read at an element.

  Each weight matrix `W : [H, K]` reaches its kernel transposed, `[K, H]`, and narrowed to bf16 — the identity on extended
  reals —, so its entry `(k, j)` is `W (j, k)`. Each bias `b : [H]` reaches its kernel as a row `[1, H]`, whose entry
  `(0, j)` is `b j`.
-/
import Idealize.ShloMosaic.Lib.Pipeline.Value
import Idealize.ShloMosaic.Lib.ValueIdx
import Idealize.ShloMosaic.PureOps.Ideal

noncomputable section

namespace Cert.Lib.HostLayout

open Idealize.ShloMosaic Idealize.ShloMosaic.ValueIdx

/-- A matrix `[H, K]` transposed to `[K, H]` reads, at `(k, j)`, the entry `(j, k)`. -/
theorem transpose_apply₂ {α : Type} {H K : ℕ} (W : (⟨2, ![H, K]⟩ : Shape).Idx → α)
    (h : (⟨2, ![H, K]⟩ : Shape).Transposes [1, 0] ⟨2, ![K, H]⟩) (k : Fin K) (j : Fin H) :
    transpose ⟨2, ![K, H]⟩ [1, 0] W h (ix2 k j) = W (ix2 j k) :=
  transpose_apply [1, 0] W h (ix2 k j) (ix2 j k) (fun b => match b with
    | ⟨0, _⟩ => rfl
    | ⟨1, _⟩ => rfl)

/-- The transposed matrix narrowed to bf16 reads the same entry: the narrowing is the identity at the ideal instance. -/
theorem truncf_transpose_apply {H K : ℕ} (W : FVec Ideal ⟨2, ![H, K]⟩ .f32)
    (h : (⟨2, ![H, K]⟩ : Shape).Transposes [1, 0] ⟨2, ![K, H]⟩) (ht : FTy.bf16.bits < FTy.f32.bits) (k : Fin K) (j : Fin H) :
    truncf .bf16 (transpose ⟨2, ![K, H]⟩ [1, 0] W h) ht (ix2 k j) = W (ix2 j k) :=
  transpose_apply₂ W h k j

/-- A flat `[b]` array reshaped to a row `[1, b]` reads, at `(u, c)`, the flat entry `c`. -/
theorem shapeCast_row_apply {α : Type} {b : ℕ} (x : (⟨1, ![b]⟩ : Shape).Idx → α)
    (h : (⟨1, ![b]⟩ : Shape).ShapeCasts ⟨2, ![1, b]⟩) (u : Fin 1) (c : Fin b) :
    shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu, Nat.zero_mul, Nat.zero_add])

end Cert.Lib.HostLayout

end
-- ==== Proof.QkvHost.lean ====
/-
  The arrays the host prepares for the two kernels, read at an element on the extended reals.

  Before the projection kernel the host narrows x to bf16, transposes the three projection weights and lays them side
  by side as one [1024, 3072] matrix (narrowed to bf16), lays the three biases end to end as one [3072] row, and
  transposes and narrows the output weight. A narrowing is the identity on the extended reals, so:
    the narrowed x is x;
    column o + 64·h + d of the joined weights, for o = 0, 1024, 2048, is row 64·h + d of Wq, Wk, Wv;
    entry o + 64·h + d of the joined biases is entry 64·h + d of bq, bk, bv;
    the transposed output weight at (e, j) is Wo at (j, e), and the output bias is untouched.
-/
import proofs.«112914_j24472723653394_2_alg».proof.Proof.KI.Run
import proofs.«112914_j24472723653394_2_alg».proof.Proof.PayloadQkv
import proofs.«112914_j24472723653394_2_alg».proof.Proof.MhaSpec
import proofs.«112914_j24472723653394_2_alg».proof.Proof.LibConcat3
import proofs.«112914_j24472723653394_2_alg».proof.Proof.LibHostLayout
import Idealize.ShloMosaic.Lib.StableHlo.Run
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx Idealize.ShloMosaic.StableHlo
open Cert.KernelIdeal Cert.KernelIdeal.Gen Cert.KernelIdeal.Hand

variable (m : (ℓ : Loc nD τ sig) → Buf (Elt Ideal) ℓ)

/-- The nine argument arrays of core `c` at launch: x, Wq, bq, Wk, bk, Wv, bv, Wo, bo. -/
def argsOf (c : Dev nD) : Cert.Mha.Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8)⟩

/-! ## The single-operand results -/

/-- The narrowed input is the input. -/
theorem x_host (c : Dev nD) (s : Fin 2048) (e : Fin 1024) :
    (E1 m c main_v0 : S2048x1024.Idx → EReal) (ix2 s e) = (argsOf m c).x (ix2 s e) := by
  have h : (E1 m c main_v0 : S2048x1024.Idx → EReal)
      = truncf (F := Ideal) .bf16 (m ((c.tc : Thread nD τ).loc main_arg0)) bitsLt_bf16_f32 := by
    dsimp only [E1, B1, Gen.V1, Gen.hostOps0]
    after_results
  rw [h]
  rfl

/-- The output weight reaches the attention kernel transposed: the projection kernel does not touch it. -/
theorem WoT_eq (c : Dev nD) (e j : Fin 1024) :
    (E2 m c main_v8 : S1024x1024.Idx → EReal) (ix2 e j) = (argsOf m c).Wo (ix2 j e) := by
  have h2 : E2 m c main_v8 = E1 m c main_v8 := B2_of_ne m c main_v8 (by decide)
  have h : (E1 m c main_v8 : S1024x1024.Idx → EReal)
      = truncf (F := Ideal) .bf16 (transpose S1024x1024 [1, 0] (m ((c.tc : Thread nD τ).loc main_arg7)) transposes_S1024x1024_S1024x1024_1_0) bitsLt_bf16_f32 := by
    dsimp only [E1, B1, Gen.V1, Gen.hostOps0]
    after_results
  rw [h2, h]
  exact Cert.Lib.HostLayout.truncf_transpose_apply (H := 1024) (K := 1024) _ _ _ e j

/-- The output bias reaches the attention kernel as launched: no host operation and no array of the projection kernel
    is it. -/
theorem bo_eq (c : Dev nD) (j : Fin 1024) :
    (E2 m c main_arg8 : S1024.Idx → EReal) (ix1 j) = (argsOf m c).bo (ix1 j) := by
  have h2 : E2 m c main_arg8 = E1 m c main_arg8 := B2_of_ne m c main_arg8 (by decide)
  have h1 : E1 m c main_arg8 = m ((c.tc : Thread nD τ).loc main_arg8) := Gen.V1_of m c main_arg8 (by decide)
  rw [h2, h1]
  rfl

/-! ## The joined weights and the joined biases as terms of the arguments -/

/-- A three-operand operation's result, each operand's contents read at its own reference. -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- A buffer's contents after a stretch of one- and three-operand operations: each operation's result at its own result
    buffer is its function of its operands' contents, and at any other buffer what was there. -/
macro "host_results" : tactic =>
  `(tactic| (simp only [after_cons, after_nil]
             repeat (first
               | rw [unary_result] | rw [nary3_result]
               | (rw [unary_result_ne]; rotate_left; decide)
               | (rw [nary_result_ne]; rotate_left; decide))))

/-- The joined weight matrix: the three transposes side by side, narrowed. -/
theorem wcat_eq (c : Dev nD) : (E1 m c main_v5 : S1024x3072.Idx → EReal)
      = truncf (F := Ideal) .bf16 (concatenate S1024x3072 1
          [⟨S1024x1024, transpose S1024x1024 [1, 0] (m ((c.tc : Thread nD τ).loc main_arg1)) transposes_S1024x1024_S1024x1024_1_0⟩,
           ⟨S1024x1024, transpose S1024x1024 [1, 0] (m ((c.tc : Thread nD τ).loc main_arg3)) transposes_S1024x1024_S1024x1024_1_0⟩,
           ⟨S1024x1024, transpose S1024x1024 [1, 0] (m ((c.tc : Thread nD τ).loc main_arg5)) transposes_S1024x1024_S1024x1024_1_0⟩]
          concatenates_S1024x1024_S1024x1024_S1024x1024_S1024x3072_d1) bitsLt_bf16_f32 := by
  dsimp only [E1, B1, Gen.V1, Gen.hostOps0]
  host_results
  rfl

/-- The joined bias row: the three biases end to end. -/
theorem bcat_eq (c : Dev nD) : (E1 m c main_v6 : S3072.Idx → EReal)
      = concatenate S3072 0
          [⟨S1024, m ((c.tc : Thread nD τ).loc main_arg2)⟩,
           ⟨S1024, m ((c.tc : Thread nD τ).loc main_arg4)⟩,
           ⟨S1024, m ((c.tc : Thread nD τ).loc main_arg6)⟩]
          concatenates_S1024_S1024_S1024_S3072_d0 := by
  dsimp only [E1, B1, Gen.V1, Gen.hostOps0]
  host_results
  rfl

/-! ## Three rows laid end to end, read at an entry -/

/-- Three flat arrays `[b]`, `[c]`, `[d]` laid end to end read, at `j`, the first at `j` when `j < b`, the second at
    `j - b` when `b ≤ j < b + c`, and the third at `j - (b + c)` otherwise. -/
theorem concatenate_flat3_apply {α : Type} {b c d t : ℕ} (ht : t = b + c + d) (x : (⟨1, ![b]⟩ : Shape).Idx → α)
    (y : (⟨1, ![c]⟩ : Shape).Idx → α) (z : (⟨1, ![d]⟩ : Shape).Idx → α)
    (h : Shape.Concatenates [⟨1, ![b]⟩, ⟨1, ![c]⟩, ⟨1, ![d]⟩] ⟨1, ![t]⟩ 0) (j : Fin t) :
    concatenate ⟨1, ![t]⟩ 0 [⟨⟨1, ![b]⟩, x⟩, ⟨⟨1, ![c]⟩, y⟩, ⟨⟨1, ![d]⟩, z⟩] h (ix1 j)
      = if h1 : j.val < b then x (ix1 ⟨j.val, h1⟩)
        else if h2 : j.val < b + c then y (ix1 ⟨j.val - b, by omega⟩)
        else z (ix1 ⟨j.val - (b + c), by have := j.isLt; omega⟩) := by
  by_cases h1 : j.val < b
  · rw [dif_pos h1]
    refine concatenate_apply_piece (t := ⟨1, ![t]⟩) (0 : Fin 1) [⟨⟨1, ![b]⟩, x⟩, ⟨⟨1, ![c]⟩, y⟩, ⟨⟨1, ![d]⟩, z⟩] h (ix1 j) 0
      (by show (0 : ℕ) < 3; omega) ⟨1, ![b]⟩ x rfl rfl 0 rfl
      (ix1 ⟨j.val, h1⟩) (fun ax hax => ?_) ?_
    · match ax with
      | ⟨0, _⟩ => exact absurd rfl hax
    · show 0 + j.val = j.val
      omega
  · rw [dif_neg h1]
    by_cases h2 : j.val < b + c
    · rw [dif_pos h2]
      refine concatenate_apply_piece (t := ⟨1, ![t]⟩) (0 : Fin 1) [⟨⟨1, ![b]⟩, x⟩, ⟨⟨1, ![c]⟩, y⟩, ⟨⟨1, ![d]⟩, z⟩] h (ix1 j) 1
        (by show (1 : ℕ) < 3; omega) ⟨1, ![c]⟩ y rfl rfl b ?_
        (ix1 ⟨j.val - b, by omega⟩) (fun ax hax => ?_) ?_
      · show b + 0 = b
        rfl
      · match ax with
        | ⟨0, _⟩ => exact absurd rfl hax
      · show b + (j.val - b) = j.val
        omega
    · rw [dif_neg h2]
      refine concatenate_apply_piece (t := ⟨1, ![t]⟩) (0 : Fin 1) [⟨⟨1, ![b]⟩, x⟩, ⟨⟨1, ![c]⟩, y⟩, ⟨⟨1, ![d]⟩, z⟩] h (ix1 j) 2
        (by show (2 : ℕ) < 3; omega) ⟨1, ![d]⟩ z rfl rfl (b + c) ?_
        (ix1 ⟨j.val - (b + c), by have := j.isLt; omega⟩) (fun ax hax => ?_) ?_
      · show b + (c + 0) = b + c
        rfl
      · match ax with
        | ⟨0, _⟩ => exact absurd rfl hax
      · show b + c + (j.val - (b + c)) = j.val
        omega

/-! ## The joined weights at a head's lane -/

/-- Column `64·h + d` of the joined weights is row `64·h + d` of Wq. -/
theorem w_host_q (c : Dev nD) (e : Fin 1024) (h : Fin 16) (d : Fin 64) :
    (E1 m c main_v5 : S1024x3072.Idx → EReal) (ix2 e (Cert.Mha.Pay.col 0 (by omega) h d))
      = (argsOf m c).Wq (ix2 (Cert.Mha.feat h d) e) := by
  have hj : (Cert.Mha.Pay.col 0 (by omega) h d).val < 1024 := by
    show 0 + h.val * 64 + d.val < 1024; omega
  rw [wcat_eq, truncf_apply,
    Cert.Lib.Concat3.concatenate_cols3_apply (a := 1024) (b := 1024) (c := 1024) (d := 1024) (t := 3072) rfl, dif_pos hj,
    Cert.Lib.HostLayout.transpose_apply₂ (H := 1024) (K := 1024)]
  exact congrArg (fun j => (argsOf m c).Wq (ix2 j e))
    (Fin.ext (by show 0 + h.val * 64 + d.val = h.val * 64 + d.val; omega))

/-- Column `1024 + 64·h + d` of the joined weights is row `64·h + d` of Wk. -/
theorem w_host_k (c : Dev nD) (e : Fin 1024) (h : Fin 16) (d : Fin 64) :
    (E1 m c main_v5 : S1024x3072.Idx → EReal) (ix2 e (Cert.Mha.Pay.col 1024 (by omega) h d))
      = (argsOf m c).Wk (ix2 (Cert.Mha.feat h d) e) := by
  have hj1 : ¬ (Cert.Mha.Pay.col 1024 (by omega) h d).val < 1024 := by
    show ¬ 1024 + h.val * 64 + d.val < 1024; omega
  have hj2 : (Cert.Mha.Pay.col 1024 (by omega) h d).val < 1024 + 1024 := by
    show 1024 + h.val * 64 + d.val < 1024 + 1024; omega
  rw [wcat_eq, truncf_apply,
    Cert.Lib.Concat3.concatenate_cols3_apply (a := 1024) (b := 1024) (c := 1024) (d := 1024) (t := 3072) rfl, dif_neg hj1, dif_pos hj2,
    Cert.Lib.HostLayout.transpose_apply₂ (H := 1024) (K := 1024)]
  exact congrArg (fun j => (argsOf m c).Wk (ix2 j e))
    (Fin.ext (by show 1024 + h.val * 64 + d.val - 1024 = h.val * 64 + d.val; omega))

/-- Column `2048 + 64·h + d` of the joined weights is row `64·h + d` of Wv. -/
theorem w_host_v (c : Dev nD) (e : Fin 1024) (h : Fin 16) (d : Fin 64) :
    (E1 m c main_v5 : S1024x3072.Idx → EReal) (ix2 e (Cert.Mha.Pay.col 2048 (by omega) h d))
      = (argsOf m c).Wv (ix2 (Cert.Mha.feat h d) e) := by
  have hj1 : ¬ (Cert.Mha.Pay.col 2048 (by omega) h d).val < 1024 := by
    show ¬ 2048 + h.val * 64 + d.val < 1024; omega
  have hj2 : ¬ (Cert.Mha.Pay.col 2048 (by omega) h d).val < 1024 + 1024 := by
    show ¬ 2048 + h.val * 64 + d.val < 1024 + 1024; omega
  rw [wcat_eq, truncf_apply,
    Cert.Lib.Concat3.concatenate_cols3_apply (a := 1024) (b := 1024) (c := 1024) (d := 1024) (t := 3072) rfl, dif_neg hj1, dif_neg hj2,
    Cert.Lib.HostLayout.transpose_apply₂ (H := 1024) (K := 1024)]
  exact congrArg (fun j => (argsOf m c).Wv (ix2 j e))
    (Fin.ext (by show 2048 + h.val * 64 + d.val - (1024 + 1024) = h.val * 64 + d.val; omega))

/-! ## The joined biases at a head's lane -/

/-- Entry `64·h + d` of the joined biases is entry `64·h + d` of bq. -/
theorem b_host_q (c : Dev nD) (h : Fin 16) (d : Fin 64) :
    (E1 m c main_v6 : S3072.Idx → EReal) (ix1 (Cert.Mha.Pay.col 0 (by omega) h d))
      = (argsOf m c).bq (ix1 (Cert.Mha.feat h d)) := by
  have hj : (Cert.Mha.Pay.col 0 (by omega) h d).val < 1024 := by
    show 0 + h.val * 64 + d.val < 1024; omega
  rw [bcat_eq, concatenate_flat3_apply (b := 1024) (c := 1024) (d := 1024) (t := 3072) rfl, dif_pos hj]
  exact congrArg (fun j => (argsOf m c).bq (ix1 j))
    (Fin.ext (by show 0 + h.val * 64 + d.val = h.val * 64 + d.val; omega))

/-- Entry `1024 + 64·h + d` of the joined biases is entry `64·h + d` of bk. -/
theorem b_host_k (c : Dev nD) (h : Fin 16) (d : Fin 64) :
    (E1 m c main_v6 : S3072.Idx → EReal) (ix1 (Cert.Mha.Pay.col 1024 (by omega) h d))
      = (argsOf m c).bk (ix1 (Cert.Mha.feat h d)) := by
  have hj1 : ¬ (Cert.Mha.Pay.col 1024 (by omega) h d).val < 1024 := by
    show ¬ 1024 + h.val * 64 + d.val < 1024; omega
  have hj2 : (Cert.Mha.Pay.col 1024 (by omega) h d).val < 1024 + 1024 := by
    show 1024 + h.val * 64 + d.val < 1024 + 1024; omega
  rw [bcat_eq, concatenate_flat3_apply (b := 1024) (c := 1024) (d := 1024) (t := 3072) rfl, dif_neg hj1, dif_pos hj2]
  exact congrArg (fun j => (argsOf m c).bk (ix1 j))
    (Fin.ext (by show 1024 + h.val * 64 + d.val - 1024 = h.val * 64 + d.val; omega))

/-- Entry `2048 + 64·h + d` of the joined biases is entry `64·h + d` of bv. -/
theorem b_host_v (c : Dev nD) (h : Fin 16) (d : Fin 64) :
    (E1 m c main_v6 : S3072.Idx → EReal) (ix1 (Cert.Mha.Pay.col 2048 (by omega) h d))
      = (argsOf m c).bv (ix1 (Cert.Mha.feat h d)) := by
  have hj1 : ¬ (Cert.Mha.Pay.col 2048 (by omega) h d).val < 1024 := by
    show ¬ 2048 + h.val * 64 + d.val < 1024; omega
  have hj2 : ¬ (Cert.Mha.Pay.col 2048 (by omega) h d).val < 1024 + 1024 := by
    show ¬ 2048 + h.val * 64 + d.val < 1024 + 1024; omega
  rw [bcat_eq, concatenate_flat3_apply (b := 1024) (c := 1024) (d := 1024) (t := 3072) rfl, dif_neg hj1, dif_neg hj2]
  exact congrArg (fun j => (argsOf m c).bv (ix1 j))
    (Fin.ext (by show 2048 + h.val * 64 + d.val - (1024 + 1024) = h.val * 64 + d.val; omega))

end Cert.KernelIdeal.Val

end
-- ==== Proof.QkvArrays.lean ====
/-
  The projection kernel's three output arrays after its run, read at an element on the extended reals.

  The kernel's grid has 4 points; point t takes rows 512·t … 512·t + 511 of x, the whole joined weight matrix and the
  whole joined bias row, and writes back block (0, t, 0) of each head-major array [16, 2048, 64]: entry (h, r, d) of
  the block is Σ_e x[512·t + r, e]·w[e, o + 64·h + d] + b[o + 64·h + d] with o = 0, 1024, 2048 for the three outputs.
  With the host's arrays read back to the arguments this is the linear layer's entry at row 512·t + r and feature
  64·h + d; the four blocks tile the rows (row s lies in block s / 512), so each array is the layer, head-major.
-/
import proofs.«112914_j24472723653394_2_alg».proof.Proof.QkvHost

set_option maxRecDepth 16384

noncomputable section

namespace Cert.KernelIdeal.Val

open Idealize.ShloMosaic Idealize.ShloMosaic.TcCoe Idealize.ShloMosaic.ValueIdx
open Idealize.ShloMosaic.Pipeline (Dat)
open Cert.KernelIdeal Cert.KernelIdeal.Gen Cert.KernelIdeal.Hand

variable (m : (ℓ : Loc nD τ sig) → Buf (Elt Ideal) ℓ)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The block indices at point `t`: the input tile and the three output blocks move with `t` along the rows, the
    weights and the biases stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = t.val ∧ win0_3.index t (2 : Fin 3) = 0
    ∧ win0_4.index t (0 : Fin 3) = 0 ∧ win0_4.index t (1 : Fin 3) = t.val ∧ win0_4.index t (2 : Fin 3) = 0
    ∧ win0_5.index t (0 : Fin 3) = 0 ∧ win0_5.index t (1 : Fin 3) = t.val ∧ win0_5.index t (2 : Fin 3) = 0 :=
  (by decide +kernel : ∀ t : Fin grid0.N, _)

/-! ## The input blocks as parts of their arrays -/

section Blocks

variable (V : (c : Dev nD) → (b : Ref sig .tc) → Buf (Elt Ideal) ((c : Thread nD τ).loc b))

/-- Row `r` of the input tile at point `t` is row `512·t + r` of the array. -/
theorem xblk_apply (c : Dev nD) (t : Fin cfg0.N) (r : Fin 512) (e : Fin 1024) (s : Fin 2048) (hs : s.val = t.val * 512 + r.val) :
    (iblk0 V c 0 t : Vec Ideal S512x1024 .bf16) (ix2 r e) = (V c main_v0 : S2048x1024.Idx → EReal) (ix2 s e) := by
  obtain ⟨e0, e1, -⟩ := idx_facts0 t
  unfold iblk0
  rw [View.read_apply]
  show (V c main_v0 : S2048x1024.Idx → EReal) _ = _
  refine congrArg (V c main_v0 : S2048x1024.Idx → EReal) (funext fun a => Fin.ext ?_)
  match a with
  | ⟨0, _⟩ => show win0_0.index t (0 : Fin 2) * 512 + 1 * r.val = s.val; rw [e0, hs]; omega
  | ⟨1, _⟩ => show win0_0.index t (1 : Fin 2) * 1024 + 1 * e.val = e.val; rw [e1]; omega

/-- The weights' block is the whole array at every point. -/
theorem wblk_apply (c : Dev nD) (t : Fin cfg0.N) (e : Fin 1024) (j : Fin 3072) :
    (iblk0 V c 1 t : Vec Ideal S1024x3072 .bf16) (ix2 e j) = (V c main_v5 : S1024x3072.Idx → EReal) (ix2 e j) := by
  obtain ⟨-, -, e0, e1, -⟩ := idx_facts0 t
  unfold iblk0
  rw [View.read_apply]
  show (V c main_v5 : S1024x3072.Idx → EReal) _ = _
  refine congrArg (V c main_v5 : S1024x3072.Idx → EReal) (funext fun a => Fin.ext ?_)
  match a with
  | ⟨0, _⟩ => show win0_1.index t (0 : Fin 2) * 1024 + 1 * e.val = e.val; rw [e0]; omega
  | ⟨1, _⟩ => show win0_1.index t (1 : Fin 2) * 3072 + 1 * j.val = j.val; rw [e1]; omega

/-- The biases' block is the whole array at every point. -/
theorem bblk_apply (c : Dev nD) (t : Fin cfg0.N) (j : Fin 3072) :
    (iblk0 V c 2 t : Vec Ideal S3072 .f32) (ix1 j) = (V c main_v6 : S3072.Idx → EReal) (ix1 j) := by
  obtain ⟨-, -, -, -, e0, -⟩ := idx_facts0 t
  unfold iblk0
  rw [View.read_apply]
  show (V c main_v6 : S3072.Idx → EReal) _ = _
  refine congrArg (V c main_v6 : S3072.Idx → EReal) (funext fun a => Fin.ext ?_)
  match a with
  | ⟨0, _⟩ => show win0_2.index t (0 : Fin 1) * 3072 + 1 * j.val = j.val; rw [e0]; omega

end Blocks

/-! ## One entry of a block is one entry of a linear layer -/

/-- If the loaded tile's row `r` is row `s` of x, and the loaded weights and biases at head `h`, lane `d` are Wq's and
    bq's at feature `64·h + d`, the query payload at `(h, r, d)` is Q at row `s`, feature `64·h + d`. -/
theorem q_entry (A : Cert.Mha.Args) (xb : Vec Ideal S512x1024 .bf16) (w : Vec Ideal S1024x3072 .bf16) (b : Vec Ideal S3072 .f32)
    (s : Fin 2048) (h : Fin 16) (r : Fin 512) (d : Fin 64)
    (hx : ∀ e : Fin 1024, xb (ix2 r e) = A.x (ix2 s e))
    (hw : ∀ e : Fin 1024, w (ix2 e (Cert.Mha.Pay.col 0 (by omega) h d)) = A.Wq (ix2 (Cert.Mha.feat h d) e))
    (hb : b (ix1 (Cert.Mha.Pay.col 0 (by omega) h d)) = A.bq (ix1 (Cert.Mha.feat h d))) :
    k0_pay2 xb w b (ix3 h r d) = Cert.Mha.Q A s (Cert.Mha.feat h d) := by
  rw [Cert.Mha.Pay.pay_q, hb]
  unfold Cert.Mha.Q Cert.Mha.lin
  exact congrArg (· + A.bq (ix1 (Cert.Mha.feat h d))) (Finset.sum_congr rfl fun e _ => by rw [hx e, hw e])

/-- The same for the key payload. -/
theorem k_entry (A : Cert.Mha.Args) (xb : Vec Ideal S512x1024 .bf16) (w : Vec Ideal S1024x3072 .bf16) (b : Vec Ideal S3072 .f32)
    (s : Fin 2048) (h : Fin 16) (r : Fin 512) (d : Fin 64)
    (hx : ∀ e : Fin 1024, xb (ix2 r e) = A.x (ix2 s e))
    (hw : ∀ e : Fin 1024, w (ix2 e (Cert.Mha.Pay.col 1024 (by omega) h d)) = A.Wk (ix2 (Cert.Mha.feat h d) e))
    (hb : b (ix1 (Cert.Mha.Pay.col 1024 (by omega) h d)) = A.bk (ix1 (Cert.Mha.feat h d))) :
    k0_pay3 xb w b (ix3 h r d) = Cert.Mha.K A s (Cert.Mha.feat h d) := by
  rw [Cert.Mha.Pay.pay_k, hb]
  unfold Cert.Mha.K Cert.Mha.lin
  exact congrArg (· + A.bk (ix1 (Cert.Mha.feat h d))) (Finset.sum_congr rfl fun e _ => by rw [hx e, hw e])

/-- The same for the value payload. -/
theorem v_entry (A : Cert.Mha.Args) (xb : Vec Ideal S512x1024 .bf16) (w : Vec Ideal S1024x3072 .bf16) (b : Vec Ideal S3072 .f32)
    (s : Fin 2048) (h : Fin 16) (r : Fin 512) (d : Fin 64)
    (hx : ∀ e : Fin 1024, xb (ix2 r e) = A.x (ix2 s e))
    (hw : ∀ e : Fin 1024, w (ix2 e (Cert.Mha.Pay.col 2048 (by omega) h d)) = A.Wv (ix2 (Cert.Mha.feat h d) e))
    (hb : b (ix1 (Cert.Mha.Pay.col 2048 (by omega) h d)) = A.bv (ix1 (Cert.Mha.feat h d))) :
    k0_pay4 xb w b (ix3 h r d) = Cert.Mha.V A s (Cert.Mha.feat h d) := by
  rw [Cert.Mha.Pay.pay_v, hb]
  unfold Cert.Mha.V Cert.Mha.lin
  exact congrArg (· + A.bv (ix1 (Cert.Mha.feat h d))) (Finset.sum_congr rfl fun e _ => by rw [hx e, hw e])

/-! ## The three arrays as whole-array functions -/

/-- Q, K and V head-major: entry (h, s, d) is the layer at row `s`, feature `64·h + d`. -/
def GQ (A : Cert.Mha.Args) : S16x2048x64.Idx → EReal := fun i => Cert.Mha.Q A (i 1) (Cert.Mha.feat (i 0) (i 2))
def GK (A : Cert.Mha.Args) : S16x2048x64.Idx → EReal := fun i => Cert.Mha.K A (i 1) (Cert.Mha.feat (i 0) (i 2))
def GV (A : Cert.Mha.Args) : S16x2048x64.Idx → EReal := fun i => Cert.Mha.V A (i 1) (Cert.Mha.feat (i 0) (i 2))

theorem GQ_apply (A : Cert.Mha.Args) (h : Fin 16) (s : Fin 2048) (d : Fin 64) : GQ A (ix3 h s d) = Cert.Mha.Q A s (Cert.Mha.feat h d) := rfl
theorem GK_apply (A : Cert.Mha.Args) (h : Fin 16) (s : Fin 2048) (d : Fin 64) : GK A (ix3 h s d) = Cert.Mha.K A s (Cert.Mha.feat h d) := rfl
theorem GV_apply (A : Cert.Mha.Args) (h : Fin 16) (s : Fin 2048) (d : Fin 64) : GV A (ix3 h s d) = Cert.Mha.V A s (Cert.Mha.feat h d) := rfl

/-! ## What each point writes back -/

/-- Point `t` writes back block (0, t, 0) of Q head-major. -/
theorem flushedQ_eq (c : Dev nD) (t : Fin cfg0.N) :
    (dat0 (E1 m) c).flushed 3 t = ((cfg0.win 3).blk t).view.read (Elt Ideal) (GQ (argsOf m c)) := by
  show (cfg0.win 3).cut (grid0.coords t) ((dat0 (E1 m) c).after 3 t) = _
  rw [after0_3]
  unfold outQ
  rw [View.canon_unit_zero hz3]
  simp only [View.ld_unit_zero (S := S512x1024) hz2, View.ld_unit_zero (S := S1024x3072) hz2, View.ld_unit_zero (S := S3072) hz1]
  obtain ⟨-, -, -, -, -, e0, e1, e2, -⟩ := idx_facts0 t
  funext j
  obtain ⟨h, r, d, rfl⟩ : ∃ (h : Fin 16) (r : Fin 512) (d : Fin 64), j = ix3 h r d := ⟨j 0, j 1, j 2, eq_ix3 j⟩
  have hs : t.val * 512 + r.val < 2048 := by have := t.isLt; have hN : cfg0.N = 4 := N_0; omega
  show k0_pay2 (iblk0 (E1 m) c 0 t) (iblk0 (E1 m) c 1 t) (iblk0 (E1 m) c 2 t) (ix3 h r d)
    = GQ (argsOf m c) (((cfg0.win 3).blk t).view.emb (ix3 h r d))
  have hemb : ((cfg0.win 3).blk t).view.emb (ix3 h r d) = ix3 h ⟨t.val * 512 + r.val, hs⟩ d := by
    funext a; apply Fin.ext
    match a with
    | ⟨0, _⟩ => show win0_3.index t (0 : Fin 3) * 16 + 1 * h.val = h.val; rw [e0]; omega
    | ⟨1, _⟩ => show win0_3.index t (1 : Fin 3) * 512 + 1 * r.val = t.val * 512 + r.val; rw [e1]; omega
    | ⟨2, _⟩ => show win0_3.index t (2 : Fin 3) * 64 + 1 * d.val = d.val; rw [e2]; omega
  rw [hemb, GQ_apply]
  exact q_entry (argsOf m c) (iblk0 (E1 m) c 0 t) (iblk0 (E1 m) c 1 t) (iblk0 (E1 m) c 2 t) ⟨t.val * 512 + r.val, hs⟩ h r d
    (fun e => (xblk_apply (E1 m) c t r e ⟨t.val * 512 + r.val, hs⟩ rfl).trans (x_host m c ⟨t.val * 512 + r.val, hs⟩ e))
    (fun e => (wblk_apply (E1 m) c t e (Cert.Mha.Pay.col 0 (by omega) h d)).trans (w_host_q m c e h d))
    ((bblk_apply (E1 m) c t (Cert.Mha.Pay.col 0 (by omega) h d)).trans (b_host_q m c h d))

/-- Point `t` writes back block (0, t, 0) of K head-major. -/
theorem flushedK_eq (c : Dev nD) (t : Fin cfg0.N) :
    (dat0 (E1 m) c).flushed 4 t = ((cfg0.win 4).blk t).view.read (Elt Ideal) (GK (argsOf m c)) := by
  show (cfg0.win 4).cut (grid0.coords t) ((dat0 (E1 m) c).after 4 t) = _
  rw [after0_4]
  unfold outK
  rw [View.canon_unit_zero hz3]
  simp only [View.ld_unit_zero (S := S512x1024) hz2, View.ld_unit_zero (S := S1024x3072) hz2, View.ld_unit_zero (S := S3072) hz1]
  obtain ⟨-, -, -, -, -, -, -, -, e0, e1, e2, -⟩ := idx_facts0 t
  funext j
  obtain ⟨h, r, d, rfl⟩ : ∃ (h : Fin 16) (r : Fin 512) (d : Fin 64), j = ix3 h r d := ⟨j 0, j 1, j 2, eq_ix3 j⟩
  have hs : t.val * 512 + r.val < 2048 := by have := t.isLt; have hN : cfg0.N = 4 := N_0; omega
  show k0_pay3 (iblk0 (E1 m) c 0 t) (iblk0 (E1 m) c 1 t) (iblk0 (E1 m) c 2 t) (ix3 h r d)
    = GK (argsOf m c) (((cfg0.win 4).blk t).view.emb (ix3 h r d))
  have hemb : ((cfg0.win 4).blk t).view.emb (ix3 h r d) = ix3 h ⟨t.val * 512 + r.val, hs⟩ d := by
    funext a; apply Fin.ext
    match a with
    | ⟨0, _⟩ => show win0_4.index t (0 : Fin 3) * 16 + 1 * h.val = h.val; rw [e0]; omega
    | ⟨1, _⟩ => show win0_4.index t (1 : Fin 3) * 512 + 1 * r.val = t.val * 512 + r.val; rw [e1]; omega
    | ⟨2, _⟩ => show win0_4.index t (2 : Fin 3) * 64 + 1 * d.val = d.val; rw [e2]; omega
  rw [hemb, GK_apply]
  exact k_entry (argsOf m c) (iblk0 (E1 m) c 0 t) (iblk0 (E1 m) c 1 t) (iblk0 (E1 m) c 2 t) ⟨t.val * 512 + r.val, hs⟩ h r d
    (fun e => (xblk_apply (E1 m) c t r e ⟨t.val * 512 + r.val, hs⟩ rfl).trans (x_host m c ⟨t.val * 512 + r.val, hs⟩ e))
    (fun e => (wblk_apply (E1 m) c t e (Cert.Mha.Pay.col 1024 (by omega) h d)).trans (w_host_k m c e h d))
    ((bblk_apply (E1 m) c t (Cert.Mha.Pay.col 1024 (by omega) h d)).trans (b_host_k m c h d))

/-- Point `t` writes back block (0, t, 0) of V head-major. -/
theorem flushedV_eq (c : Dev nD) (t : Fin cfg0.N) :
    (dat0 (E1 m) c).flushed 5 t = ((cfg0.win 5).blk t).view.read (Elt Ideal) (GV (argsOf m c)) := by
  show (cfg0.win 5).cut (grid0.coords t) ((dat0 (E1 m) c).after 5 t) = _
  rw [after0_5]
  unfold outV
  rw [View.canon_unit_zero hz3]
  simp only [View.ld_unit_zero (S := S512x1024) hz2, View.ld_unit_zero (S := S1024x3072) hz2, View.ld_unit_zero (S := S3072) hz1]
  obtain ⟨-, -, -, -, -, -, -, -, -, -, -, e0, e1, e2⟩ := idx_facts0 t
  funext j
  obtain ⟨h, r, d, rfl⟩ : ∃ (h : Fin 16) (r : Fin 512) (d : Fin 64), j = ix3 h r d := ⟨j 0, j 1, j 2, eq_ix3 j⟩
  have hs : t.val * 512 + r.val < 2048 := by have := t.isLt; have hN : cfg0.N = 4 := N_0; omega
  show k0_pay4 (iblk0 (E1 m) c 0 t) (iblk0 (E1 m) c 1 t) (iblk0 (E1 m) c 2 t) (ix3 h r d)
    = GV (argsOf m c) (((cfg0.win 5).blk t).view.emb (ix3 h r d))
  have hemb : ((cfg0.win 5).blk t).view.emb (ix3 h r d) = ix3 h ⟨t.val * 512 + r.val, hs⟩ d := by
    funext a; apply Fin.ext
    match a with
    | ⟨0, _⟩ => show win0_5.index t (0 : Fin 3) * 16 + 1 * h.val = h.val; rw [e0]; omega
    | ⟨1, _⟩ => show win0_5.index t (1 : Fin 3) * 512 + 1 * r.val = t.val * 512 + r.val; rw [e1]; omega
    | ⟨2, _⟩ => show win0_5.index t (2 : Fin 3) * 64 + 1 * d.val = d.val; rw [e2]; omega
  rw [hemb, GV_apply]
  exact v_entry (argsOf m c) (iblk0 (E1 m) c 0 t) (iblk0 (E1 m) c 1 t) (iblk0 (E1 m) c 2 t) ⟨t.val * 512 + r.val, hs⟩ h r d
    (fun e => (xblk_apply (E1 m) c t r e ⟨t.val * 512 + r.val, hs⟩ rfl).trans (x_host m c ⟨t.val * 512 + r.val, hs⟩ e))
    (fun e => (wblk_apply (E1 m) c t e (Cert.Mha.Pay.col 2048 (by omega) h d)).trans (w_host_v m c e h d))
    ((bblk_apply (E1 m) c t (Cert.Mha.Pay.col 2048 (by omega) h d)).trans (b_host_v m c h d))

/-! ## The blocks tile the arrays -/

/-- An entry of the array lies in point `t`'s block iff each coordinate lies in the block's range on its axis. -/
theorem mem_blkQ (t : Fin cfg0.N) (i : S16x2048x64.Idx) :
    i ∈ ((cfg0.win 3).blk t).view.set ↔ ∀ a : Fin 3, win0_3.index t a * S16x512x64.size a ≤ (i a).val
      ∧ (i a).val < win0_3.index t a * S16x512x64.size a + S16x512x64.size a := by
  show i ∈ ((View.whole main_v9_0).slice (win0_3.rect t)).set ↔ _
  rw [View.set_slice_whole, Rect.mem_set_unit]
  exact Iff.rfl

/-- Row `s` of the array lies in the block of point `s / 512`, which is written back. -/
theorem coverQ (i : S16x2048x64.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  have hN : cfg0.N = 4 := N_0
  have hlt : (i 1).val / 512 < cfg0.N := by rw [hN]; omega
  obtain ⟨-, -, -, -, -, e0, e1, e2, -⟩ := idx_facts0 ⟨(i 1).val / 512, hlt⟩
  have e1' : win0_3.index ⟨(i 1).val / 512, hlt⟩ (1 : Fin 3) = (i 1).val / 512 := e1
  refine ⟨⟨(i 1).val / 512, hlt⟩, flush0_3 _, ?_⟩
  rw [mem_blkQ]
  intro a
  match a with
  | ⟨0, _⟩ =>
    show win0_3.index ⟨(i 1).val / 512, hlt⟩ (0 : Fin 3) * 16 ≤ (i 0).val
      ∧ (i 0).val < win0_3.index ⟨(i 1).val / 512, hlt⟩ (0 : Fin 3) * 16 + 16
    rw [e0]; omega
  | ⟨1, _⟩ =>
    show win0_3.index ⟨(i 1).val / 512, hlt⟩ (1 : Fin 3) * 512 ≤ (i 1).val
      ∧ (i 1).val < win0_3.index ⟨(i 1).val / 512, hlt⟩ (1 : Fin 3) * 512 + 512
    rw [e1']; omega
  | ⟨2, _⟩ =>
    show win0_3.index ⟨(i 1).val / 512, hlt⟩ (2 : Fin 3) * 64 ≤ (i 2).val
      ∧ (i 2).val < win0_3.index ⟨(i 1).val / 512, hlt⟩ (2 : Fin 3) * 64 + 64
    rw [e2]; omega

/-- The array after the run is Q head-major. -/
theorem finalQ (c : Dev nD) : (dat0 (E1 m) c).arrAt 3 cfg0.N = GQ (argsOf m c) :=
  (dat0 (E1 m) c).arrAt_eq_of_cover 3 (GQ (argsOf m c)) (fun t _ => flushedQ_eq m c t) coverQ

/-- The Q array the attention kernel reads, at head `h`, row `s`, lane `d`. -/
theorem Qh_eq (c : Dev nD) (h : Fin 16) (s : Fin 2048) (d : Fin 64) :
    (E2 m c main_v9_0 : S16x2048x64.Idx → EReal) (ix3 h s d) = Cert.Mha.Q (argsOf m c) s (Cert.Mha.feat h d) :=
  congrFun ((B2_arr m c 3).trans (finalQ m c)) (ix3 h s d)

/-- An entry of the array lies in point `t`'s block iff each coordinate lies in the block's range on its axis. -/
theorem mem_blkK (t : Fin cfg0.N) (i : S16x2048x64.Idx) :
    i ∈ ((cfg0.win 4).blk t).view.set ↔ ∀ a : Fin 3, win0_4.index t a * S16x512x64.size a ≤ (i a).val
      ∧ (i a).val < win0_4.index t a * S16x512x64.size a + S16x512x64.size a := by
  show i ∈ ((View.whole main_v9_1).slice (win0_4.rect t)).set ↔ _
  rw [View.set_slice_whole, Rect.mem_set_unit]
  exact Iff.rfl

/-- Row `s` of the array lies in the block of point `s / 512`, which is written back. -/
theorem coverK (i : S16x2048x64.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 64 := (i 2).isLt
  have hN : cfg0.N = 4 := N_0
  have hlt : (i 1).val / 512 < cfg0.N := by rw [hN]; omega
  obtain ⟨-, -, -, -, -, -, -, -, e0, e1, e2, -⟩ := idx_facts0 ⟨(i 1).val / 512, hlt⟩
  have e1' : win0_4.index ⟨(i 1).val / 512, hlt⟩ (1 : Fin 3) = (i 1).val / 512 := e1
  refine ⟨⟨(i 1).val / 512, hlt⟩, flush0_4 _, ?_⟩
  rw [mem_blkK]
  intro a
  match a with
  | ⟨0, _⟩ =>
    show win0_4.index ⟨(i 1).val / 512, hlt⟩ (0 : Fin 3) * 16 ≤ (i 0).val
      ∧ (i 0).val < win0_4.index ⟨(i 1).val / 512, hlt⟩ (0 : Fin 3) * 16 + 16
    rw [e0]; omega
  | ⟨1, _⟩ =>
    show win0_4.index ⟨(i 1).val / 512, hlt⟩ (1 : Fin 3) * 512 ≤ (i 1).val
      ∧ (i 1).val < win0_4.index ⟨(i 1).val / 512, hlt⟩ (1 : Fin 3) * 512 + 512
    rw [e1']; omega
  | ⟨2, _⟩ =>
    show win0_4.index ⟨(i 1).val / 512, hlt⟩ (2 : Fin 3) * 64 ≤ (i 2).val
      ∧ (i 2).val < win0_4.index ⟨(i 1).val / 512, hlt⟩ (2 : Fin 3) * 64 + 64
    rw [e2]; omega

/-- The array after the run is K head-major. -/
theorem finalK (c : Dev nD) : (dat0 (E1 m) c).arrAt 4 cfg0.N = GK (argsOf m c) :=
  (dat0 (E1 m) c).arrAt_eq_of_cover 4 (GK (argsOf m c)) (fun t _ => flushedK_eq m c t) coverK

/-- The K array the attention kernel reads, at head `h`, row `s`, lane `d`. -/
theorem Kh_eq (c : Dev nD) (h : Fin 16) (s : Fin 2048) (d : Fin 64) :
    (E2 m c main_v9_1 : S16x2048x64.Idx → EReal) (ix3 h s d) = Cert.Mha.K (argsOf m c) s (Cert.Mha.feat h d) :=
  congrFun ((B2_arr m c 4).trans (finalK m c)) (ix3 h s d)

/-- An entry of the array lies in point `t`'s block iff each coordinate lies in the block's range on its axis. -/
theorem mem_blkV (t : Fin cfg0.N) (i : S16x2048x64.Idx) :
    i ∈ ((cfg0.win 5).blk t).view.set ↔ ∀ a : Fin 3, win0_5.index t a * S16x512x64.size a ≤ (i a).val
      ∧ (i a).val < win0_5.index t a * S16x512x64.size a + S16x512x64.size a := by
  show i ∈ ((View.whole main_v9_2).slice (win0_5.rect t)).set ↔ _
  rw [View.set_slice_whole, Rect.mem_set_unit]
  exact Iff.rfl

/-- Row `s` of the array lies in the block of point `s / 512`, which is written back. -/
theorem coverV (i : S16x2048x64.Idx) :
    ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 64 := (i 2).isLt
  have hN : cfg0.N = 4 := N_0
  have hlt : (i 1).val / 512 < cfg0.N := by rw [hN]; omega
  obtain ⟨-, -, -, -, -, -, -, -, -, -, -, e0, e1, e2⟩ := idx_facts0 ⟨(i 1).val / 512, hlt⟩
  have e1' : win0_5.index ⟨(i 1).val / 512, hlt⟩ (1 : Fin 3) = (i 1).val / 512 := e1
  refine ⟨⟨(i 1).val / 512, hlt⟩, flush0_5 _, ?_⟩
  rw [mem_blkV]
  intro a
  match a with
  | ⟨0, _⟩ =>
    show win0_5.index ⟨(i 1).val / 512, hlt⟩ (0 : Fin 3) * 16 ≤ (i 0).val
      ∧ (i 0).val < win0_5.index ⟨(i 1).val / 512, hlt⟩ (0 : Fin 3) * 16 + 16
    rw [e0]; omega
  | ⟨1, _⟩ =>
    show win0_5.index ⟨(i 1).val / 512, hlt⟩ (1 : Fin 3) * 512 ≤ (i 1).val
      ∧ (i 1).val < win0_5.index ⟨(i 1).val / 512, hlt⟩ (1 : Fin 3) * 512 + 512
    rw [e1']; omega
  | ⟨2, _⟩ =>
    show win0_5.index ⟨(i 1).val / 512, hlt⟩ (2 : Fin 3) * 64 ≤ (i 2).val
      ∧ (i 2).val < win0_5.index ⟨(i 1).val / 512, hlt⟩ (2 : Fin 3) * 64 + 64
    rw [e2]; omega

/-- The array after the run is V head-major. -/
theorem finalV (c : Dev nD) : (dat0 (E1 m) c).arrAt 5 cfg0.N = GV (argsOf m c) :=
  (dat0 (E1 m) c).arrAt_eq_of_cover 5 (GV (argsOf m c)) (fun t _ => flushedV_eq m c t) coverV

/-- The V array the attention kernel reads, at head `h`, row `s`, lane `d`. -/
theorem Vh_eq (c : Dev nD) (h : Fin 16) (s : Fin 2048) (d : Fin 64) :
    (E2 m c main_v9_2 : S16x2048x64.Idx → EReal) (ix3 h s d) = Cert.Mha.V (argsOf m c) s (Cert.Mha.feat h d) :=
  congrFun ((B2_arr m c 5).trans (finalV m c)) (ix3 h s d)

end Cert.KernelIdeal.Val

end
-- ==== Proof.AttnArrays.lean ====
/-
  The two result arrays of the attention kernel at the ideal instance are the specification's.

  Grid point t works on head h = t mod 16 of the query tile whose first row is s0 = 512·(t / 16). Its query, key,
  value, output-weight and bias blocks are blocks of the arrays the projection kernel and the host stretch left,
  which hold the specification's Q, K, V, the transposed output weights and the output bias. So the block of
  attention weights it stores is attn h (s0 + r) u, and the contribution it adds to the accumulator is
  contrib h (s0 + r) j. Over a tile's 16 heads the accumulator, zeroed at the first, collects the sum over the
  heads; the last head stores that sum plus the bias. The stored blocks tile the two arrays.
-/
import proofs.«112914_j24472723653394_2_alg».proof.Proof.KI.Run
import proofs.«112914_j24472723653394_2_alg».proof.Proof.KI.Values
import proofs.«112914_j24472723653394_2_alg».proof.Proof.AttnCover
import proofs.«112914_j24472723653394_2_alg».proof.Proof.PayloadSpec
import proofs.«112914_j24472723653394_2_alg».proof.Proof.QkvArrays

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand
open Cert.Mha Cert.Mha.Pay

variable (m : (ℓ : Loc nD τ sig) → Buf (Elt Ideal) ℓ) (c : Dev nD)

/-! ## A grid point's head and tile -/

theorem N64 : cfg1.N = 64 := N_1

/-- The head a grid point works on, and the first row of its query tile. -/
def hd (t : Fin cfg1.N) : Fin 16 := ⟨t.val % 16, Nat.mod_lt _ (by decide)⟩
def base (t : Fin cfg1.N) : Nat := t.val / 16 * 512
theorem base_le (t : Fin cfg1.N) : base t + 512 ≤ 2048 := by
  have h : t.val < 64 := lt_of_lt_of_eq t.isLt N64
  unfold base; omega

/-! ## The blocks a point loads, in the specification's terms -/

theorem hq (t : Fin cfg1.N) (r : Fin 512) (d : Fin 64) :
    iblk1 (E2 m) c 0 t (ix3 (0 : Fin 1) r d) = Q (argsOf m c) (row (base t) (base_le t) r) (feat (hd t) d) :=
  (blkQ (E2 m) c t r d (hd t) (row (base t) (base_le t) r) rfl rfl).trans (Qh_eq m c (hd t) (row (base t) (base_le t) r) d)

theorem hk (t : Fin cfg1.N) (u : Fin 2048) (d : Fin 64) :
    iblk1 (E2 m) c 1 t (ix3 (0 : Fin 1) u d) = K (argsOf m c) u (feat (hd t) d) :=
  (blkK (E2 m) c t u d (hd t) rfl).trans (Kh_eq m c (hd t) u d)

theorem hv (t : Fin cfg1.N) (u : Fin 2048) (d : Fin 64) :
    iblk1 (E2 m) c 2 t (ix3 (0 : Fin 1) u d) = V (argsOf m c) u (feat (hd t) d) :=
  (blkV (E2 m) c t u d (hd t) rfl).trans (Vh_eq m c (hd t) u d)

theorem hw (t : Fin cfg1.N) (d : Fin 64) (j : Fin 1024) :
    iblk1 (E2 m) c 3 t (ix2 d j) = (argsOf m c).Wo (ix2 j (feat (hd t) d)) :=
  (blkW (E2 m) c t d j (feat (hd t) d) rfl).trans (WoT_eq m c (feat (hd t) d) j)

theorem hb (t : Fin cfg1.N) (j : Fin 1024) :
    iblk1 (E2 m) c 4 t (ix1 j) = (argsOf m c).bo (ix1 j) :=
  (blkB (E2 m) c t j).trans (bo_eq m c j)

/-! ## The attention weights -/

/-- What a point writes back into the weights array is its block of the specification's weights. -/
theorem flushedW (t : Fin cfg1.N) :
    (dat1 (E2 m) c).flushed 5 t = ((cfg1.win 5).blk t).view.read (Elt Ideal) (weights (argsOf m c)) := by
  show (cfg1.win 5).cut (grid1.coords t) ((dat1 (E2 m) c).after 5 t) = _
  rw [attn_after]
  funext j
  obtain ⟨z, r, u, rfl⟩ : ∃ (z : Fin 1) (r : Fin 512) (u : Fin 2048), j = ix3 z r u := ⟨j 0, j 1, j 2, eq_ix3 j⟩
  obtain rfl : z = 0 := Subsingleton.elim _ _
  show k1_pay5 (iblk1 (E2 m) c 0 t) (iblk1 (E2 m) c 1 t) (ix3 (0 : Fin 1) r u)
    = weights (argsOf m c) (((cfg1.win 5).blk t).view.emb (ix3 (0 : Fin 1) r u))
  rw [attn_block_stored (argsOf m c) (hd t) (base t) (base_le t) _ _ (hq m c t) (hk m c t) r u]
  have hemb : ((cfg1.win 5).blk t).view.emb (ix3 (0 : Fin 1) r u) = ix3 (hd t) (row (base t) (base_le t) r) u := by
    obtain ⟨-, -, -, -, -, -, -, -, -, -, -, -, e0, e1, e2, -⟩ := idx1 t
    funext a; apply Fin.ext
    match a with
    | ⟨0, _⟩ => show win1_5.index t (0 : Fin 3) * 1 + 1 * 0 = t.val % 16; omega
    | ⟨1, _⟩ => show win1_5.index t (1 : Fin 3) * 512 + 1 * r.val = t.val / 16 * 512 + r.val; omega
    | ⟨2, _⟩ => show win1_5.index t (2 : Fin 3) * 2048 + 1 * u.val = u.val; omega
  rw [hemb, weights_apply]

/-- The weights array after the run. -/
theorem finalW : (dat1 (E2 m) c).arrAt 5 cfg1.N = weights (argsOf m c) :=
  (dat1 (E2 m) c).arrAt_eq_of_cover 5 (weights (argsOf m c)) (fun t _ => flushedW m c t) coverW

/-! ## The accumulator over a tile's heads -/

theorem accAt_congr {F : FTy → Type} [FloatOps F] (W : (c : Dev nD) → (b : Ref sig .tc) → Buf (Elt F) ((c : Thread nD τ).loc b))
    (n n' : ℕ) (hn : n < cfg1.N) (hn' : n' < cfg1.N) (e : n = n') : accAt W c n hn = accAt W c n' hn' := by
  subst e; rfl

/-- What a point adds to the accumulator: its head's share of the output projection on its tile's rows. -/
theorem contrib_at (t : Fin cfg1.N) (r : Fin 512) (j : Fin 1024) :
    k1_pay6 (iblk1 (E2 m) c 0 t) (iblk1 (E2 m) c 1 t) (iblk1 (E2 m) c 2 t) (iblk1 (E2 m) c 3 t) (ix2 r j)
      = contrib (argsOf m c) (hd t) (row (base t) (base_le t) r) j :=
  contrib_block (argsOf m c) (hd t) (base t) (base_le t) _ _ (hq m c t) (hk m c t) _ _ (hv m c t) (hw m c t) r j

/-- Head h' of tile qi's sum, as a function of a natural number (zero past the sixteenth head). -/
def share (qi : Fin 4) (h' : ℕ) (r : Fin 512) (j : Fin 1024) : EReal :=
  if hh : h' < 16 then contrib (argsOf m c) ⟨h', hh⟩ (row (qi.val * 512) (by have := qi.isLt; omega) r) j else 0

/-- After head h of tile qi the accumulator holds the sum of the first h + 1 heads' shares. -/
theorem acc_eq (qi : Fin 4) : ∀ (h : ℕ) (hh : h < 16) (r : Fin 512) (j : Fin 1024),
    accAt (E2 m) c (qi.val * 16 + h) (by rw [N64]; have := qi.isLt; omega) (ix2 r j)
      = ∑ h' ∈ Finset.range (h + 1), share m c qi h' r j := by
  have hqi := qi.isLt
  intro h
  induction h with
  | zero =>
    intro hh r j
    let t : Fin cfg1.N := ⟨qi.val * 16 + 0, by rw [N64]; omega⟩
    have ht : t.val % 16 = 0 := by show (qi.val * 16 + 0) % 16 = 0; omega
    have e := accAt_first (E2 m) c t ht
    rw [show accAt (E2 m) c (qi.val * 16 + 0) _ = accAt (E2 m) c t.val t.isLt from rfl, e, pay_acc, pay_zero, zero_add, contrib_at m c t r j,
      Finset.sum_range_one]
    unfold share
    rw [dif_pos (by omega : 0 < 16)]
    have h1 : hd t = ⟨0, by omega⟩ := Fin.ext ht
    have h2 : row (base t) (base_le t) r = row (qi.val * 512) (by omega) r := Fin.ext (by show t.val / 16 * 512 + r.val = qi.val * 512 + r.val; show (qi.val * 16 + 0) / 16 * 512 + r.val = _; omega)
    rw [h1, h2]
  | succ h ih =>
    intro hh r j
    let t : Fin cfg1.N := ⟨qi.val * 16 + (h + 1), by rw [N64]; omega⟩
    have ht : t.val % 16 ≠ 0 := by show (qi.val * 16 + (h + 1)) % 16 ≠ 0; omega
    have e := accAt_next (E2 m) c t ht
    rw [show accAt (E2 m) c (qi.val * 16 + (h + 1)) _ = accAt (E2 m) c t.val t.isLt from rfl, e, pay_acc,
      accAt_congr c (E2 m) (t.val - 1) (qi.val * 16 + h) _ (by rw [N64]; omega) (by show qi.val * 16 + (h + 1) - 1 = _; omega),
      ih (by omega) r j, contrib_at m c t r j, Finset.sum_range_succ _ (h + 1)]
    congr 1
    unfold share
    rw [dif_pos hh]
    have h1 : hd t = ⟨h + 1, hh⟩ := Fin.ext (by show (qi.val * 16 + (h + 1)) % 16 = h + 1; omega)
    have h2 : row (base t) (base_le t) r = row (qi.val * 512) (by omega) r := Fin.ext (by show (qi.val * 16 + (h + 1)) / 16 * 512 + r.val = qi.val * 512 + r.val; omega)
    rw [h1, h2]

/-! ## The output -/

/-- What a tile's last head writes back into the output array is its block of the specification's output. -/
theorem flushedO (t : Fin cfg1.N) (hf : (cfg1.win 6).flush t = true) :
    (dat1 (E2 m) c).flushed 6 t = ((cfg1.win 6).blk t).view.read (Elt Ideal) (out (argsOf m c)) := by
  have h15 : t.val % 16 = 15 := (flush1_6 t).mp hf
  have hN : t.val < 64 := lt_of_lt_of_eq t.isLt N64
  show (cfg1.win 6).cut (grid1.coords t) ((dat1 (E2 m) c).after 6 t) = _
  rw [out_after (E2 m) c t h15]
  funext i
  obtain ⟨r, j, rfl⟩ : ∃ (r : Fin 512) (j : Fin 1024), i = ix2 r j := ⟨i 0, i 1, eq_ix2 i⟩
  show k1_pay2 (accAt (E2 m) c t.val t.isLt) (iblk1 (E2 m) c 4 t) (ix2 r j)
    = out (argsOf m c) (((cfg1.win 6).blk t).view.emb (ix2 r j))
  let qi : Fin 4 := ⟨t.val / 16, by omega⟩
  have hemb : ((cfg1.win 6).blk t).view.emb (ix2 r j) = ix2 (row (qi.val * 512) (by have := qi.isLt; omega) r) j := by
    obtain ⟨-, -, -, -, -, -, -, -, -, -, -, -, -, -, -, e0, e1⟩ := idx1 t
    funext a; apply Fin.ext
    match a with
    | ⟨0, _⟩ => show win1_6.index t (0 : Fin 2) * 512 + 1 * r.val = t.val / 16 * 512 + r.val; omega
    | ⟨1, _⟩ => show win1_6.index t (1 : Fin 2) * 1024 + 1 * j.val = j.val; omega
  rw [hemb, out_apply, pay_final, hb m c t j,
    accAt_congr c (E2 m) t.val (qi.val * 16 + 15) _ (by rw [N64]; have := qi.isLt; omega) (by show t.val = t.val / 16 * 16 + 15; omega),
    acc_eq m c qi 15 (by omega) r j, Finset.sum_range]
  refine congrArg (· + (argsOf m c).bo (ix1 j)) (Finset.sum_congr rfl fun h' _ => ?_)
  unfold share
  rw [dif_pos h'.isLt]

/-- The output array after the run. -/
theorem finalO : (dat1 (E2 m) c).arrAt 6 cfg1.N = out (argsOf m c) :=
  (dat1 (E2 m) c).arrAt_eq_of_cover 6 (out (argsOf m c)) (fun t hf => flushedO m c t hf) coverO

/-! ## The run, read -/

/-- Every weakly fair execution of the program at the ideal instance terminates with the two result arrays at the
    specification's output and attention weights of the argument arrays, the arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v10_1) = out (argsOf m c)
      ∧ r.2.mem ((c.tc : Thread nD τ).loc main_v10_0) = weights (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
    (h c _ (mem_uc main_v10_1 (by decide))).trans ((B3_arr m c 6).trans (finalO m c)),
    (h c _ (mem_uc main_v10_0 (by decide))).trans ((B3_arr m c 5).trans (finalW m c)),
    (h c _ (mem_uc main_arg0 (by decide))).trans (B3_main_arg0 m c),
    (h c _ (mem_uc main_arg1 (by decide))).trans (B3_main_arg1 m c),
    (h c _ (mem_uc main_arg2 (by decide))).trans (B3_main_arg2 m c),
    (h c _ (mem_uc main_arg3 (by decide))).trans (B3_main_arg3 m c),
    (h c _ (mem_uc main_arg4 (by decide))).trans (B3_main_arg4 m c),
    (h c _ (mem_uc main_arg5 (by decide))).trans (B3_main_arg5 m c),
    (h c _ (mem_uc main_arg6 (by decide))).trans (B3_main_arg6 m c),
    (h c _ (mem_uc main_arg7 (by decide))).trans (B3_main_arg7 m c),
    (h c _ (mem_uc main_arg8 (by decide))).trans (B3_main_arg8 m c)⟩) (run_all m ρ)

end Cert.KernelIdeal.Val

end
-- ==== Proof.RefLaws.lean ====
/-
  Laws of the extended reals that join the two arrangements of multi-head attention.

  * The f32 word 0x3D000000 and the bf16 word 0x3D00 both denote the real 2⁻⁵; the f32 word 0xFF800000 denotes −∞.
  * A nonnegative FINITE factor distributes over any finite sum of extended reals, whatever the summands (no
    summand needs to be finite): so a dot product scaled afterwards is the dot product of the scaled left factor.
  * A sum over the 1024 features is the sum over the 16 heads of the sums over each head's 64 lanes, feature
    64·h + d being lane d of head h.
-/
import proofs.«112914_j24472723653394_2_alg».proof.Proof.MhaSpec

noncomputable section

namespace Cert.Mha.Ref

open Idealize.ShloMosaic

/-- The specification's scale is the real 1/32. -/
theorem scale_eq : Cert.Mha.scale = (((1 : ℝ) / 32 : ℝ) : EReal) := by
  unfold Cert.Mha.scale
  simp [Ideal.ofBits, Ideal.ieee, -EReal.coe_mul]; norm_num

/-- The f32 literal 0.03125 is the same extended real as the bf16 literal 0.03125. -/
theorem scale_f32 : Ideal.ofBits .f32 0x3D000000#32 = Cert.Mha.scale := by
  rw [scale_eq]
  simp [Ideal.ofBits, Ideal.ieee, -EReal.coe_mul]; norm_num

theorem scale_nonneg : (0 : EReal) ≤ Cert.Mha.scale := by
  rw [scale_eq]; exact EReal.coe_nonneg.2 (by norm_num)

theorem scale_ne_top : Cert.Mha.scale ≠ ⊤ := by
  rw [scale_eq]; exact EReal.coe_ne_top _

/-- The f32 word 0xFF800000 is −∞, the least extended real. -/
theorem negInf_f32 : Ideal.ofBits .f32 0xFF800000#32 = (⊥ : EReal) := by
  simp [Ideal.ofBits, Ideal.ieee]

/-- The maximum of −∞ and any extended real is that extended real. -/
theorem max_negInf (y : EReal) : max (Ideal.ofBits .f32 0xFF800000#32) y = y := by
  rw [negInf_f32]; exact max_eq_right bot_le

/-- A nonnegative finite factor distributes over a finite sum of extended reals. -/
theorem sum_mul_of_nonneg_of_ne_top {ι : Type} (s : Finset ι) (f : ι → EReal) {c : EReal} (h0 : 0 ≤ c) (ht : c ≠ ⊤) :
    (∑ d ∈ s, f d) * c = ∑ d ∈ s, f d * c := by
  classical
  induction s using Finset.induction_on with
  | empty => simp
  | insert a s ha ih =>
    rw [Finset.sum_insert ha, Finset.sum_insert ha, EReal.right_distrib_of_nonneg_of_ne_top h0 ht, ih]

/-- A dot product scaled by 2⁻⁵ afterwards is the dot product with the scale on the left factor's lanes. -/
theorem dot_scale {ι : Type} [Fintype ι] (f g : ι → EReal) :
    (∑ d, f d * g d) * Cert.Mha.scale = ∑ d, (f d * Cert.Mha.scale) * g d := by
  rw [sum_mul_of_nonneg_of_ne_top _ _ scale_nonneg scale_ne_top]
  refine Finset.sum_congr rfl fun d _ => ?_
  rw [mul_assoc, mul_comm (g d), ← mul_assoc]

/-- A sum over the 1024 features, head by head: feature 64·h + d is lane d of head h. -/
theorem sum_feat (f : Fin 1024 → EReal) :
    ∑ e : Fin 1024, f e = ∑ h : Fin 16, ∑ d : Fin 64, f (Cert.Mha.feat h d) := by
  rw [← Fintype.sum_prod_type' (fun h d => f (Cert.Mha.feat h d))]
  symm
  refine Fintype.sum_equiv (finProdFinEquiv : Fin 16 × Fin 64 ≃ Fin 1024) _ _ fun x => ?_
  refine congrArg f (Fin.ext ?_)
  show x.1.val * 64 + x.2.val = x.2.val + 64 * x.1.val
  omega

end Cert.Mha.Ref

end
-- ==== Proof.RefBase.lean ====
/-
  What the reference side of the attention proof starts from: the reference's operations read one at a time at an
  index, and the specification of multi-head attention as two functions of the nine argument arrays.
-/
import proofs.«112914_j24472723653394_2_alg».proof.Proof.Gen.ReferenceIdeal.Read
import proofs.«112914_j24472723653394_2_alg».proof.Proof.MhaSpec
-- ==== Proof.RefLin.lean ====
/-
  The reference's linear layers and its head split, read at an index.

  A layer y = x·Wᵀ + b is printed as a transpose of W, a product contracting x's features with the transposed
  matrix's rows, and the bias broadcast over the rows: at row s, feature j it is Σ_e x[s,e]·W[j,e] + b[j].
  The head split reshapes [2048,1024] to [2048,16,64] and swaps the first two axes: entry (h,s,d) of the result
  is entry (s, 64·h + d) of the layer.  The three layers (and the three splits) are one function of their operands.
-/
import proofs.«112914_j24472723653394_2_alg».proof.Proof.RefBase

noncomputable section

namespace Cert.Mha.Ref

open Cert.ReferenceIdeal Cert.ReferenceIdeal.Gen Cert.ReferenceIdeal.Read Idealize.ShloMosaic Idealize.ShloMosaic.ValueIdx

/-- The first layer at row s, feature j: the dot product of row s of x with row j of W, plus b[j]. -/
theorem lin_read (x : (⟨S2048x1024, .f32⟩ : BufTy).Contents (Elt Ideal)) (W : (⟨S1024x1024, .f32⟩ : BufTy).Contents (Elt Ideal))
    (b : (⟨S1024, .f32⟩ : BufTy).Contents (Elt Ideal)) (s : Fin 2048) (j : Fin 1024) :
    val_main_v4 (F := Ideal) x W b (ix2 s j) = Cert.Mha.lin x W b s j := by
  have eb : idx_main_v2 (idx_main_v3 (ix2 s j)) = ix1 j := funext fun a => Fin.ext (by
    match a with
    | ⟨0, _⟩ => rfl)
  have el : ∀ k : Fin 1024, lidx_main_v1 (ix2 s j) k = ix2 s k := fun k => funext fun a => Fin.ext (by
    match a with
    | ⟨0, _⟩ => rfl
    | ⟨1, _⟩ => rfl)
  have er : ∀ k : Fin 1024, idx_main_v0 (ridx_main_v1 (ix2 s j) k) = ix2 j k := fun k => funext fun a => Fin.ext (by
    match a with
    | ⟨0, _⟩ => rfl
    | ⟨1, _⟩ => rfl)
  rw [val_main_v4_apply, val_main_v1_apply, val_main_v3_apply, val_main_v2_apply, eb, Ideal.addf_def]
  unfold Cert.Mha.lin
  refine congrArg (· + b (ix1 j)) (Finset.sum_congr rfl fun k _ => ?_)
  rw [val_main_v0_apply, el, er]

/-- The second and third layers are the first layer's function of their own operands. -/
theorem v9_eq (x : (⟨S2048x1024, .f32⟩ : BufTy).Contents (Elt Ideal)) (W : (⟨S1024x1024, .f32⟩ : BufTy).Contents (Elt Ideal))
    (b : (⟨S1024, .f32⟩ : BufTy).Contents (Elt Ideal)) : val_main_v9 (F := Ideal) x W b = val_main_v4 (F := Ideal) x W b := rfl

theorem v14_eq (x : (⟨S2048x1024, .f32⟩ : BufTy).Contents (Elt Ideal)) (W : (⟨S1024x1024, .f32⟩ : BufTy).Contents (Elt Ideal))
    (b : (⟨S1024, .f32⟩ : BufTy).Contents (Elt Ideal)) : val_main_v14 (F := Ideal) x W b = val_main_v4 (F := Ideal) x W b := rfl

/-- The head split of the first layer at head h, row s, lane d is the layer at row s, feature 64·h + d. -/
theorem split_read (x : (⟨S2048x1024, .f32⟩ : BufTy).Contents (Elt Ideal)) (W : (⟨S1024x1024, .f32⟩ : BufTy).Contents (Elt Ideal))
    (b : (⟨S1024, .f32⟩ : BufTy).Contents (Elt Ideal)) (h : Fin 16) (s : Fin 2048) (d : Fin 64) :
    val_main_v16 (F := Ideal) x W b (ix3 h s d) = Cert.Mha.lin x W b s (Cert.Mha.feat h d) := by
  have hh := h.isLt
  have hd := d.isLt
  have e : idx_main_v15 (idx_main_v16 (ix3 h s d)) = ix2 s (Cert.Mha.feat h d) := funext fun a => Fin.ext (by
    match a with
    | ⟨0, _⟩ => show ((s.val * 16 + h.val) * 64 + d.val) / 1024 = s.val; omega
    | ⟨1, _⟩ => show ((s.val * 16 + h.val) * 64 + d.val) % 1024 = h.val * 64 + d.val; omega)
  rw [val_main_v16_apply, val_main_v15_apply, e, lin_read]

theorem v18_eq (x : (⟨S2048x1024, .f32⟩ : BufTy).Contents (Elt Ideal)) (W : (⟨S1024x1024, .f32⟩ : BufTy).Contents (Elt Ideal))
    (b : (⟨S1024, .f32⟩ : BufTy).Contents (Elt Ideal)) : val_main_v18 (F := Ideal) x W b = val_main_v16 (F := Ideal) x W b := rfl

theorem v20_eq (x : (⟨S2048x1024, .f32⟩ : BufTy).Contents (Elt Ideal)) (W : (⟨S1024x1024, .f32⟩ : BufTy).Contents (Elt Ideal))
    (b : (⟨S1024, .f32⟩ : BufTy).Contents (Elt Ideal)) : val_main_v20 (F := Ideal) x W b = val_main_v16 (F := Ideal) x W b := rfl

end Cert.Mha.Ref

end
-- ==== Proof.RefSoftmax.lean ====
/-
  The reference's attention weights, read at an index.

  scores = (Σ_d Qh·Kh) · 2⁻⁵ is the specification's score (the finite nonnegative scale moves onto the query's lanes);
  the softmax over the last axis is printed as: the maximum over the axis folded from −∞ (then once more the maximum
  with −∞, the identity), the difference, the exponential, the sum over the axis from 0, and the quotient.
-/
import proofs.«112914_j24472723653394_2_alg».proof.Proof.RefLaws
import proofs.«112914_j24472723653394_2_alg».proof.Proof.RefLin

noncomputable section

namespace Cert.Mha.Ref

open Cert.ReferenceIdeal Cert.ReferenceIdeal.Gen Cert.ReferenceIdeal.Read Idealize.ShloMosaic Idealize.ShloMosaic.ValueIdx

/-- Nine arrays packed as the specification's arguments. -/
abbrev mkArgs (x0 : (⟨S2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) : Cert.Mha.Args :=
  ⟨x0, x1, x2, x3, x4, x5, x6, x7, x8⟩

variable (x0 : (⟨S2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal))

/-- The scaled scores at head h, query row s, key row t. -/
theorem score_read (h : Fin 16) (s t : Fin 2048) :
    val_main_v23 (F := Ideal) x0 x1 x2 x3 x4 (ix3 h s t) = Cert.Mha.score (mkArgs x0 x1 x2 x3 x4 x5 x6 x7 x8) h s t := by
  have el : ∀ k : Fin 64, lidx_main_v21 (ix3 h s t) k = ix3 h s k := fun k => funext fun a => Fin.ext (by
    match a with
    | ⟨0, _⟩ => rfl
    | ⟨1, _⟩ => rfl
    | ⟨2, _⟩ => rfl)
  have er : ∀ k : Fin 64, ridx_main_v21 (ix3 h s t) k = ix3 h t k := fun k => funext fun a => Fin.ext (by
    match a with
    | ⟨0, _⟩ => rfl
    | ⟨1, _⟩ => rfl
    | ⟨2, _⟩ => rfl)
  rw [val_main_v23_apply, val_main_v21_apply, val_main_v22_apply, val_main_cst_apply, Ideal.mulf_def, Ideal.ofBits_def, scale_f32]
  refine Eq.trans ?_ (dot_scale (fun d : Fin 64 => Cert.Mha.lin x0 x1 x2 s (Cert.Mha.feat h d))
    (fun d : Fin 64 => Cert.Mha.lin x0 x3 x4 t (Cert.Mha.feat h d)))
  refine congrArg (· * Cert.Mha.scale) (Finset.sum_congr rfl fun k _ => ?_)
  rw [el, er, split_read, v18_eq, split_read]

/-- A reduced index (h, s) with coordinate k put back on the last axis is (h, s, k). -/
theorem lift_ix3 (hr : S16x2048x2048.Reduces [2] S16x2048) (h : Fin 16) (s : Fin 2048) (k : Fin (S16x2048x2048.size 2)) :
    hr.lift (ix2 h s) k = ix3 h s (⟨k.val, k.isLt⟩ : Fin 2048) := by
  funext c; apply Fin.ext
  fin_cases c <;> rfl

/-- The row maximum at head h, row s: the fold of max from −∞ over the key rows. -/
theorem rowMax_read (h : Fin 16) (s : Fin 2048) :
    val_main_v26 (F := Ideal) x0 x1 x2 x3 x4 (ix2 h s) = Cert.Mha.rowMax (mkArgs x0 x1 x2 x3 x4 x5 x6 x7 x8) h s := by
  have hr : S16x2048x2048.Reduces [2] S16x2048 := by decide
  rw [val_main_v26_apply, Ideal.maximumf_def, val_main_v25_apply, val_main_cst_1_apply, Ideal.ofBits_def, max_negInf]
  unfold val_main_v24
  rw [Host.reduce_eq_fold_single FloatOps.maximumf _ _ reducesTo_S16x2048x2048_S16x2048_d2 hr h_S_]
  have hf : (val_main_v23 (F := Ideal) x0 x1 x2 x3 x4 ∘ hr.lift (ix2 h s))
      = fun t : Fin 2048 => Cert.Mha.score (mkArgs x0 x1 x2 x3 x4 x5 x6 x7 x8) h s t :=
    funext fun k => (congrArg (val_main_v23 (F := Ideal) x0 x1 x2 x3 x4) (lift_ix3 hr h s k)).trans
      (score_read x0 x1 x2 x3 x4 x5 x6 x7 x8 h s _)
  exact congrArg (fun f => Finset.fold max (Ideal.ofBits .f32 0xFF800000#32) f (Finset.univ : Finset (Fin 2048))) hf

/-- The exponential of the score less its row's maximum. -/
theorem expo_read (h : Fin 16) (s t : Fin 2048) :
    val_main_v30 (F := Ideal) x0 x1 x2 x3 x4 (ix3 h s t) = Cert.Mha.expo (mkArgs x0 x1 x2 x3 x4 x5 x6 x7 x8) h s t := by
  have e : idx_main_v27 (idx_main_v28 (ix3 h s t)) = ix2 h s := funext fun a => Fin.ext (by
    match a with
    | ⟨0, _⟩ => rfl
    | ⟨1, _⟩ => rfl)
  rw [val_main_v30_apply, val_main_v29_apply, val_main_v28_apply, val_main_v27_apply, e,
    rowMax_read x0 x1 x2 x3 x4 x5 x6 x7 x8, score_read x0 x1 x2 x3 x4 x5 x6 x7 x8, Ideal.hostUnary_exp_def, Ideal.subf_def]
  rfl

/-- The sum of a row's exponentials. -/
theorem denom_read (h : Fin 16) (s : Fin 2048) :
    val_main_v31 (F := Ideal) x0 x1 x2 x3 x4 (ix2 h s) = Cert.Mha.denom (mkArgs x0 x1 x2 x3 x4 x5 x6 x7 x8) h s := by
  have e : ∀ k : Fin 2048, idx_main_v31 (ix2 h s) k = ix3 h s k := fun k => funext fun a => Fin.ext (by
    match a with
    | ⟨0, _⟩ => rfl
    | ⟨1, _⟩ => rfl
    | ⟨2, _⟩ => rfl)
  rw [val_main_v31_apply, val_main_cst_2_apply, Ideal.ofBits_def, Ideal.ofBits_zero_f32, zero_add]
  unfold Cert.Mha.denom
  refine Finset.sum_congr rfl fun k _ => ?_
  rw [e, expo_read x0 x1 x2 x3 x4 x5 x6 x7 x8]

/-- The attention weight at head h, query row s, key row t. -/
theorem attn_read (h : Fin 16) (s t : Fin 2048) :
    val_main_v34 (F := Ideal) x0 x1 x2 x3 x4 (ix3 h s t) = Cert.Mha.attn (mkArgs x0 x1 x2 x3 x4 x5 x6 x7 x8) h s t := by
  have e : idx_main_v32 (idx_main_v33 (ix3 h s t)) = ix2 h s := funext fun a => Fin.ext (by
    match a with
    | ⟨0, _⟩ => rfl
    | ⟨1, _⟩ => rfl)
  rw [val_main_v34_apply, val_main_v33_apply, val_main_v32_apply, e,
    denom_read x0 x1 x2 x3 x4 x5 x6 x7 x8, expo_read x0 x1 x2 x3 x4 x5 x6 x7 x8, Ideal.hostDivf_def]
  rfl

/-- The reference's second result is the specification's attention weights. -/
theorem weights_eq :
    val_main_v34 (F := Ideal) x0 x1 x2 x3 x4 = Cert.Mha.weights (mkArgs x0 x1 x2 x3 x4 x5 x6 x7 x8) := by
  funext i
  obtain ⟨h, s, t, rfl⟩ : ∃ (h : Fin 16) (s t : Fin 2048), i = ix3 h s t := ⟨i 0, i 1, i 2, eq_ix3 i⟩
  exact attn_read x0 x1 x2 x3 x4 x5 x6 x7 x8 h s t

end Cert.Mha.Ref

end
-- ==== Proof.RefOut.lean ====
/-
  The reference's first result, read at an index.

  The context of head h is the product of its attention weights with its value lanes, Σ_t attn[h,s,t]·V[t, 64·h + d].
  The heads are put back side by side (axes swapped, then [2048,16,64] reshaped to [2048,1024]): entry (s, 64·h + d)
  of the merged array is the context of head h at row s, lane d.  The output layer is one more y = c·Woᵀ + bo over
  all 1024 features; taken head by head its sum is the sum over the heads of each head's share.
-/
import proofs.«112914_j24472723653394_2_alg».proof.Proof.RefSoftmax

noncomputable section

namespace Cert.Mha.Ref

open Cert.ReferenceIdeal Cert.ReferenceIdeal.Gen Cert.ReferenceIdeal.Read Idealize.ShloMosaic Idealize.ShloMosaic.ValueIdx

variable (x0 : (⟨S2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal))

/-- Head h's context at row s, lane d. -/
theorem ctx_read (h : Fin 16) (s : Fin 2048) (d : Fin 64) :
    val_main_v35 (F := Ideal) x0 x1 x2 x3 x4 x5 x6 (ix3 h s d) = Cert.Mha.ctx (mkArgs x0 x1 x2 x3 x4 x5 x6 x7 x8) h s d := by
  have el : ∀ k : Fin 2048, lidx_main_v35 (ix3 h s d) k = ix3 h s k := fun k => funext fun a => Fin.ext (by
    match a with
    | ⟨0, _⟩ => rfl
    | ⟨1, _⟩ => rfl
    | ⟨2, _⟩ => rfl)
  have er : ∀ k : Fin 2048, ridx_main_v35 (ix3 h s d) k = ix3 h k d := fun k => funext fun a => Fin.ext (by
    match a with
    | ⟨0, _⟩ => rfl
    | ⟨1, _⟩ => rfl
    | ⟨2, _⟩ => rfl)
  rw [val_main_v35_apply]
  show _ = ∑ t : Fin 2048, Cert.Mha.attn (mkArgs x0 x1 x2 x3 x4 x5 x6 x7 x8) h s t * Cert.Mha.lin x0 x5 x6 t (Cert.Mha.feat h d)
  refine Finset.sum_congr rfl fun k _ => ?_
  rw [el, er, attn_read x0 x1 x2 x3 x4 x5 x6 x7 x8, v20_eq, split_read]

/-- The merged contexts at row s, feature 64·h + d: head h's context at row s, lane d. -/
theorem merge_read (s : Fin 2048) (h : Fin 16) (d : Fin 64) :
    val_main_v37 (F := Ideal) x0 x1 x2 x3 x4 x5 x6 (ix2 s (Cert.Mha.feat h d)) = Cert.Mha.ctx (mkArgs x0 x1 x2 x3 x4 x5 x6 x7 x8) h s d := by
  have hh := h.isLt
  have hd := d.isLt
  have e : idx_main_v36 (idx_main_v37 (ix2 s (Cert.Mha.feat h d))) = ix3 h s d := funext fun a => Fin.ext (by
    match a with
    | ⟨0, _⟩ => show (s.val * 1024 + (h.val * 64 + d.val)) / 64 % 16 = h.val; omega
    | ⟨1, _⟩ => show (s.val * 1024 + (h.val * 64 + d.val)) / 1024 = s.val; omega
    | ⟨2, _⟩ => show (s.val * 1024 + (h.val * 64 + d.val)) % 64 = d.val; omega)
  rw [val_main_v37_apply, val_main_v36_apply, e, ctx_read x0 x1 x2 x3 x4 x5 x6 x7 x8]

/-- The output layer is the first layer's function of the merged contexts, Wo and bo. -/
theorem v42_eq : val_main_v42 (F := Ideal) x0 x1 x2 x3 x4 x5 x6 x7 x8
    = val_main_v4 (F := Ideal) (val_main_v37 (F := Ideal) x0 x1 x2 x3 x4 x5 x6) x7 x8 := rfl

/-- The reference's first result is the specification's output. -/
theorem out_eq : val_main_v42 (F := Ideal) x0 x1 x2 x3 x4 x5 x6 x7 x8 = Cert.Mha.out (mkArgs x0 x1 x2 x3 x4 x5 x6 x7 x8) := by
  funext i
  obtain ⟨s, j, rfl⟩ : ∃ (s : Fin 2048) (j : Fin 1024), i = ix2 s j := ⟨i 0, i 1, eq_ix2 i⟩
  rw [Cert.Mha.out_apply, v42_eq, lin_read]
  unfold Cert.Mha.lin
  rw [sum_feat]
  refine congrArg (· + x8 (ix1 j)) (Finset.sum_congr rfl fun h _ => ?_)
  show _ = ∑ d : Fin 64, Cert.Mha.ctx (mkArgs x0 x1 x2 x3 x4 x5 x6 x7 x8) h s d * x7 (ix2 j (Cert.Mha.feat h d))
  refine Finset.sum_congr rfl fun d _ => ?_
  rw [merge_read x0 x1 x2 x3 x4 x5 x6 x7 x8]

end Cert.Mha.Ref

end
-- ==== Proof.RefRun.lean ====
/-
  The reference's run, with its two results named by the specification.

  Every weakly fair execution of the reference from a memory m' ends, without a fault, with its first result the
  specification's output and its second the specification's attention weights, both of the nine argument arrays as
  m' holds them at the start, and with those nine arrays unchanged.
-/
import proofs.«112914_j24472723653394_2_alg».proof.Proof.RefOut

noncomputable section

namespace Cert.Mha.Ref

open Idealize.ShloMosaic Idealize.ShloMosaic.TcCoe Idealize.SL.Sem

/-- The nine argument arrays of the reference, as a memory holds them on device c, packed for the specification. -/
def refArgs (m' : (ℓ : Loc Cert.ReferenceIdeal.nD Cert.ReferenceIdeal.τ Cert.ReferenceIdeal.sig) → Buf (Elt Ideal) ℓ) (c : Dev Cert.ReferenceIdeal.nD) : Cert.Mha.Args :=
  ⟨m' ((c.tc : Thread Cert.ReferenceIdeal.nD Cert.ReferenceIdeal.τ).loc Cert.ReferenceIdeal.main_arg0),
   m' ((c.tc : Thread Cert.ReferenceIdeal.nD Cert.ReferenceIdeal.τ).loc Cert.ReferenceIdeal.main_arg1),
   m' ((c.tc : Thread Cert.ReferenceIdeal.nD Cert.ReferenceIdeal.τ).loc Cert.ReferenceIdeal.main_arg2),
   m' ((c.tc : Thread Cert.ReferenceIdeal.nD Cert.ReferenceIdeal.τ).loc Cert.ReferenceIdeal.main_arg3),
   m' ((c.tc : Thread Cert.ReferenceIdeal.nD Cert.ReferenceIdeal.τ).loc Cert.ReferenceIdeal.main_arg4),
   m' ((c.tc : Thread Cert.ReferenceIdeal.nD Cert.ReferenceIdeal.τ).loc Cert.ReferenceIdeal.main_arg5),
   m' ((c.tc : Thread Cert.ReferenceIdeal.nD Cert.ReferenceIdeal.τ).loc Cert.ReferenceIdeal.main_arg6),
   m' ((c.tc : Thread Cert.ReferenceIdeal.nD Cert.ReferenceIdeal.τ).loc Cert.ReferenceIdeal.main_arg7),
   m' ((c.tc : Thread Cert.ReferenceIdeal.nD Cert.ReferenceIdeal.τ).loc Cert.ReferenceIdeal.main_arg8)⟩

/-- The reference ends with the specification's two functions of its arguments, and leaves the arguments as launched. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v42) = Cert.Mha.out (refArgs m' c)
      ∧ r.2.mem ((c.tc : Thread Cert.ReferenceIdeal.nD Cert.ReferenceIdeal.τ).loc Cert.ReferenceIdeal.main_v34) = Cert.Mha.weights (refArgs m' c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)) :=
  (θ_run Cert.ReferenceIdeal.defs _ _).mono (fun _ h c =>
    ⟨(h c).1.trans ((Cert.ReferenceIdeal.Read.val_main_v42_eq m' c).trans (out_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))),
     (h c).2.1.trans ((Cert.ReferenceIdeal.Read.val_main_v34_eq m' c).trans (weights_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)))),
     (h c).2.2⟩)
    (Cert.ReferenceIdeal.Value.run (F := Ideal) m' ρ')

end Cert.Mha.Ref

end
-- ==== Proof.ArgsAgree.lean ====
/-
  The two programs start from the same nine arrays.

  The comparison of the two idealized programs runs them from memories that agree on the nine arguments, array by
  array.  The reference's packing of its arguments and the kernel program's packing of its own are then one and the
  same element of the specification's argument type.
-/
import proofs.«112914_j24472723653394_2_alg».proof.Proof.RefRun
import proofs.«112914_j24472723653394_2_alg».proof.Proof.QkvHost

noncomputable section

namespace Cert.Mha.Ref

open Idealize.ShloMosaic Idealize.ShloMosaic.TcCoe Idealize.SL.Sem

/-- Arguments are determined by their nine arrays. -/
theorem args_ext {A B : Cert.Mha.Args} (h0 : A.x = B.x) (h1 : A.Wq = B.Wq) (h2 : A.bq = B.bq) (h3 : A.Wk = B.Wk)
    (h4 : A.bk = B.bk) (h5 : A.Wv = B.Wv) (h6 : A.bv = B.bv) (h7 : A.Wo = B.Wo) (h8 : A.bo = B.bo) : A = B := by
  obtain ⟨a0, a1, a2, a3, a4, a5, a6, a7, a8⟩ := A
  obtain ⟨b0, b1, b2, b3, b4, b5, b6, b7, b8⟩ := B
  simp only [Cert.Mha.Args.mk.injEq]
  exact ⟨h0, h1, h2, h3, h4, h5, h6, h7, h8⟩

/-- From memories agreeing on the nine arguments, the reference's arguments are the kernel program's. -/
theorem refArgs_eq_argsOf (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (c : Dev Cert.KernelIdeal.nD) : refArgs m' c = Cert.KernelIdeal.Val.argsOf m c :=
  args_ext (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2

end Cert.Mha.Ref

end
-- ==== Proof.lean ====
/-
  Multi-head self-attention, a two-kernel Pallas program against its jnp reference: the certificate's five claims.

  Both programs compute, for 2048 rows of 1024 features and 16 heads of 64 lanes, the attention weights
  softmax_t(Σ_d Q[s,hd]·K[t,hd] / 32) and the output Σ_h Σ_d (Σ_t attn·V)·Wo + bo (Proof/MhaSpec.lean has the two
  functions). They differ only in arrangement, and at the ideal instance — floats the extended reals, every
  operation exact, a change of format the identity — no arrangement matters:
   * the kernel multiplies the query's lanes by 2⁻⁵ before the score product, the reference multiplies the product:
     a nonnegative finite factor distributes over a finite sum of extended reals;
   * the kernel adds up the output projection head by head in an accumulator, the reference takes one sum over the
     1024 features: a sum over 16·64 indices taken block by block;
   * the kernel projects Q, K and V by one product against the three weight matrices side by side, tiles the rows,
     and works through 64 grid points; the reference does three products on whole arrays.
  The kernel's side: each kernel region is run at any float instance (Proof/KI, and its copy Proof/K for the
  word-level program), the program is a run of three segments whose last boundary pins every buffer (Run), the
  payloads read at an index at the ideal instance (Payload*), the blocks assembled into the arrays (QkvArrays,
  AttnArrays). The reference's side: its generated run read one operation at a time (Ref*). No finiteness of the
  inputs is used anywhere; the ideal pass rewrote nothing, so the idealization claim is trivial.
-/
import proofs.«112914_j24472723653394_2_alg».proof.Defs
import proofs.«112914_j24472723653394_2_alg».proof.Proof.Gen.Kernel
import proofs.«112914_j24472723653394_2_alg».proof.Proof.Gen.KernelIdeal
import proofs.«112914_j24472723653394_2_alg».proof.Proof.Gen.ReferenceIdeal
import proofs.«112914_j24472723653394_2_alg».proof.Proof.Gen.Pre_finite_inputs
import proofs.«112914_j24472723653394_2_alg».proof.Proof.K.Run
import proofs.«112914_j24472723653394_2_alg».proof.Proof.KI.Run
import proofs.«112914_j24472723653394_2_alg».proof.Proof.AttnArrays
import proofs.«112914_j24472723653394_2_alg».proof.Proof.RefRun
import proofs.«112914_j24472723653394_2_alg».proof.Proof.ArgsAgree
import Idealize.ShloMosaic.Adequacy
import Idealize.ShloMosaic.Init

noncomputable section

namespace Cert.Proof

open Idealize.ShloMosaic Idealize.SL.Sem

/-- The word-level program runs to the end, faults nowhere and leaves its arguments unchanged. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- And the reference: its run with the results dropped. -/
theorem frame_ri : Cert.frame_ReferenceIdeal := fun m ρ _ =>
  (θ_run Cert.ReferenceIdeal.defs _ _).mono (fun _ h c => (h c).2.2) (Cert.Mha.Ref.ref_run m ρ)

/-- The ideal pass rewrote no operation. -/
theorem preserves : Cert.preserves_Kernel_KernelIdeal := trivial

/-- From memories agreeing on the nine arguments both programs end with the specification's output and attention
    weights of those arguments. -/
theorem algebraic : Cert.algebraic_KernelIdeal_ReferenceIdeal := by
  intro m ρ m' ρ' _ hagree
  refine ⟨fun c => Cert.Mha.out (Cert.KernelIdeal.Val.argsOf m c), fun c => Cert.Mha.weights (Cert.KernelIdeal.Val.argsOf m c),
    Cert.KernelIdeal.Val.kernel_run m ρ, ?_⟩
  refine (θ_run Cert.ReferenceIdeal.defs _ _).mono (fun _ h c => ?_) (Cert.Mha.Ref.ref_run m' ρ')
  have hc := h c
  rw [Cert.Mha.Ref.refArgs_eq_argsOf m m' hagree c] at hc
  exact hc

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
